-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x1024x768 .f32) (main_arg1 : FVec F S2304x768 .f32) (main_arg2 : FVec F S768x768 .f32) (main_arg3 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S768x2304 : Shape := ⟨2, ![768, 2304]⟩
abbrev S8x1024x2304 : Shape := ⟨3, ![8, 1024, 2304]⟩
abbrev S1x256x768 : Shape := ⟨3, ![1, 256, 768]⟩
abbrev S1x256x2304 : Shape := ⟨3, ![1, 256, 2304]⟩
abbrev S256x768 : Shape := ⟨2, ![256, 768]⟩
abbrev S256x2304 : Shape := ⟨2, ![256, 2304]⟩
abbrev S1x1024x128 : Shape := ⟨3, ![1, 1024, 128]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x768 : Shape := ⟨2, ![1, 768]⟩

abbrev nBuf : Space → Nat
  | .hbm => 12
  | .vmem => 19
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S768x2304, .f32⟩
  | .hbm, ⟨5, _⟩ => ⟨S768x2304, .bf16⟩
  | .hbm, ⟨6, _⟩ => ⟨S8x1024x2304, .bf16⟩
  | .hbm, ⟨7, _⟩ => ⟨S8x1024x768, .bf16⟩
  | .hbm, ⟨8, _⟩ => ⟨S768x768, .f32⟩
  | .hbm, ⟨9, _⟩ => ⟨S768x768, .bf16⟩
  | .hbm, ⟨10, _⟩ => ⟨S1x768, .f32⟩
  | .hbm, ⟨11, _⟩ => ⟨S8x1024x768, .f32⟩
  | .local _ .vmem, ⟨0, _⟩ => ⟨S1x256x768, .f32⟩
  | .local _ .vmem, ⟨1, _⟩ => ⟨S1x256x768, .f32⟩
  | .local _ .vmem, ⟨2, _⟩ => ⟨S768x2304, .bf16⟩
  | .local _ .vmem, ⟨3, _⟩ => ⟨S1x256x2304, .bf16⟩
  | .local _ .vmem, ⟨4, _⟩ => ⟨S1x256x2304, .bf16⟩
  | .local _ .vmem, ⟨5, _⟩ => ⟨S1x1024x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x256x768, .bf16⟩
  | .local _ .vmem, ⟨14, _⟩ => ⟨S1x256x768, .bf16⟩
  | .local _ .vmem, ⟨15, _⟩ => ⟨S768x768, .bf16⟩
  | .local _ .vmem, ⟨16, _⟩ => ⟨S1x768, .f32⟩
  | .local _ .vmem, ⟨17, _⟩ => ⟨S1x256x768, .f32⟩
  | .local _ .vmem, ⟨18, _⟩ => ⟨S1x256x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 6], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x256x768 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  transposes_S2304x768_S768x2304_1_0 : S2304x768.Transposes [1, 0] S768x2304
  bitsLt_bf16_f32 : FTy.bits .bf16 < FTy.bits .f32
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x256x2304_S1x256x2304_0_0_0 : ∀ a, (![0, 0, 0] : Fin 3 → Nat) a + S1x256x2304.size a ≤ S1x256x2304.size a
  h_S1x256x2304 : 0 < S1x256x2304.numel
  shapeCasts_S1x256x2304_S256x2304 : S1x256x2304.ShapeCasts S256x2304
  shapeCasts_S256x2304_S1x256x2304 : S256x2304.ShapeCasts S1x256x2304
  packedbf16_S1x256x2304_S1x256x2304_0_0_0 : (Rect.unit (s := S1x256x2304) ![0, 0, 0] S1x256x2304.size inb_S1x256x2304_S1x256x2304_0_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  slices_S1024x128_o0_64_S1024x64 : S1024x128.Slices ![0, 64] S1024x64
  concatenates_S1024x64_S1024x64_S1024x128_d1 : Shape.Concatenates [S1024x64, S1024x64] S1024x128 1
  shapeCasts_S1024x128_S1x1024x128 : S1024x128.ShapeCasts S1x1024x128
  packedbf16_S1x1024x128_S1x1024x128_0_0_0 : (Rect.unit (s := S1x1024x128) ![0, 0, 0] S1x1024x128.size inb_S1x1024x128_S1x1024x128_0_0_0).PackedRows (EltTy.packing .bf16)
  transposes_S768x768_S768x768_1_0 : S768x768.Transposes [1, 0] S768x768
  shapeCasts_S768_S1x768 : S768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S256x768_S1x256x768 : S256x768.ShapeCasts S1x256x768
  dot_S256x768_S768x2304_S256x2304_1_0_0_1_n_n_wf : DotDims.WF S256x768 S768x2304 S256x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x1024x768.size a
  hwx0_0 : ∀ i : grid0.Coords, EltTy.bits .f32 = 32 ∨ (Rect.block (s := S8x1024x768) S1x256x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2304.size a ≤ S8x1024x2304.size a
  hwx0_2 : ∀ i : grid0.Coords, EltTy.bits .bf16 = 32 ∨ (Rect.block (s := S8x1024x2304) S1x256x2304.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x2304.size a
  hwx1_0 : ∀ i : grid1.Coords, EltTy.bits .bf16 = 32 ∨ (Rect.block (s := S8x1024x2304) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x2304.size a
  hwx1_1 : ∀ i : grid1.Coords, EltTy.bits .bf16 = 32 ∨ (Rect.block (s := S8x1024x2304) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x2304.size a
  hwx1_2 : ∀ i : grid1.Coords, EltTy.bits .bf16 = 32 ∨ (Rect.block (s := S8x1024x2304) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S8x1024x768.size a
  hwx1_3 : ∀ i : grid1.Coords, EltTy.bits .bf16 = 32 ∨ (Rect.block (s := S8x1024x768) S1x1024x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x768.size a ≤ S8x1024x768.size a
  hwx2_0 : ∀ i : grid2.Coords, EltTy.bits .bf16 = 32 ∨ (Rect.block (s := S8x1024x768) S1x256x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x768.size a ≤ S8x1024x768.size a
  hwx2_3 : ∀ i : grid2.Coords, EltTy.bits .f32 = 32 ∨ (Rect.block (s := S8x1024x768) S1x256x768.size (cc2_transform_3 i) (hinb2_3 i)).WholeWords (EltTy.packing .f32)

variable [Facts₀]

def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_arg0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1x256x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1x256x768.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x1024x768 : Shape := ⟨3, ![8, 1024, 768]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x1024x2304, .f32⟩
  | .hbm, ⟨5, _⟩ => ⟨S8x1024x3x12x64, .f32⟩
  | .hbm, ⟨6, _⟩ => ⟨S3x8x12x1024x64, .f32⟩
  | .hbm, ⟨7, _⟩ => ⟨S1x8x12x1024x64, .f32⟩
  | .hbm, ⟨8, _⟩ => ⟨S8x12x1024x64, .f32⟩
  | .hbm, ⟨9, _⟩ => ⟨S1x8x12x1024x64, .f32⟩
  | .hbm, ⟨10, _⟩ => ⟨S8x12x1024x64, .f32⟩
  | .hbm, ⟨11, _⟩ => ⟨S1x8x12x1024x64, .f32⟩
  | .hbm, ⟨12, _⟩ => ⟨S8x12x1024x64, .f32⟩
  | .hbm, ⟨13, _⟩ => ⟨S8x12x1024x1024, .f32⟩
  | .hbm, ⟨14, _⟩ => ⟨S_, .f32⟩
  | .hbm, ⟨15, _⟩ => ⟨S8x12x1024x1024, .f32⟩
  | .hbm, ⟨16, _⟩ => ⟨S8x12x1024x1024, .f32⟩
  | .hbm, ⟨17, _⟩ => ⟨S_, .f32⟩
  | .hbm, ⟨18, _⟩ => ⟨S8x12x1024, .f32⟩
  | .hbm, ⟨19, _⟩ => ⟨S_, .f32⟩
  | .hbm, ⟨20, _⟩ => ⟨S8x12x1024, .f32⟩
  | .hbm, ⟨21, _⟩ => ⟨S8x12x1024, .f32⟩
  | .hbm, ⟨22, _⟩ => ⟨S8x12x1024x1, .f32⟩
  | .hbm, ⟨23, _⟩ => ⟨S8x12x1024x1024, .f32⟩
  | .hbm, ⟨24, _⟩ => ⟨S8x12x1024x1024, .f32⟩
  | .hbm, ⟨25, _⟩ => ⟨S8x12x1024x1024, .f32⟩
  | .hbm, ⟨26, _⟩ => ⟨S_, .f32⟩
  | .hbm, ⟨27, _⟩ => ⟨S8x12x1024, .f32⟩
  | .hbm, ⟨28, _⟩ => ⟨S8x12x1024x1, .f32⟩
  | .hbm, ⟨29, _⟩ => ⟨S8x12x1024x1024, .f32⟩
  | .hbm, ⟨30, _⟩ => ⟨S8x12x1024x1024, .f32⟩
  | .hbm, ⟨31, _⟩ => ⟨S8x12x1024x64, .f32⟩
  | .hbm, ⟨32, _⟩ => ⟨S8x1024x12x64, .f32⟩
  | .hbm, ⟨33, _⟩ => ⟨S8x1024x768, .f32⟩
  | .hbm, ⟨34, _⟩ => ⟨S8x1024x768, .f32⟩
  | .hbm, ⟨35, _⟩ => ⟨S1x1x768, .f32⟩
  | .hbm, ⟨36, _⟩ => ⟨S8x1024x768, .f32⟩
  | .hbm, ⟨37, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.KReg0.lean ====
/-
  The projection kernel that makes the query/key/value rows, at one grid point and over the grid.

  A grid point (b, i) is handed rows 256·i … 256·i+255 of batch entry b of the activations and the whole transposed
  weight, and writes their product into the same rows of its output. For any float instance: what the output block
  holds after the body as a function of the two input blocks, that the body run on the staging buffers leaves exactly
  that, and that each input buffer holds its block at every point.
-/
import proofs.«113627_j3161095930032_2_alg».proof.Proof.Gen.Kernel.Launch
import proofs.«113627_j3161095930032_2_alg».proof.Proof.Gen.Kernel.Skeleton
import proofs.«113627_j3161095930032_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input buffer holds its window's block at every point, brought in there or kept from the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x256x768 := Rect.unit (s := S1x256x768) ![0, 0, 0] S1x256x768.size inb_S1x256x768_S1x256x768_0_0_0
abbrev r0_1 : Rect S768x2304 := Rect.unit (s := S768x2304) ![0, 0] S768x2304.size inb_S768x2304_S768x2304_0_0
abbrev r0_2 : Rect S1x256x2304 := Rect.unit (s := S1x256x2304) ![0, 0, 0] S1x256x2304.size inb_S1x256x2304_S1x256x2304_0_0_0

/-- The output block after the body: its one store, as a function of the loaded input blocks. -/
def out0_2 (x0 : Vec F S1x256x768 .f32) (x1 : Vec F S768x2304 .bf16) : Vec F S1x256x2304 .bf16 :=
  View.canon [⟨r0_2, k0_pay1 (View.ld x0 r0_0) (View.ld x1 r0_1)⟩]

/-- The store covers the block. -/
theorem cover0_2 (p0 : Vec F S1x256x2304 .bf16) (y : S1x256x2304.Idx) :
    ∃ pc ∈ ([⟨r0_2, p0⟩] : List (View.Piece (Elt F) S1x256x2304 .bf16)), y ∈ pc.1.set :=
  View.cover_of_tiled [⟨r0_2, p0⟩] S1x256x2304.size (by rfl) y

set_option maxHeartbeats 1000000 in
/-- The body on whole staging buffers, the inputs' at read contents and the output's at anything, runs to the end with
    the inputs' as they were and the output's at `out0_2` of the inputs'. -/
theorem sound_kernel0 (c : Dev nD) (E : Set ℕ) (i : grid0.Coords) (arg0 : Memref sig .tc .vmem S1x256x768 .f32) (harg0 : arg0.IsWhole) (arg1 : Memref sig .tc .vmem S768x2304 .bf16) (harg1 : arg1.IsWhole) (arg2 : Memref sig .tc .vmem S1x256x2304 .bf16) (harg2 : arg2.IsWhole)
    (x0 : Vec F S1x256x768 .f32) (x1 : Vec F S768x2304 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline: the arrays as the region finds them; after the body each input buffer at its
    block and the output's at `out0_2` of the input blocks; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KReg1.lean ====
/-
  The attention kernel, at one grid point and over the grid.

  A grid point (b, p) is handed three 128-column blocks of batch entry b of the projected rows — the queries, keys
  and values of the two heads 2p and 2p+1 — and writes the two heads' attended rows side by side into the matching
  128 columns of its output. For any float instance: what the output block holds after the body as a function of the
  three input blocks, that the body run on the staging buffers leaves exactly that, and that each input buffer holds
  its block at every point. The three input windows look into one array; each holds its own share of it.
-/
import proofs.«113627_j3161095930032_2_alg».proof.Proof.Gen.Kernel.Launch
import proofs.«113627_j3161095930032_2_alg».proof.Proof.Gen.Kernel.Skeleton
import proofs.«113627_j3161095930032_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input buffer holds its window's block at every point, brought in there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x1024x128 := Rect.unit (s := S1x1024x128) ![0, 0, 0] S1x1024x128.size inb_S1x1024x128_S1x1024x128_0_0_0
abbrev r1_1 : Rect S1x1024x128 := Rect.unit (s := S1x1024x128) ![0, 0, 0] S1x1024x128.size inb_S1x1024x128_S1x1024x128_0_0_0
abbrev r1_2 : Rect S1x1024x128 := Rect.unit (s := S1x1024x128) ![0, 0, 0] S1x1024x128.size inb_S1x1024x128_S1x1024x128_0_0_0
abbrev r1_3 : Rect S1x1024x128 := Rect.unit (s := S1x1024x128) ![0, 0, 0] S1x1024x128.size inb_S1x1024x128_S1x1024x128_0_0_0

/-- The output block after the body: its one store, as a function of the loaded input blocks. -/
def out1_3 (x0 : Vec F S1x1024x128 .bf16) (x1 : Vec F S1x1024x128 .bf16) (x2 : Vec F S1x1024x128 .bf16) : Vec F S1x1024x128 .bf16 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1))⟩]

/-- The store covers the block. -/
theorem cover1_3 (p0 : Vec F S1x1024x128 .bf16) (y : S1x1024x128.Idx) :
    ∃ pc ∈ ([⟨r1_3, p0⟩] : List (View.Piece (Elt F) S1x1024x128 .bf16)), y ∈ pc.1.set :=
  View.cover_of_tiled [⟨r1_3, p0⟩] S1x1024x128.size (by rfl) y

set_option maxHeartbeats 1000000 in
/-- The body on whole staging buffers, the inputs' at read contents and the output's at anything, runs to the end with
    the inputs' as they were and the output's at `out1_3` of the inputs'. -/
theorem sound_kernel1 (c : Dev nD) (E : Set ℕ) (i : grid1.Coords) (arg0 : Memref sig .tc .vmem S1x1024x128 .bf16) (harg0 : arg0.IsWhole) (arg1 : Memref sig .tc .vmem S1x1024x128 .bf16) (harg1 : arg1.IsWhole) (arg2 : Memref sig .tc .vmem S1x1024x128 .bf16) (harg2 : arg2.IsWhole) (arg3 : Memref sig .tc .vmem S1x1024x128 .bf16) (harg3 : arg3.IsWhole)
    (x0 : Vec F S1x1024x128 .bf16) (x1 : Vec F S1x1024x128 .bf16) (x2 : Vec F S1x1024x128 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline: the arrays as the region finds them; after the body each input buffer at its
    block and the output's at `out1_3` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KReg2.lean ====
/-
  The output projection kernel, at one grid point and over the grid.

  A grid point (b, i) is handed rows 256·i … 256·i+255 of batch entry b of the attended rows, the whole transposed
  weight and the bias row, and writes the product plus the bias into the same rows of the result. For any float
  instance: what the output block holds after the body as a function of the three input blocks, that the body run on
  the staging buffers leaves exactly that, and that each input buffer holds its block at every point.
-/
import proofs.«113627_j3161095930032_2_alg».proof.Proof.Gen.Kernel.Launch
import proofs.«113627_j3161095930032_2_alg».proof.Proof.Gen.Kernel.Skeleton
import proofs.«113627_j3161095930032_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input buffer holds its window's block at every point, brought in there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x256x768 := Rect.unit (s := S1x256x768) ![0, 0, 0] S1x256x768.size inb_S1x256x768_S1x256x768_0_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0
abbrev r2_3 : Rect S1x256x768 := Rect.unit (s := S1x256x768) ![0, 0, 0] S1x256x768.size inb_S1x256x768_S1x256x768_0_0_0

/-- The output block after the body: its one store, as a function of the loaded input blocks. -/
def out2_3 (x0 : Vec F S1x256x768 .bf16) (x1 : Vec F S768x768 .bf16) (x2 : Vec F S1x768 .f32) : Vec F S1x256x768 .f32 :=
  View.canon [⟨r2_3, k2_pay1 (View.ld x0 r2_0) (View.ld x1 r2_1) (View.ld x2 r2_2)⟩]

/-- The store covers the block. -/
theorem cover2_3 (p0 : Vec F S1x256x768 .f32) (y : S1x256x768.Idx) :
    ∃ pc ∈ ([⟨r2_3, p0⟩] : List (View.Piece (Elt F) S1x256x768 .f32)), y ∈ pc.1.set :=
  View.cover_of_tiled [⟨r2_3, p0⟩] S1x256x768.size (by rfl) y

set_option maxHeartbeats 1000000 in
/-- The body on whole staging buffers, the inputs' at read contents and the output's at anything, runs to the end with
    the inputs' as they were and the output's at `out2_3` of the inputs'. -/
theorem sound_kernel2 (c : Dev nD) (E : Set ℕ) (i : grid2.Coords) (arg0 : Memref sig .tc .vmem S1x256x768 .bf16) (harg0 : arg0.IsWhole) (arg1 : Memref sig .tc .vmem S768x768 .bf16) (harg1 : arg1.IsWhole) (arg2 : Memref sig .tc .vmem S1x768 .f32) (harg2 : arg2.IsWhole) (arg3 : Memref sig .tc .vmem S1x256x768 .f32) (harg3 : arg3.IsWhole)
    (x0 : Vec F S1x256x768 .bf16) (x1 : Vec F S768x768 .bf16) (x2 : Vec F S1x768 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline: the arrays as the region finds them; after the body each input buffer at its
    block and the output's at `out2_3` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KRun.lean ====
/-
  The whole program as a run: the buffers' contents at each boundary of @main (the launch memory, then each stretch of
  host operations applied, then what each kernel region's write-backs leave), every kernel region as a segment of
  @main, and the run's conclusion — every weakly fair execution terminates, the result buffer holds what the last
  region's write-backs leave, and the four argument arrays hold what they held at launch.
-/
import proofs.«113627_j3161095930032_2_alg».proof.Proof.Gen.Kernel.Launch
import proofs.«113627_j3161095930032_2_alg».proof.Proof.Gen.Kernel.Skeleton
import proofs.«113627_j3161095930032_2_alg».proof.Proof.Gen.Kernel.Points
import proofs.«113627_j3161095930032_2_alg».proof.Proof.Gen.Kernel.Regions
import proofs.«113627_j3161095930032_2_alg».proof.Proof.KReg0
import proofs.«113627_j3161095930032_2_alg».proof.Proof.KReg1
import proofs.«113627_j3161095930032_2_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev Y0 : Dev nD → Valuation τ sig (Elt F) := fun c b => (s₀ m ρ).mem ((c : Dev nD), b)
/-- After the first stretch of host operations (the transposed, narrowed weight): what the first region is entered with. -/
abbrev Y1 : Dev nD → Valuation τ sig (Elt F) := fun c => StableHlo.after hostOps0 (Y0 m ρ c)
abbrev B1 : (c : Dev nD) → (b : Ref sig .tc) → Buf (Elt F) ((c : Thread nD τ).loc b) := fun c b => Y1 m ρ c b
/-- After the first region: its arrays at what its write-backs leave, every other buffer as entered. -/
def Y2 (c : Dev nD) : Valuation τ sig (Elt F) :=
  Pipeline.withArrays spec0 c (Y1 m ρ c) fun w => (dat0 (B1 m ρ) c).arrAt w cfg0.N
theorem Y2_arr (c : Dev nD) (w : Fin cfg0.W) :
    Y2 m ρ c (Proc.devRef .tc (Pipeline.arrRef spec0 w)) = (dat0 (B1 m ρ) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m ρ c (Proc.devRef .tc b) = Y1 m ρ c (Proc.devRef .tc b) := by
  unfold Y2; exact Pipeline.withArrays_of_ne spec0 c _ _ b hb
abbrev B2 : (c : Dev nD) → (b : Ref sig .tc) → Buf (Elt F) ((c : Thread nD τ).loc b) := fun c b => Y2 m ρ c b
theorem hF0 (c : Dev nD) (w : Fin cfg0.W) : (dat0 (B1 m ρ) c).arrAt w cfg0.N = B2 m ρ c (Pipeline.arrRef spec0 w) :=
  (Y2_arr m ρ c w).symm
theorem hrest0 (c : Dev nD) : ∀ b, b ∉ Finset.univ.image (Pipeline.arrRef spec0) → B2 m ρ c b = B1 m ρ c b :=
  fun b hb => Y2_of_ne m ρ c b fun w e => hb (Finset.mem_image.mpr ⟨w, Finset.mem_univ _, e⟩)

/-- After the attention region: its output array at what its write-backs leave, every other buffer as entered (its
    three input windows look into one array, which it only reads). -/
def Y3 (c : Dev nD) : Valuation τ sig (Elt F) :=
  Function.update (Y2 m ρ c) (Proc.devRef .tc main_v3) ((dat1 (B2 m ρ) c).arrAt 3 cfg1.N)
abbrev B3 : (c : Dev nD) → (b : Ref sig .tc) → Buf (Elt F) ((c : Thread nD τ).loc b) := fun c b => Y3 m ρ c b
theorem Y3_out (c : Dev nD) : Y3 m ρ c (Proc.devRef .tc main_v3) = (dat1 (B2 m ρ) c).arrAt 3 cfg1.N := by
  unfold Y3; exact Function.update_self ..
theorem Y3_of_ne (c : Dev nD) (b : Ref sig .tc) (hb : b ≠ main_v3) :
    Y3 m ρ c (Proc.devRef .tc b) = Y2 m ρ c (Proc.devRef .tc b) := by
  unfold Y3; exact Function.update_of_ne (StableHlo.devRef_ne_of_ne hb) ..

/-- After the second stretch of host operations (the output projection's weight and bias prepared). -/
abbrev Y4 : Dev nD → Valuation τ sig (Elt F) := fun c => StableHlo.after hostOps2 (Y3 m ρ c)
abbrev B4 : (c : Dev nD) → (b : Ref sig .tc) → Buf (Elt F) ((c : Thread nD τ).loc b) := fun c b => Y4 m ρ c b
/-- After the last region. -/
def Y5 (c : Dev nD) : Valuation τ sig (Elt F) :=
  Pipeline.withArrays spec2 c (Y4 m ρ c) fun w => (dat2 (B4 m ρ) c).arrAt w cfg2.N
theorem Y5_arr (c : Dev nD) (w : Fin cfg2.W) :
    Y5 m ρ c (Proc.devRef .tc (Pipeline.arrRef spec2 w)) = (dat2 (B4 m ρ) c).arrAt w cfg2.N := by
  unfold Y5; exact Pipeline.withArrays_arr spec2 launch2.win.arr_inj c _ _ w
theorem Y5_of_ne (c : Dev nD) (b : Ref sig .tc) (hb : ∀ w, Pipeline.arrRef spec2 w ≠ b) :
    Y5 m ρ c (Proc.devRef .tc b) = Y4 m ρ c (Proc.devRef .tc b) := by
  unfold Y5; exact Pipeline.withArrays_of_ne spec2 c _ _ b hb
abbrev B5 : (c : Dev nD) → (b : Ref sig .tc) → Buf (Elt F) ((c : Thread nD τ).loc b) := fun c b => Y5 m ρ c b
theorem hF2 (c : Dev nD) (w : Fin cfg2.W) : (dat2 (B4 m ρ) c).arrAt w cfg2.N = B5 m ρ c (Pipeline.arrRef spec2 w) :=
  (Y5_arr m ρ c w).symm
theorem hrest2 (c : Dev nD) : ∀ b, b ∉ Finset.univ.image (Pipeline.arrRef spec2) → B5 m ρ c b = B4 m ρ c b :=
  fun b hb => Y5_of_ne m ρ c b fun w e => hb (Finset.mem_image.mpr ⟨w, Finset.mem_univ _, e⟩)

/-! ## The arguments end as launched: no host operation writes one, and a region at most reads one -/

theorem Y5_main_arg0 (c : Dev nD) : Y5 m ρ c (Proc.devRef .tc main_arg0) = m ((c : Thread nD τ).loc main_arg0) :=
  calc Y5 m ρ c (Proc.devRef .tc main_arg0)
    _ = Y4 m ρ c (Proc.devRef .tc main_arg0) := Y5_of_ne m ρ c main_arg0 (by decide)
    _ = Y3 m ρ c (Proc.devRef .tc main_arg0) := (StableHlo.after_of_writes_sub hostOps2 _ Gen.hostOps2_writes (by decide : main_arg0 ∉ Gen.hostOps2_W))
    _ = Y2 m ρ c (Proc.devRef .tc main_arg0) := Y3_of_ne m ρ c main_arg0 (by decide)
    _ = Y1 m ρ c (Proc.devRef .tc main_arg0) := (Y2_arr m ρ c 0).trans (((dat0 (B1 m ρ) c).arrAt_in 0 rfl _).trans (A_eq0 (B1 m ρ) c 0))
    _ = Y0 m ρ c (Proc.devRef .tc main_arg0) := (StableHlo.after_of_writes_sub hostOps0 _ Gen.hostOps0_writes (by decide : main_arg0 ∉ Gen.hostOps0_W))
    _ = m ((c : Thread nD τ).loc main_arg0) := rfl
theorem Y5_main_arg1 (c : Dev nD) : Y5 m ρ c (Proc.devRef .tc main_arg1) = m ((c : Thread nD τ).loc main_arg1) :=
  calc Y5 m ρ c (Proc.devRef .tc main_arg1)
    _ = Y4 m ρ c (Proc.devRef .tc main_arg1) := Y5_of_ne m ρ c main_arg1 (by decide)
    _ = Y3 m ρ c (Proc.devRef .tc main_arg1) := (StableHlo.after_of_writes_sub hostOps2 _ Gen.hostOps2_writes (by decide : main_arg1 ∉ Gen.hostOps2_W))
    _ = Y2 m ρ c (Proc.devRef .tc main_arg1) := Y3_of_ne m ρ c main_arg1 (by decide)
    _ = Y1 m ρ c (Proc.devRef .tc main_arg1) := Y2_of_ne m ρ c main_arg1 (by decide)
    _ = Y0 m ρ c (Proc.devRef .tc main_arg1) := (StableHlo.after_of_writes_sub hostOps0 _ Gen.hostOps0_writes (by decide : main_arg1 ∉ Gen.hostOps0_W))
    _ = m ((c : Thread nD τ).loc main_arg1) := rfl
theorem Y5_main_arg2 (c : Dev nD) : Y5 m ρ c (Proc.devRef .tc main_arg2) = m ((c : Thread nD τ).loc main_arg2) :=
  calc Y5 m ρ c (Proc.devRef .tc main_arg2)
    _ = Y4 m ρ c (Proc.devRef .tc main_arg2) := Y5_of_ne m ρ c main_arg2 (by decide)
    _ = Y3 m ρ c (Proc.devRef .tc main_arg2) := (StableHlo.after_of_writes_sub hostOps2 _ Gen.hostOps2_writes (by decide : main_arg2 ∉ Gen.hostOps2_W))
    _ = Y2 m ρ c (Proc.devRef .tc main_arg2) := Y3_of_ne m ρ c main_arg2 (by decide)
    _ = Y1 m ρ c (Proc.devRef .tc main_arg2) := Y2_of_ne m ρ c main_arg2 (by decide)
    _ = Y0 m ρ c (Proc.devRef .tc main_arg2) := (StableHlo.after_of_writes_sub hostOps0 _ Gen.hostOps0_writes (by decide : main_arg2 ∉ Gen.hostOps0_W))
    _ = m ((c : Thread nD τ).loc main_arg2) := rfl
theorem Y5_main_arg3 (c : Dev nD) : Y5 m ρ c (Proc.devRef .tc main_arg3) = m ((c : Thread nD τ).loc main_arg3) :=
  calc Y5 m ρ c (Proc.devRef .tc main_arg3)
    _ = Y4 m ρ c (Proc.devRef .tc main_arg3) := Y5_of_ne m ρ c main_arg3 (by decide)
    _ = Y3 m ρ c (Proc.devRef .tc main_arg3) := (StableHlo.after_of_writes_sub hostOps2 _ Gen.hostOps2_writes (by decide : main_arg3 ∉ Gen.hostOps2_W))
    _ = Y2 m ρ c (Proc.devRef .tc main_arg3) := Y3_of_ne m ρ c main_arg3 (by decide)
    _ = Y1 m ρ c (Proc.devRef .tc main_arg3) := Y2_of_ne m ρ c main_arg3 (by decide)
    _ = Y0 m ρ c (Proc.devRef .tc main_arg3) := (StableHlo.after_of_writes_sub hostOps0 _ Gen.hostOps0_writes (by decide : main_arg3 ∉ Gen.hostOps0_W))
    _ = m ((c : Thread nD τ).loc main_arg3) := rfl

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (B1 m ρ) c
  | ⟨1, _⟩ => fun c => dat1 (B2 m ρ) c
  | ⟨2, _⟩ => fun c => dat2 (B4 m ρ) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every segment: the generator register at some state and the core owing nothing. -/
abbrev Rₙ (c : Dev nD) : sProp 𝕄 := iprop((∃ r, prngReg c r) ∗ ∃ W, owes (c : Thread nD τ) (0 : CellTallies nD τ sig Unit) W)
/-- A stretch of host operations as a segment over all the unscoped buffers. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rₙ
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Y5 m ρ c) ∗ ∃ r, prngReg c r)

/-! ## The two projection regions as segments -/

set_option backward.isDefEq.respectTransparency.types false in
/-- Region 0 as a segment: entered with every unscoped buffer at `Y1`, left with them at `Y2`. Its arrays are
    split out of the unscoped buffers on the way in and put back, at what the write-backs leave, on the way out; the
    generator register goes through the kernel's invariant; nothing is owed. -/
def regA : Pipeline.RegionSeg (pcfgs (F := F)) Gen.adm (pdats m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ Lₙ lvₙ 0 fun _ _ => rfl
  pre c := iprop(StableHlo.held (c : Thread nD τ) (Pipeline.ucRefs τ sig) (Y1 m ρ c) ∗ Rₙ c)
  post c := iprop(StableHlo.held (c : Thread nD τ) (Pipeline.ucRefs τ sig) (Y2 m ρ c) ∗ Rₙ c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Y4`, left with them at `Y5`. Its arrays are
    split out of the unscoped buffers on the way in and put back, at what the write-backs leave, on the way out; the
    generator register goes through the kernel's invariant; nothing is owed. -/
def regC : Pipeline.RegionSeg (pcfgs (F := F)) Gen.adm (pdats m ρ) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (B4 m ρ) c).loose
  hwaits := Pipeline.hwaits_of_owed_zero _ _ _ _ Lₙ lvₙ 2 fun _ _ => rfl
  pre c := iprop(StableHlo.held (c : Thread nD τ) (Pipeline.ucRefs τ sig) (Y4 m ρ c) ∗ Rₙ c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B4 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (B4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (B4 m ρ c) (B5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The attention region as a segment: its three input windows look into one array -/

/-- The two buffers behind the region's four windows: the projected rows and the attended rows. -/
theorem arrImage1 : Finset.univ.image (Pipeline.arrRef spec1) = ({main_v2, main_v3} : Finset (Ref sig .tc)) := by decide

/-- What an input window's array holds at any point is the projected rows as the region found them. -/
theorem arrIn1 (c : Dev nD) (w : Fin cfg1.W) (hw : (cfg1.win w).isOut = false) (n : Nat) :
    (dat1 (B2 m ρ) c).arrAt w n = B2 m ρ c (Pipeline.arrRef spec1 w) :=
  ((dat1 (B2 m ρ) c).arrAt_in w hw n).trans (A_eq1 (B2 m ρ) c w)

theorem winIn1_0 (c : Dev nD) (n : Nat) : (((cfg1.win 0).arr.view.loc (c.tc : Thread nD τ)) ↦[(cfg1.win 0).arr.view.set]{(dat1 (B2 m ρ) c).share 0} (dat1 (B2 m ρ) c).arrAt 0 n : sProp 𝕄)
    = (((c : Thread nD τ).loc main_v2) ↦{fullShare.left} B2 m ρ c main_v2) := by
  rw [(arr_whole1 0).set_eq_univ, arrIn1 m ρ c 0 rfl n]; rfl
theorem winIn1_1 (c : Dev nD) (n : Nat) : (((cfg1.win 1).arr.view.loc (c.tc : Thread nD τ)) ↦[(cfg1.win 1).arr.view.set]{(dat1 (B2 m ρ) c).share 1} (dat1 (B2 m ρ) c).arrAt 1 n : sProp 𝕄)
    = (((c : Thread nD τ).loc main_v2) ↦{fullShare.right.left} B2 m ρ c main_v2) := by
  rw [(arr_whole1 1).set_eq_univ, arrIn1 m ρ c 1 rfl n]; rfl
theorem winIn1_2 (c : Dev nD) (n : Nat) : (((cfg1.win 2).arr.view.loc (c.tc : Thread nD τ)) ↦[(cfg1.win 2).arr.view.set]{(dat1 (B2 m ρ) c).share 2} (dat1 (B2 m ρ) c).arrAt 2 n : sProp 𝕄)
    = (((c : Thread nD τ).loc main_v2) ↦{fullShare.right.right} B2 m ρ c main_v2) := by
  rw [(arr_whole1 2).set_eq_univ, arrIn1 m ρ c 2 rfl n]; rfl
theorem winOut1_0 (c : Dev nD) : (((cfg1.win 3).arr.view.loc (c.tc : Thread nD τ)) ↦[(cfg1.win 3).arr.view.set]{(dat1 (B2 m ρ) c).share 3} (dat1 (B2 m ρ) c).arrAt 3 0 : sProp 𝕄)
    = (((c : Thread nD τ).loc main_v3) ↦{fullShare} B2 m ρ c main_v3) := by
  rw [(arr_whole1 3).set_eq_univ]; rfl
theorem winOut1_N (c : Dev nD) : (((cfg1.win 3).arr.view.loc (c.tc : Thread nD τ)) ↦[(cfg1.win 3).arr.view.set]{(dat1 (B2 m ρ) c).share 3} (dat1 (B2 m ρ) c).arrAt 3 cfg1.N : sProp 𝕄)
    = (((c : Thread nD τ).loc main_v3) ↦{fullShare} B3 m ρ c main_v3) := by
  rw [(arr_whole1 3).set_eq_univ, show B3 m ρ c main_v3 = (dat1 (B2 m ρ) c).arrAt 3 cfg1.N from Y3_out m ρ c]; rfl

/-- Entering: the two buffers, each held whole, are the four windows' arrays — the projected rows' buffer split into
    the three input windows' shares. -/
theorem split1 (c : Dev nD) :
    (Pipeline.arrBufs (Ix := Unit) (Name := ℕ) (U := UR sig nD τ) (Lvl := ℕ) spec1 c (B2 m ρ c) : sProp 𝕄)
      ⊢ (dat1 (B2 m ρ) c).arrays ((dat1 (B2 m ρ) c).arrAt · 0) := by
  unfold Pipeline.arrBufs Pipeline.Dat.arrays
  rw [arrImage1, BI.bigSep_insert (by decide), BI.bigSep_singleton, bigSep_W1,
    winIn1_0 m ρ c 0, winIn1_1 m ρ c 0, winIn1_2 m ρ c 0, winOut1_0 m ρ c]
  show iprop((((c : Thread nD τ).loc main_v2) ↦{fullShare} B2 m ρ c main_v2) ∗ (((c : Thread nD τ).loc main_v3) ↦{fullShare} B2 m ρ c main_v3)) ⊢ _
  iintro ⟨H2, H3⟩
  ihave H2' := (pointsTo_share (PosShare.mem_left_op_right fullShare)).1 $$ H2
  icases H2' with ⟨Ha, Hr⟩
  ihave Hr' := (pointsTo_share (PosShare.mem_left_op_right fullShare.right)).1 $$ Hr
  icases Hr' with ⟨Hb, Hc⟩
  isplitl [Ha]; · iexact Ha
  isplitl [Hb]; · iexact Hb
  isplitl [Hc]; · iexact Hc
  iexact H3

/-- Leaving: the three shares of the projected rows' buffer join again, and the attended rows' buffer holds what the
    write-backs left. -/
theorem join1 (c : Dev nD) :
    ((dat1 (B2 m ρ) c).arrays ((dat1 (B2 m ρ) c).arrAt · cfg1.N) : sProp 𝕄)
      ⊢ Pipeline.arrBufs (Ix := Unit) (Name := ℕ) (U := UR sig nD τ) (Lvl := ℕ) spec1 c (B3 m ρ c) := by
  unfold Pipeline.arrBufs Pipeline.Dat.arrays
  rw [arrImage1, BI.bigSep_insert (by decide), BI.bigSep_singleton, bigSep_W1,
    winIn1_0 m ρ c cfg1.N, winIn1_1 m ρ c cfg1.N, winIn1_2 m ρ c cfg1.N, winOut1_N m ρ c,
    show B3 m ρ c main_v2 = B2 m ρ c main_v2 from Y3_of_ne m ρ c main_v2 (by decide)]
  show _ ⊢ iprop((((c : Thread nD τ).loc main_v2) ↦{fullShare} B2 m ρ c main_v2) ∗ (((c : Thread nD τ).loc main_v3) ↦{fullShare} B3 m ρ c main_v3))
  iintro ⟨Ha, Hb, Hc, H3⟩
  isplitr [H3]
  · iapply (pointsTo_share (PosShare.mem_left_op_right fullShare)).2
    isplitl [Ha]; · iexact Ha
    iapply (pointsTo_share (PosShare.mem_left_op_right fullShare.right)).2
    isplitl [Hb] <;> iassumption
  iexact H3

/-- Off the region's two buffers nothing changed. -/
theorem rest1 (c : Dev nD) :
    (Pipeline.unscopedRest (Ix := Unit) (Name := ℕ) (U := UR sig nD τ) (Lvl := ℕ) spec1 c (B2 m ρ c) : sProp 𝕄)
      = Pipeline.unscopedRest spec1 c (B3 m ρ c) := by
  unfold Pipeline.unscopedRest
  refine bigSep_congr fun b hb => ?_
  have hne : b ≠ main_v3 := fun e => (Finset.mem_sdiff.mp hb).2 (by rw [arrImage1, e]; decide)
  rw [show B3 m ρ c b = B2 m ρ c b from Y3_of_ne m ρ c b hne]

set_option backward.isDefEq.respectTransparency.types false in
/-- The attention region as a segment: entered with every unscoped buffer at `Y2`, left with them at `Y3`. -/
def regB : Pipeline.RegionSeg (pcfgs (F := F)) Gen.adm (pdats m ρ) () defs₀ 𝒱ₙ Lₙ lvₙ 1 where
  win := winFacts₀1
  block_pos := block_pos1
  stage_whole := stage_whole1
  K := PEmpty
  osem k := k.elim
  ho := Pipeline.OwnSemFacts.none _
  hbody c := (body_obligation1 (B2 m ρ) c).loose
  hwaits := Pipeline.hwaits_of_owed_zero _ _ _ _ Lₙ lvₙ 1 fun _ _ => rfl
  pre c := iprop(StableHlo.held (c : Thread nD τ) (Pipeline.ucRefs τ sig) (Y2 m ρ c) ∗ Rₙ c)
  post c := iprop(StableHlo.held (c : Thread nD τ) (Pipeline.ucRefs τ sig) (Y3 m ρ c) ∗ Rₙ c)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit : (unscopedBufs (Ix := Unit) (Name := ℕ) (U := UR sig nD τ) (Lvl := ℕ) c (B2 m ρ c) : sProp 𝕄)
        ⊢ iprop((pdats m ρ 1 c).arrays ((pdats m ρ 1 c).arrAt · 0) ∗ Pipeline.unscopedRest spec1 c (B2 m ρ c)) := by
      rw [Pipeline.unscopedBufs_split₀ cfgs 1 winFacts₀1.arr_unscoped c (B2 m ρ c)]
      exact BIClass.sep_mono (split1 m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (B2 m ρ c))
        ⊢ (unscopedBufs (Ix := Unit) (Name := ℕ) (U := UR sig nD τ) (Lvl := ℕ) c (B3 m ρ c) : sProp 𝕄) := by
      rw [Pipeline.unscopedBufs_split₀ cfgs 1 winFacts₀1.arr_unscoped c (B3 m ρ c)]
      exact BIClass.sep_mono (join1 m ρ c) (Entails.of_eq (rest1 m ρ c))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five segments in order. -/
abbrev segsAll : List (Pipeline.Seg (pcfgs (F := F)) Gen.adm (pdats m ρ) () defs₀ 𝒱ₙ Lₙ lvₙ) :=
  [ .host (hsegOf hostOps0 hostOps0_sub Gen.hostOps0_fresh (Y0 m ρ)),
    .region (regA m ρ),
    .region (regB m ρ),
    .host (hsegOf hostOps2 hostOps2_sub Gen.hostOps2_fresh (Y3 m ρ)),
    .region (regC m ρ) ]
/-- @main is the run of the segments. -/
theorem main_run (c : Dev nD) : main (F := F) c = Pipeline.Seg.run (segsAll m ρ) := (main_chain c).trans (by chain_rfl)

set_option backward.isDefEq.respectTransparency.types false in
/-- THE RUN, at any float instance: from any memory with zero counters, every weakly fair execution of @main
    terminates, nothing faulting; the result buffer ends holding what the last region's write-backs leave, and the
    four argument arrays end as launched. -/
theorem run : θ_run defs (onTc (τ := τ) (main (F := F))) ⟨m, fun _ => 0, ρ⟩ (fun r => ∀ c : Dev nD,
      r.2.mem ((c.tc : Thread nD τ).loc main_v7) = (dat2 (B4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) Gen.adm (pdats m ρ) () cellOf_inj emb₁ defs₀ 𝒱ₙ Lₙ lvₙ m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m ρ c) ∗ Rₙ c)) (Tₙ := Tₙ m ρ)
    (hch := ⟨fun _ => .rfl, fun _ => .rfl, fun _ => .rfl, fun _ => .rfl, fun _ => .rfl, fun _ => .rfl⟩)
    (hinit := by
      refine Pipeline.initEach Lₙ lvₙ fun c => ?_
      rw [show unscopedBufs c (fun b => m ((c : Thread nD τ).loc b)) = StableHlo.held (c : Thread nD τ) (Pipeline.ucRefs τ sig) (Y0 m ρ c)
        from Pipeline.unscopedBufs_held c (Y0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Y5 m ρ c) s')
      isplitl [Hh] <;> iassumption)
    (hQ := fun s h c =>
      ⟨(h c _ (mem_uc main_v7 (by decide))).trans (Y5_arr m ρ c 3),
       (h c _ (mem_uc main_arg0 (by decide))).trans (Y5_main_arg0 m ρ c),
       (h c _ (mem_uc main_arg1 (by decide))).trans (Y5_main_arg1 m ρ c),
       (h c _ (mem_uc main_arg2 (by decide))).trans (Y5_main_arg2 m ρ c),
       (h c _ (mem_uc main_arg3 (by decide))).trans (Y5_main_arg3 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Fr

end
-- ==== Proof.KIReg0.lean ====
/-
  The projection kernel that makes the query/key/value rows, at one grid point and over the whole grid.

  A grid point (b, i) is handed rows 256·i … 256·i+255 of batch entry b of the activations, and the whole
  transposed weight; it writes the product of the two into the same rows of the output. Stated here, for
  any float instance: what the output block holds after the body as a function of the two input blocks, that
  the body run on the staging buffers leaves exactly that, and the pipeline bookkeeping around it (each input
  buffer holds its block at every point, fetched there or not).
-/
import proofs.«113627_j3161095930032_2_alg».proof.Proof.Gen.KernelIdeal.Launch
import proofs.«113627_j3161095930032_2_alg».proof.Proof.Gen.KernelIdeal.Skeleton
import proofs.«113627_j3161095930032_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' buffer holds the point's rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's buffer holds the whole weight at every point: it is brought in once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x256x768 := Rect.unit (s := S1x256x768) ![0, 0, 0] S1x256x768.size inb_S1x256x768_S1x256x768_0_0_0
abbrev r0_1 : Rect S768x2304 := Rect.unit (s := S768x2304) ![0, 0] S768x2304.size inb_S768x2304_S768x2304_0_0
abbrev r0_2 : Rect S1x256x2304 := Rect.unit (s := S1x256x2304) ![0, 0, 0] S1x256x2304.size inb_S1x256x2304_S1x256x2304_0_0_0

/-- The output block after the body: its one store, of the product of the two loaded blocks. -/
def out0_2 (x0 : Vec F S1x256x768 .f32) (x1 : Vec F S768x2304 .bf16) : Vec F S1x256x2304 .bf16 :=
  View.canon [⟨r0_2, k0_pay1 (View.ld x0 r0_0) (View.ld x1 r0_1)⟩]

/-- The store covers the block. -/
theorem cover0_2 (p0 : Vec F S1x256x2304 .bf16) (y : S1x256x2304.Idx) :
    ∃ pc ∈ ([⟨r0_2, p0⟩] : List (View.Piece (Elt F) S1x256x2304 .bf16)), y ∈ pc.1.set :=
  View.cover_of_tiled [⟨r0_2, p0⟩] S1x256x2304.size (by rfl) y

set_option maxHeartbeats 1000000 in
/-- The body on whole staging buffers, the inputs' at read contents `x0`, `x1` and the output's at anything, runs to
    the end with the inputs' as they were and the output's at `out0_2 x0 x1`. -/
theorem sound_kernel0 (c : Dev nD) (E : Set ℕ) (i : grid0.Coords) (arg0 : Memref sig .tc .vmem S1x256x768 .f32) (harg0 : arg0.IsWhole)
    (arg1 : Memref sig .tc .vmem S768x2304 .bf16) (harg1 : arg1.IsWhole) (arg2 : Memref sig .tc .vmem S1x256x2304 .bf16) (harg2 : arg2.IsWhole)
    (x0 : Vec F S1x256x768 .f32) (x1 : Vec F S768x2304 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__qkv_kernel i arg0 harg0 arg1 harg1 arg2 harg2) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection's pipeline: the arrays as the region finds them; after the body each input
    buffer at its block and the output's at `out0_2` of the two blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KIReg1.lean ====
/-
  The attention kernel, at one grid point and over the grid.

  A grid point (b, p) is handed three 128-column blocks of batch entry b of the projected rows — the queries, keys
  and values of the two heads 2p and 2p+1 — and writes the two heads' attended rows side by side into the matching
  128 columns of its output. For any float instance: what the output block holds after the body as a function of the
  three input blocks, that the body run on the staging buffers leaves exactly that, and that each input buffer holds
  its block at every point. The three input windows look into one array; each holds its own share of it.
-/
import proofs.«113627_j3161095930032_2_alg».proof.Proof.Gen.KernelIdeal.Launch
import proofs.«113627_j3161095930032_2_alg».proof.Proof.Gen.KernelIdeal.Skeleton
import proofs.«113627_j3161095930032_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input buffer holds its window's block at every point, brought in there or kept from the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x1024x128 := Rect.unit (s := S1x1024x128) ![0, 0, 0] S1x1024x128.size inb_S1x1024x128_S1x1024x128_0_0_0
abbrev r1_1 : Rect S1x1024x128 := Rect.unit (s := S1x1024x128) ![0, 0, 0] S1x1024x128.size inb_S1x1024x128_S1x1024x128_0_0_0
abbrev r1_2 : Rect S1x1024x128 := Rect.unit (s := S1x1024x128) ![0, 0, 0] S1x1024x128.size inb_S1x1024x128_S1x1024x128_0_0_0
abbrev r1_3 : Rect S1x1024x128 := Rect.unit (s := S1x1024x128) ![0, 0, 0] S1x1024x128.size inb_S1x1024x128_S1x1024x128_0_0_0

/-- The output block after the body: its one store, as a function of the loaded input blocks. -/
def out1_3 (x0 : Vec F S1x1024x128 .bf16) (x1 : Vec F S1x1024x128 .bf16) (x2 : Vec F S1x1024x128 .bf16) : Vec F S1x1024x128 .bf16 :=
  View.canon [⟨r1_3, k1_pay1 (k1_pay5 (View.ld x0 r1_0) (View.ld x1 r1_1) (View.ld x2 r1_2)) (k1_pay6 (View.ld x2 r1_2)) (k1_pay7 (View.ld x0 r1_0) (View.ld x1 r1_1))⟩]

/-- The store covers the block. -/
theorem cover1_3 (p0 : Vec F S1x1024x128 .bf16) (y : S1x1024x128.Idx) :
    ∃ pc ∈ ([⟨r1_3, p0⟩] : List (View.Piece (Elt F) S1x1024x128 .bf16)), y ∈ pc.1.set :=
  View.cover_of_tiled [⟨r1_3, p0⟩] S1x1024x128.size (by rfl) y

set_option maxHeartbeats 1000000 in
/-- The body on whole staging buffers, the inputs' at read contents and the output's at anything, runs to the end with
    the inputs' as they were and the output's at `out1_3` of the inputs'. -/
theorem sound_kernel1 (c : Dev nD) (E : Set ℕ) (i : grid1.Coords) (arg0 : Memref sig .tc .vmem S1x1024x128 .bf16) (harg0 : arg0.IsWhole) (arg1 : Memref sig .tc .vmem S1x1024x128 .bf16) (harg1 : arg1.IsWhole) (arg2 : Memref sig .tc .vmem S1x1024x128 .bf16) (harg2 : arg2.IsWhole) (arg3 : Memref sig .tc .vmem S1x1024x128 .bf16) (harg3 : arg3.IsWhole)
    (x0 : Vec F S1x1024x128 .bf16) (x1 : Vec F S1x1024x128 .bf16) (x2 : Vec F S1x1024x128 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline: the arrays as the region finds them; after the body each input buffer at its
    block and the output's at `out1_3` of the input blocks; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KIReg2.lean ====
/-
  The output projection kernel, at one grid point and over the grid.

  A grid point (b, i) is handed rows 256·i … 256·i+255 of batch entry b of the attended rows, the whole transposed
  weight and the bias row, and writes the product plus the bias into the same rows of the result. For any float
  instance: what the output block holds after the body as a function of the three input blocks, that the body run on
  the staging buffers leaves exactly that, and that each input buffer holds its block at every point.
-/
import proofs.«113627_j3161095930032_2_alg».proof.Proof.Gen.KernelIdeal.Launch
import proofs.«113627_j3161095930032_2_alg».proof.Proof.Gen.KernelIdeal.Skeleton
import proofs.«113627_j3161095930032_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! Each input buffer holds its window's block at every point, brought in there or kept from the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x256x768 := Rect.unit (s := S1x256x768) ![0, 0, 0] S1x256x768.size inb_S1x256x768_S1x256x768_0_0_0
abbrev r2_1 : Rect S768x768 := Rect.unit (s := S768x768) ![0, 0] S768x768.size inb_S768x768_S768x768_0_0
abbrev r2_2 : Rect S1x768 := Rect.unit (s := S1x768) ![0, 0] S1x768.size inb_S1x768_S1x768_0_0
abbrev r2_3 : Rect S1x256x768 := Rect.unit (s := S1x256x768) ![0, 0, 0] S1x256x768.size inb_S1x256x768_S1x256x768_0_0_0

/-- The output block after the body: its one store, as a function of the loaded input blocks. -/
def out2_3 (x0 : Vec F S1x256x768 .bf16) (x1 : Vec F S768x768 .bf16) (x2 : Vec F S1x768 .f32) : Vec F S1x256x768 .f32 :=
  View.canon [⟨r2_3, k2_pay1 (View.ld x0 r2_0) (View.ld x1 r2_1) (View.ld x2 r2_2)⟩]

/-- The store covers the block. -/
theorem cover2_3 (p0 : Vec F S1x256x768 .f32) (y : S1x256x768.Idx) :
    ∃ pc ∈ ([⟨r2_3, p0⟩] : List (View.Piece (Elt F) S1x256x768 .f32)), y ∈ pc.1.set :=
  View.cover_of_tiled [⟨r2_3, p0⟩] S1x256x768.size (by rfl) y

set_option maxHeartbeats 1000000 in
/-- The body on whole staging buffers, the inputs' at read contents and the output's at anything, runs to the end with
    the inputs' as they were and the output's at `out2_3` of the inputs'. -/
theorem sound_kernel2 (c : Dev nD) (E : Set ℕ) (i : grid2.Coords) (arg0 : Memref sig .tc .vmem S1x256x768 .bf16) (harg0 : arg0.IsWhole) (arg1 : Memref sig .tc .vmem S768x768 .bf16) (harg1 : arg1.IsWhole) (arg2 : Memref sig .tc .vmem S1x768 .f32) (harg2 : arg2.IsWhole) (arg3 : Memref sig .tc .vmem S1x256x768 .f32) (harg3 : arg3.IsWhole)
    (x0 : Vec F S1x256x768 .bf16) (x1 : Vec F S768x768 .bf16) (x2 : Vec F S1x768 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__proj_kernel i arg0 harg0 arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline: the arrays as the region finds them; after the body each input buffer at its
    block and the output's at `out2_3` of the input blocks; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KIRun.lean ====
/-
  The whole program as a run: the buffers' contents at each boundary of @main (the launch memory, then each stretch of
  host operations applied, then what each kernel region's write-backs leave), every kernel region as a segment of
  @main, and the run's conclusion — every weakly fair execution terminates, the result buffer holds what the last
  region's write-backs leave, and the four argument arrays hold what they held at launch.
-/
import proofs.«113627_j3161095930032_2_alg».proof.Proof.Gen.KernelIdeal.Launch
import proofs.«113627_j3161095930032_2_alg».proof.Proof.Gen.KernelIdeal.Skeleton
import proofs.«113627_j3161095930032_2_alg».proof.Proof.Gen.KernelIdeal.Points
import proofs.«113627_j3161095930032_2_alg».proof.Proof.Gen.KernelIdeal.Regions
import proofs.«113627_j3161095930032_2_alg».proof.Proof.KIReg0
import proofs.«113627_j3161095930032_2_alg».proof.Proof.KIReg1
import proofs.«113627_j3161095930032_2_alg».proof.Proof.KIReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev Y0 : Dev nD → Valuation τ sig (Elt F) := fun c b => (s₀ m ρ).mem ((c : Dev nD), b)
/-- After the first stretch of host operations (the transposed, narrowed weight): what the first region is entered with. -/
abbrev Y1 : Dev nD → Valuation τ sig (Elt F) := fun c => StableHlo.after hostOps0 (Y0 m ρ c)
abbrev B1 : (c : Dev nD) → (b : Ref sig .tc) → Buf (Elt F) ((c : Thread nD τ).loc b) := fun c b => Y1 m ρ c b
/-- After the first region: its arrays at what its write-backs leave, every other buffer as entered. -/
def Y2 (c : Dev nD) : Valuation τ sig (Elt F) :=
  Pipeline.withArrays spec0 c (Y1 m ρ c) fun w => (dat0 (B1 m ρ) c).arrAt w cfg0.N
theorem Y2_arr (c : Dev nD) (w : Fin cfg0.W) :
    Y2 m ρ c (Proc.devRef .tc (Pipeline.arrRef spec0 w)) = (dat0 (B1 m ρ) c).arrAt w cfg0.N := by
  unfold Y2; exact Pipeline.withArrays_arr spec0 launch0.win.arr_inj c _ _ w
theorem Y2_of_ne (c : Dev nD) (b : Ref sig .tc) (hb : ∀ w, Pipeline.arrRef spec0 w ≠ b) :
    Y2 m ρ c (Proc.devRef .tc b) = Y1 m ρ c (Proc.devRef .tc b) := by
  unfold Y2; exact Pipeline.withArrays_of_ne spec0 c _ _ b hb
abbrev B2 : (c : Dev nD) → (b : Ref sig .tc) → Buf (Elt F) ((c : Thread nD τ).loc b) := fun c b => Y2 m ρ c b
theorem hF0 (c : Dev nD) (w : Fin cfg0.W) : (dat0 (B1 m ρ) c).arrAt w cfg0.N = B2 m ρ c (Pipeline.arrRef spec0 w) :=
  (Y2_arr m ρ c w).symm
theorem hrest0 (c : Dev nD) : ∀ b, b ∉ Finset.univ.image (Pipeline.arrRef spec0) → B2 m ρ c b = B1 m ρ c b :=
  fun b hb => Y2_of_ne m ρ c b fun w e => hb (Finset.mem_image.mpr ⟨w, Finset.mem_univ _, e⟩)

/-- After the attention region: its output array at what its write-backs leave, every other buffer as entered (its
    three input windows look into one array, which it only reads). -/
def Y3 (c : Dev nD) : Valuation τ sig (Elt F) :=
  Function.update (Y2 m ρ c) (Proc.devRef .tc main_v3) ((dat1 (B2 m ρ) c).arrAt 3 cfg1.N)
abbrev B3 : (c : Dev nD) → (b : Ref sig .tc) → Buf (Elt F) ((c : Thread nD τ).loc b) := fun c b => Y3 m ρ c b
theorem Y3_out (c : Dev nD) : Y3 m ρ c (Proc.devRef .tc main_v3) = (dat1 (B2 m ρ) c).arrAt 3 cfg1.N := by
  unfold Y3; exact Function.update_self ..
theorem Y3_of_ne (c : Dev nD) (b : Ref sig .tc) (hb : b ≠ main_v3) :
    Y3 m ρ c (Proc.devRef .tc b) = Y2 m ρ c (Proc.devRef .tc b) := by
  unfold Y3; exact Function.update_of_ne (StableHlo.devRef_ne_of_ne hb) ..

/-- After the second stretch of host operations (the output projection's weight and bias prepared). -/
abbrev Y4 : Dev nD → Valuation τ sig (Elt F) := fun c => StableHlo.after hostOps2 (Y3 m ρ c)
abbrev B4 : (c : Dev nD) → (b : Ref sig .tc) → Buf (Elt F) ((c : Thread nD τ).loc b) := fun c b => Y4 m ρ c b
/-- After the last region. -/
def Y5 (c : Dev nD) : Valuation τ sig (Elt F) :=
  Pipeline.withArrays spec2 c (Y4 m ρ c) fun w => (dat2 (B4 m ρ) c).arrAt w cfg2.N
theorem Y5_arr (c : Dev nD) (w : Fin cfg2.W) :
    Y5 m ρ c (Proc.devRef .tc (Pipeline.arrRef spec2 w)) = (dat2 (B4 m ρ) c).arrAt w cfg2.N := by
  unfold Y5; exact Pipeline.withArrays_arr spec2 launch2.win.arr_inj c _ _ w
theorem Y5_of_ne (c : Dev nD) (b : Ref sig .tc) (hb : ∀ w, Pipeline.arrRef spec2 w ≠ b) :
    Y5 m ρ c (Proc.devRef .tc b) = Y4 m ρ c (Proc.devRef .tc b) := by
  unfold Y5; exact Pipeline.withArrays_of_ne spec2 c _ _ b hb
abbrev B5 : (c : Dev nD) → (b : Ref sig .tc) → Buf (Elt F) ((c : Thread nD τ).loc b) := fun c b => Y5 m ρ c b
theorem hF2 (c : Dev nD) (w : Fin cfg2.W) : (dat2 (B4 m ρ) c).arrAt w cfg2.N = B5 m ρ c (Pipeline.arrRef spec2 w) :=
  (Y5_arr m ρ c w).symm
theorem hrest2 (c : Dev nD) : ∀ b, b ∉ Finset.univ.image (Pipeline.arrRef spec2) → B5 m ρ c b = B4 m ρ c b :=
  fun b hb => Y5_of_ne m ρ c b fun w e => hb (Finset.mem_image.mpr ⟨w, Finset.mem_univ _, e⟩)

/-! ## The arguments end as launched: no host operation writes one, and a region at most reads one -/

theorem Y5_main_arg0 (c : Dev nD) : Y5 m ρ c (Proc.devRef .tc main_arg0) = m ((c : Thread nD τ).loc main_arg0) :=
  calc Y5 m ρ c (Proc.devRef .tc main_arg0)
    _ = Y4 m ρ c (Proc.devRef .tc main_arg0) := Y5_of_ne m ρ c main_arg0 (by decide)
    _ = Y3 m ρ c (Proc.devRef .tc main_arg0) := (StableHlo.after_of_writes_sub hostOps2 _ Gen.hostOps2_writes (by decide : main_arg0 ∉ Gen.hostOps2_W))
    _ = Y2 m ρ c (Proc.devRef .tc main_arg0) := Y3_of_ne m ρ c main_arg0 (by decide)
    _ = Y1 m ρ c (Proc.devRef .tc main_arg0) := (Y2_arr m ρ c 0).trans (((dat0 (B1 m ρ) c).arrAt_in 0 rfl _).trans (A_eq0 (B1 m ρ) c 0))
    _ = Y0 m ρ c (Proc.devRef .tc main_arg0) := (StableHlo.after_of_writes_sub hostOps0 _ Gen.hostOps0_writes (by decide : main_arg0 ∉ Gen.hostOps0_W))
    _ = m ((c : Thread nD τ).loc main_arg0) := rfl
theorem Y5_main_arg1 (c : Dev nD) : Y5 m ρ c (Proc.devRef .tc main_arg1) = m ((c : Thread nD τ).loc main_arg1) :=
  calc Y5 m ρ c (Proc.devRef .tc main_arg1)
    _ = Y4 m ρ c (Proc.devRef .tc main_arg1) := Y5_of_ne m ρ c main_arg1 (by decide)
    _ = Y3 m ρ c (Proc.devRef .tc main_arg1) := (StableHlo.after_of_writes_sub hostOps2 _ Gen.hostOps2_writes (by decide : main_arg1 ∉ Gen.hostOps2_W))
    _ = Y2 m ρ c (Proc.devRef .tc main_arg1) := Y3_of_ne m ρ c main_arg1 (by decide)
    _ = Y1 m ρ c (Proc.devRef .tc main_arg1) := Y2_of_ne m ρ c main_arg1 (by decide)
    _ = Y0 m ρ c (Proc.devRef .tc main_arg1) := (StableHlo.after_of_writes_sub hostOps0 _ Gen.hostOps0_writes (by decide : main_arg1 ∉ Gen.hostOps0_W))
    _ = m ((c : Thread nD τ).loc main_arg1) := rfl
theorem Y5_main_arg2 (c : Dev nD) : Y5 m ρ c (Proc.devRef .tc main_arg2) = m ((c : Thread nD τ).loc main_arg2) :=
  calc Y5 m ρ c (Proc.devRef .tc main_arg2)
    _ = Y4 m ρ c (Proc.devRef .tc main_arg2) := Y5_of_ne m ρ c main_arg2 (by decide)
    _ = Y3 m ρ c (Proc.devRef .tc main_arg2) := (StableHlo.after_of_writes_sub hostOps2 _ Gen.hostOps2_writes (by decide : main_arg2 ∉ Gen.hostOps2_W))
    _ = Y2 m ρ c (Proc.devRef .tc main_arg2) := Y3_of_ne m ρ c main_arg2 (by decide)
    _ = Y1 m ρ c (Proc.devRef .tc main_arg2) := Y2_of_ne m ρ c main_arg2 (by decide)
    _ = Y0 m ρ c (Proc.devRef .tc main_arg2) := (StableHlo.after_of_writes_sub hostOps0 _ Gen.hostOps0_writes (by decide : main_arg2 ∉ Gen.hostOps0_W))
    _ = m ((c : Thread nD τ).loc main_arg2) := rfl
theorem Y5_main_arg3 (c : Dev nD) : Y5 m ρ c (Proc.devRef .tc main_arg3) = m ((c : Thread nD τ).loc main_arg3) :=
  calc Y5 m ρ c (Proc.devRef .tc main_arg3)
    _ = Y4 m ρ c (Proc.devRef .tc main_arg3) := Y5_of_ne m ρ c main_arg3 (by decide)
    _ = Y3 m ρ c (Proc.devRef .tc main_arg3) := (StableHlo.after_of_writes_sub hostOps2 _ Gen.hostOps2_writes (by decide : main_arg3 ∉ Gen.hostOps2_W))
    _ = Y2 m ρ c (Proc.devRef .tc main_arg3) := Y3_of_ne m ρ c main_arg3 (by decide)
    _ = Y1 m ρ c (Proc.devRef .tc main_arg3) := Y2_of_ne m ρ c main_arg3 (by decide)
    _ = Y0 m ρ c (Proc.devRef .tc main_arg3) := (StableHlo.after_of_writes_sub hostOps0 _ Gen.hostOps0_writes (by decide : main_arg3 ∉ Gen.hostOps0_W))
    _ = m ((c : Thread nD τ).loc main_arg3) := rfl

/-! ## The proof data family and what rides beside the buffers -/

/-- Every pipeline's proof data, each at its region's entry contents. -/
def pdats : (p : Fin 3) → (c : Dev nD) → Dat τ (Elt F) Unit ℕ (UR sig nD τ) ℕ (Pipeline.pin (pcfgs (F := F)) Gen.adm p) c
  | ⟨0, _⟩ => fun c => dat0 (B1 m ρ) c
  | ⟨1, _⟩ => fun c => dat1 (B2 m ρ) c
  | ⟨2, _⟩ => fun c => dat2 (B4 m ρ) c
abbrev 𝒱ₙ : Variants := Variants.none
/-- No core owes another anything: no level is assigned. -/
abbrev Lₙ : GSem nD τ sig → Finset Unit := fun _ => ∅
abbrev lvₙ : GSem nD τ sig → Unit → ℕ := fun _ _ => 0
/-- What rides beside the buffers through every segment: the generator register at some state and the core owing nothing. -/
abbrev Rₙ (c : Dev nD) : sProp 𝕄 := iprop((∃ r, prngReg c r) ∗ ∃ W, owes (c : Thread nD τ) (0 : CellTallies nD τ sig Unit) W)
/-- A stretch of host operations as a segment over all the unscoped buffers. -/
abbrev hsegOf (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rₙ
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (Y5 m ρ c) ∗ ∃ r, prngReg c r)

/-! ## The two projection regions as segments -/

set_option backward.isDefEq.respectTransparency.types false in
/-- Region 0 as a segment: entered with every unscoped buffer at `Y1`, left with them at `Y2`. Its arrays are
    split out of the unscoped buffers on the way in and put back, at what the write-backs leave, on the way out; the
    generator register goes through the kernel's invariant; nothing is owed. -/
def regA : Pipeline.RegionSeg (pcfgs (F := F)) Gen.adm (pdats m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (B1 m ρ) c).loose
  hwaits := Pipeline.hwaits_of_owed_zero _ _ _ _ Lₙ lvₙ 0 fun _ _ => rfl
  pre c := iprop(StableHlo.held (c : Thread nD τ) (Pipeline.ucRefs τ sig) (Y1 m ρ c) ∗ Rₙ c)
  post c := iprop(StableHlo.held (c : Thread nD τ) (Pipeline.ucRefs τ sig) (Y2 m ρ c) ∗ Rₙ c)
  X c := iprop(∃ r, prngReg c r)
  Y c := iprop(∃ r, prngReg c r)
  Z c := Pipeline.unscopedRest (Ix := Unit) (Name := ℕ) (U := UR sig nD τ) (Lvl := ℕ) spec0 c (B1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (B1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (B1 m ρ c) (B2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `Y4`, left with them at `Y5`. Its arrays are
    split out of the unscoped buffers on the way in and put back, at what the write-backs leave, on the way out; the
    generator register goes through the kernel's invariant; nothing is owed. -/
def regC : Pipeline.RegionSeg (pcfgs (F := F)) Gen.adm (pdats m ρ) () defs₀ 𝒱ₙ Lₙ lvₙ 2 where
  win := launch2.win.to₀
  block_pos := launch2.block_pos
  stage_whole := launch2.stage_whole
  K := PEmpty
  osem k := k.elim
  ho := Pipeline.OwnSemFacts.none _
  hbody c := (body_obligation2 (B4 m ρ) c).loose
  hwaits := Pipeline.hwaits_of_owed_zero _ _ _ _ Lₙ lvₙ 2 fun _ _ => rfl
  pre c := iprop(StableHlo.held (c : Thread nD τ) (Pipeline.ucRefs τ sig) (Y4 m ρ c) ∗ Rₙ c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (B4 m ρ c)
  hentry c := by
    rw [Pipeline.ownSems0_none]
    have hsplit := Pipeline.arrays_of_unscopedBufs (p := 2) (pcfgs (F := F)) Gen.adm (pdats m ρ) launch2.win launch2.arr_whole c
      ((pdats m ρ 2 c).share_full fun _ => rfl) (B4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m ρ) ((pdats m ρ 2 c).share_full fun _ => rfl)
      (B4 m ρ c) (B5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The attention region as a segment: its three input windows look into one array -/

/-- The two buffers behind the region's four windows: the projected rows and the attended rows. -/
theorem arrImage1 : Finset.univ.image (Pipeline.arrRef spec1) = ({main_v2, main_v3} : Finset (Ref sig .tc)) := by decide

/-- What an input window's array holds at any point is the projected rows as the region found them. -/
theorem arrIn1 (c : Dev nD) (w : Fin cfg1.W) (hw : (cfg1.win w).isOut = false) (n : Nat) :
    (dat1 (B2 m ρ) c).arrAt w n = B2 m ρ c (Pipeline.arrRef spec1 w) :=
  ((dat1 (B2 m ρ) c).arrAt_in w hw n).trans (A_eq1 (B2 m ρ) c w)

theorem winIn1_0 (c : Dev nD) (n : Nat) : (((cfg1.win 0).arr.view.loc (c.tc : Thread nD τ)) ↦[(cfg1.win 0).arr.view.set]{(dat1 (B2 m ρ) c).share 0} (dat1 (B2 m ρ) c).arrAt 0 n : sProp 𝕄)
    = (((c : Thread nD τ).loc main_v2) ↦{fullShare.left} B2 m ρ c main_v2) := by
  rw [(arr_whole1 0).set_eq_univ, arrIn1 m ρ c 0 rfl n]; rfl
theorem winIn1_1 (c : Dev nD) (n : Nat) : (((cfg1.win 1).arr.view.loc (c.tc : Thread nD τ)) ↦[(cfg1.win 1).arr.view.set]{(dat1 (B2 m ρ) c).share 1} (dat1 (B2 m ρ) c).arrAt 1 n : sProp 𝕄)
    = (((c : Thread nD τ).loc main_v2) ↦{fullShare.right.left} B2 m ρ c main_v2) := by
  rw [(arr_whole1 1).set_eq_univ, arrIn1 m ρ c 1 rfl n]; rfl
theorem winIn1_2 (c : Dev nD) (n : Nat) : (((cfg1.win 2).arr.view.loc (c.tc : Thread nD τ)) ↦[(cfg1.win 2).arr.view.set]{(dat1 (B2 m ρ) c).share 2} (dat1 (B2 m ρ) c).arrAt 2 n : sProp 𝕄)
    = (((c : Thread nD τ).loc main_v2) ↦{fullShare.right.right} B2 m ρ c main_v2) := by
  rw [(arr_whole1 2).set_eq_univ, arrIn1 m ρ c 2 rfl n]; rfl
theorem winOut1_0 (c : Dev nD) : (((cfg1.win 3).arr.view.loc (c.tc : Thread nD τ)) ↦[(cfg1.win 3).arr.view.set]{(dat1 (B2 m ρ) c).share 3} (dat1 (B2 m ρ) c).arrAt 3 0 : sProp 𝕄)
    = (((c : Thread nD τ).loc main_v3) ↦{fullShare} B2 m ρ c main_v3) := by
  rw [(arr_whole1 3).set_eq_univ]; rfl
theorem winOut1_N (c : Dev nD) : (((cfg1.win 3).arr.view.loc (c.tc : Thread nD τ)) ↦[(cfg1.win 3).arr.view.set]{(dat1 (B2 m ρ) c).share 3} (dat1 (B2 m ρ) c).arrAt 3 cfg1.N : sProp 𝕄)
    = (((c : Thread nD τ).loc main_v3) ↦{fullShare} B3 m ρ c main_v3) := by
  rw [(arr_whole1 3).set_eq_univ, show B3 m ρ c main_v3 = (dat1 (B2 m ρ) c).arrAt 3 cfg1.N from Y3_out m ρ c]; rfl

/-- Entering: the two buffers, each held whole, are the four windows' arrays — the projected rows' buffer split into
    the three input windows' shares. -/
theorem split1 (c : Dev nD) :
    (Pipeline.arrBufs (Ix := Unit) (Name := ℕ) (U := UR sig nD τ) (Lvl := ℕ) spec1 c (B2 m ρ c) : sProp 𝕄)
      ⊢ (dat1 (B2 m ρ) c).arrays ((dat1 (B2 m ρ) c).arrAt · 0) := by
  unfold Pipeline.arrBufs Pipeline.Dat.arrays
  rw [arrImage1, BI.bigSep_insert (by decide), BI.bigSep_singleton, bigSep_W1,
    winIn1_0 m ρ c 0, winIn1_1 m ρ c 0, winIn1_2 m ρ c 0, winOut1_0 m ρ c]
  show iprop((((c : Thread nD τ).loc main_v2) ↦{fullShare} B2 m ρ c main_v2) ∗ (((c : Thread nD τ).loc main_v3) ↦{fullShare} B2 m ρ c main_v3)) ⊢ _
  iintro ⟨H2, H3⟩
  ihave H2' := (pointsTo_share (PosShare.mem_left_op_right fullShare)).1 $$ H2
  icases H2' with ⟨Ha, Hr⟩
  ihave Hr' := (pointsTo_share (PosShare.mem_left_op_right fullShare.right)).1 $$ Hr
  icases Hr' with ⟨Hb, Hc⟩
  isplitl [Ha]; · iexact Ha
  isplitl [Hb]; · iexact Hb
  isplitl [Hc]; · iexact Hc
  iexact H3

/-- Leaving: the three shares of the projected rows' buffer join again, and the attended rows' buffer holds what the
    write-backs left. -/
theorem join1 (c : Dev nD) :
    ((dat1 (B2 m ρ) c).arrays ((dat1 (B2 m ρ) c).arrAt · cfg1.N) : sProp 𝕄)
      ⊢ Pipeline.arrBufs (Ix := Unit) (Name := ℕ) (U := UR sig nD τ) (Lvl := ℕ) spec1 c (B3 m ρ c) := by
  unfold Pipeline.arrBufs Pipeline.Dat.arrays
  rw [arrImage1, BI.bigSep_insert (by decide), BI.bigSep_singleton, bigSep_W1,
    winIn1_0 m ρ c cfg1.N, winIn1_1 m ρ c cfg1.N, winIn1_2 m ρ c cfg1.N, winOut1_N m ρ c,
    show B3 m ρ c main_v2 = B2 m ρ c main_v2 from Y3_of_ne m ρ c main_v2 (by decide)]
  show _ ⊢ iprop((((c : Thread nD τ).loc main_v2) ↦{fullShare} B2 m ρ c main_v2) ∗ (((c : Thread nD τ).loc main_v3) ↦{fullShare} B3 m ρ c main_v3))
  iintro ⟨Ha, Hb, Hc, H3⟩
  isplitr [H3]
  · iapply (pointsTo_share (PosShare.mem_left_op_right fullShare)).2
    isplitl [Ha]; · iexact Ha
    iapply (pointsTo_share (PosShare.mem_left_op_right fullShare.right)).2
    isplitl [Hb] <;> iassumption
  iexact H3

/-- Off the region's two buffers nothing changed. -/
theorem rest1 (c : Dev nD) :
    (Pipeline.unscopedRest (Ix := Unit) (Name := ℕ) (U := UR sig nD τ) (Lvl := ℕ) spec1 c (B2 m ρ c) : sProp 𝕄)
      = Pipeline.unscopedRest spec1 c (B3 m ρ c) := by
  unfold Pipeline.unscopedRest
  refine bigSep_congr fun b hb => ?_
  have hne : b ≠ main_v3 := fun e => (Finset.mem_sdiff.mp hb).2 (by rw [arrImage1, e]; decide)
  rw [show B3 m ρ c b = B2 m ρ c b from Y3_of_ne m ρ c b hne]

set_option backward.isDefEq.respectTransparency.types false in
/-- The attention region as a segment: entered with every unscoped buffer at `Y2`, left with them at `Y3`. -/
def regB : Pipeline.RegionSeg (pcfgs (F := F)) Gen.adm (pdats m ρ) () defs₀ 𝒱ₙ Lₙ lvₙ 1 where
  win := winFacts₀1
  block_pos := block_pos1
  stage_whole := stage_whole1
  K := PEmpty
  osem k := k.elim
  ho := Pipeline.OwnSemFacts.none _
  hbody c := (body_obligation1 (B2 m ρ) c).loose
  hwaits := Pipeline.hwaits_of_owed_zero _ _ _ _ Lₙ lvₙ 1 fun _ _ => rfl
  pre c := iprop(StableHlo.held (c : Thread nD τ) (Pipeline.ucRefs τ sig) (Y2 m ρ c) ∗ Rₙ c)
  post c := iprop(StableHlo.held (c : Thread nD τ) (Pipeline.ucRefs τ sig) (Y3 m ρ c) ∗ Rₙ c)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit : (unscopedBufs (Ix := Unit) (Name := ℕ) (U := UR sig nD τ) (Lvl := ℕ) c (B2 m ρ c) : sProp 𝕄)
        ⊢ iprop((pdats m ρ 1 c).arrays ((pdats m ρ 1 c).arrAt · 0) ∗ Pipeline.unscopedRest spec1 c (B2 m ρ c)) := by
      rw [Pipeline.unscopedBufs_split₀ cfgs 1 winFacts₀1.arr_unscoped c (B2 m ρ c)]
      exact BIClass.sep_mono (split1 m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (B2 m ρ c))
        ⊢ (unscopedBufs (Ix := Unit) (Name := ℕ) (U := UR sig nD τ) (Lvl := ℕ) c (B3 m ρ c) : sProp 𝕄) := by
      rw [Pipeline.unscopedBufs_split₀ cfgs 1 winFacts₀1.arr_unscoped c (B3 m ρ c)]
      exact BIClass.sep_mono (join1 m ρ c) (Entails.of_eq (rest1 m ρ c))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's five segments in order. -/
abbrev segsAll : List (Pipeline.Seg (pcfgs (F := F)) Gen.adm (pdats m ρ) () defs₀ 𝒱ₙ Lₙ lvₙ) :=
  [ .host (hsegOf hostOps0 hostOps0_sub Gen.hostOps0_fresh (Y0 m ρ)),
    .region (regA m ρ),
    .region (regB m ρ),
    .host (hsegOf hostOps2 hostOps2_sub Gen.hostOps2_fresh (Y3 m ρ)),
    .region (regC m ρ) ]
/-- @main is the run of the segments. -/
theorem main_run (c : Dev nD) : main (F := F) c = Pipeline.Seg.run (segsAll m ρ) := (main_chain c).trans (by chain_rfl)

set_option backward.isDefEq.respectTransparency.types false in
/-- THE RUN, at any float instance: from any memory with zero counters, every weakly fair execution of @main
    terminates, nothing faulting; the result buffer ends holding what the last region's write-backs leave, and the
    four argument arrays end as launched. -/
theorem run : θ_run defs (onTc (τ := τ) (main (F := F))) ⟨m, fun _ => 0, ρ⟩ (fun r => ∀ c : Dev nD,
      r.2.mem ((c.tc : Thread nD τ).loc main_v7) = (dat2 (B4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) Gen.adm (pdats m ρ) () cellOf_inj emb₁ defs₀ 𝒱ₙ Lₙ lvₙ m ρ main (segsAll m ρ)
    (fun c Q => by rw [main_run m ρ c])
    (by simp only [segsAll, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Y0 m ρ c) ∗ Rₙ c)) (Tₙ := Tₙ m ρ)
    (hch := ⟨fun _ => .rfl, fun _ => .rfl, fun _ => .rfl, fun _ => .rfl, fun _ => .rfl, fun _ => .rfl⟩)
    (hinit := by
      refine Pipeline.initEach Lₙ lvₙ fun c => ?_
      rw [show unscopedBufs c (fun b => m ((c : Thread nD τ).loc b)) = StableHlo.held (c : Thread nD τ) (Pipeline.ucRefs τ sig) (Y0 m ρ c)
        from Pipeline.unscopedBufs_held c (Y0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Y5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Y5 m ρ c) s')
      isplitl [Hh] <;> iassumption)
    (hQ := fun s h c =>
      ⟨(h c _ (mem_uc main_v7 (by decide))).trans (Y5_arr m ρ c 3),
       (h c _ (mem_uc main_arg0 (by decide))).trans (Y5_main_arg0 m ρ c),
       (h c _ (mem_uc main_arg1 (by decide))).trans (Y5_main_arg1 m ρ c),
       (h c _ (mem_uc main_arg2 (by decide))).trans (Y5_main_arg2 m ρ c),
       (h c _ (mem_uc main_arg3 (by decide))).trans (Y5_main_arg3 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Fr

end
-- ==== Proof.KIHost.lean ====
/-
  What the kernel program's intermediate buffers hold, at the exact extended reals, in terms of the launch memory:
  the activations reach the first region untouched; the first region's weight operand is the joint weight transposed;
  the attention region reads what the first region's write-backs left; the last region reads what the attention
  region's write-backs left, the output weight transposed, and the bias as one row.
-/
import proofs.«113627_j3161095930032_2_alg».proof.Proof.KIRun
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The activations as the first region finds them are the launch memory's. -/
theorem B1_arg0 (c : Dev nD) : B1 m ρ c main_arg0 = m ((c : Thread nD τ).loc main_arg0) :=
  (StableHlo.after_of_writes_sub hostOps0 _ Gen.hostOps0_writes (by decide : main_arg0 ∉ Gen.hostOps0_W)).trans rfl

/-- The first region's weight operand: the joint weight transposed (and narrowed). -/
theorem B1_v1 (c : Dev nD) :
    (B1 m ρ c main_v1 : FVec F S768x2304 .bf16)
      = truncf .bf16 (transpose S768x2304 [1, 0] (m ((c : Thread nD τ).loc main_arg1) : FVec F S2304x768 .f32) transposes_S2304x768_S768x2304_1_0) bitsLt_bf16_f32 := by
  show StableHlo.after hostOps0 (Y0 m ρ c) (Proc.devRef .tc main_v1) = _
  after_results
  all_goals rfl

/-- The attention region reads what the first region's write-backs left. -/
theorem B2_v2 (c : Dev nD) : B2 m ρ c main_v2 = (dat0 (B1 m ρ) c).arrAt 2 cfg0.N := Y2_arr m ρ c 2

/-- The last region reads what the attention region's write-backs left. -/
theorem B4_v3 (c : Dev nD) : B4 m ρ c main_v3 = (dat1 (B2 m ρ) c).arrAt 3 cfg1.N :=
  (StableHlo.after_of_writes_sub hostOps2 _ Gen.hostOps2_writes (by decide : main_v3 ∉ Gen.hostOps2_W)).trans (Y3_out m ρ c)

theorem Y3_arg2 (c : Dev nD) : Y3 m ρ c (Proc.devRef .tc main_arg2) = m ((c : Thread nD τ).loc main_arg2) :=
  (Y3_of_ne m ρ c main_arg2 (by decide)).trans <| (Y2_of_ne m ρ c main_arg2 (by decide)).trans <|
    (StableHlo.after_of_writes_sub hostOps0 _ Gen.hostOps0_writes (by decide : main_arg2 ∉ Gen.hostOps0_W)).trans rfl
theorem Y3_arg3 (c : Dev nD) : Y3 m ρ c (Proc.devRef .tc main_arg3) = m ((c : Thread nD τ).loc main_arg3) :=
  (Y3_of_ne m ρ c main_arg3 (by decide)).trans <| (Y2_of_ne m ρ c main_arg3 (by decide)).trans <|
    (StableHlo.after_of_writes_sub hostOps0 _ Gen.hostOps0_writes (by decide : main_arg3 ∉ Gen.hostOps0_W)).trans rfl

/-- The last region's weight operand: the output weight transposed (and narrowed). -/
theorem B4_v5 (c : Dev nD) :
    (B4 m ρ c main_v5 : FVec F S768x768 .bf16)
      = truncf .bf16 (transpose S768x768 [1, 0] (m ((c : Thread nD τ).loc main_arg2) : FVec F S768x768 .f32) transposes_S768x768_S768x768_1_0) bitsLt_bf16_f32 := by
  rw [← Y3_arg2 m ρ c]
  show StableHlo.after hostOps2 (Y3 m ρ c) (Proc.devRef .tc main_v5) = _
  after_results
  all_goals rfl

/-- The last region's bias operand: the bias as one row. -/
theorem B4_v6 (c : Dev nD) :
    (B4 m ρ c main_v6 : FVec F S1x768 .f32)
      = shapeCast S1x768 (m ((c : Thread nD τ).loc main_arg3) : FVec F S768 .f32) shapeCasts_S768_S1x768 := by
  rw [← Y3_arg3 m ρ c]
  show StableHlo.after hostOps2 (Y3 m ρ c) (Proc.devRef .tc main_v6) = _
  after_results
  all_goals rfl

end Cert.KernelIdeal.Fr

end
-- ==== Proof.Spec.lean ====
/-
  The attention block as ONE function of its four argument arrays, over the extended reals.

  For a batch entry b, a row n and an output feature o the result is
      out[b,n,o] = (∑ c, att[b,n,c] * wp[o,c]) + bias[o],
  where the attended row att[b,n,·] is assembled head by head: feature c = 64·h + d belongs to head h, and
      att[b,n,64h+d] = ∑ m, prob[n,m] * V[m,d],
      prob[n,m]      = exp(s[n,m] - max_m' s[n,m']) / ∑ m', exp(s[n,m'] - max_m'' s[n,m'']),
      s[n,m]         = (∑ d, Q[n,d] * K[m,d]) * (1/8),
  with Q[n,d] = qkv[b,n,64h+d], K[m,d] = qkv[b,m,768+64h+d], V[m,d] = qkv[b,m,1536+64h+d], and
      qkv[b,n,f]     = ∑ c, x[b,n,c] * wq[f,c].
  The query, key and value of head h are the column ranges [64h, 64h+64), 768 + that and 1536 + that of the
  projected rows. The row maximum is the fold of max from -∞ over the 1024 keys; 1/8 is kept as its f32 word.
-/
import Idealize.ShloMosaic.PureOps.Ideal
import Idealize.ShloMosaic.Lib.ValueIdx

noncomputable section

open scoped BigOperators

namespace Cert.Att

open Idealize.ShloMosaic Idealize.ShloMosaic.ValueIdx

/-- The activations x : [8, 1024, 768]. -/
abbrev XArr : Type := (⟨3, ![8, 1024, 768]⟩ : Shape).Idx → EReal
/-- The joint query/key/value weight : [2304, 768] (output feature first). -/
abbrev WqArr : Type := (⟨2, ![2304, 768]⟩ : Shape).Idx → EReal
/-- The output projection's weight : [768, 768] (output feature first). -/
abbrev WpArr : Type := (⟨2, ![768, 768]⟩ : Shape).Idx → EReal
/-- The output projection's bias : [768]. -/
abbrev BArr : Type := (⟨1, ![768]⟩ : Shape).Idx → EReal

/-- The scale 1/8 = 64^(-1/2), as the f32 word both programs carry. -/
abbrev scale : EReal := Ideal.ofBits .f32 0x3E000000#32
/-- -∞, as the f32 word both maximum folds start from. -/
abbrev negInf : EReal := Ideal.ofBits .f32 0xFF800000#32

/-- Column of the query of head `h`, lane `d`, in a projected row. -/
def colQ (h : Fin 12) (d : Fin 64) : Fin 2304 := ⟨64 * h.val + d.val, by omega⟩
/-- Column of the key of head `h`, lane `d`. -/
def colK (h : Fin 12) (d : Fin 64) : Fin 2304 := ⟨768 + (64 * h.val + d.val), by omega⟩
/-- Column of the value of head `h`, lane `d`. -/
def colV (h : Fin 12) (d : Fin 64) : Fin 2304 := ⟨1536 + (64 * h.val + d.val), by omega⟩
/-- The head a feature of the attended row belongs to, and its lane within the head. -/
def headOf (c : Fin 768) : Fin 12 := ⟨c.val / 64, by omega⟩
def laneOf (c : Fin 768) : Fin 64 := ⟨c.val % 64, by omega⟩

/-! ## Softmax attention of abstract rows

One head's computation, for any query rows `Q`, key rows `K` and value rows `V` (1024 rows of 64 lanes each). -/

section Rows
variable (Q K V : Fin 1024 → Fin 64 → EReal)

/-- The scaled score of query row `n` against key row `m`. -/
def score (n m : Fin 1024) : EReal := (∑ d : Fin 64, Q n d * K m d) * scale

/-- The largest score of query row `n`: the fold of max from -∞ over the keys. -/
def rowMax (n : Fin 1024) : EReal :=
  (Finset.univ : Finset (Fin 1024)).fold max negInf (fun m => score Q K n m)

/-- The shifted exponential. -/
def expo (n m : Fin 1024) : EReal := Ideal.exp (score Q K n m - rowMax Q K n)

/-- The row's normaliser. -/
def denom (n : Fin 1024) : EReal := ∑ m : Fin 1024, expo Q K n m

/-- The attention weight of key `m` for query `n`. -/
def prob (n m : Fin 1024) : EReal := Ideal.div (expo Q K n m) (denom Q K n)

/-- The attended row: ∑ m, prob[n,m] · V[m,d]. -/
def attnRow (n : Fin 1024) (d : Fin 64) : EReal := ∑ m : Fin 1024, prob Q K n m * V m d

end Rows

variable (x : XArr) (wq : WqArr)

/-- The projected row: qkv[b,n,f] = ∑ c, x[b,n,c] · wq[f,c]. -/
def qkv (b : Fin 8) (n : Fin 1024) (f : Fin 2304) : EReal :=
  ∑ c : Fin 768, x (ix3 b n c) * wq (ix2 f c)

/-- One head's output: the attention of its query, key and value columns of the projected rows. -/
def headOut (b : Fin 8) (h : Fin 12) (n : Fin 1024) (d : Fin 64) : EReal :=
  attnRow (fun n d => qkv x wq b n (colQ h d)) (fun m d => qkv x wq b m (colK h d))
    (fun m d => qkv x wq b m (colV h d)) n d

/-- The attended row, heads side by side: feature c = 64·h + d. -/
def att (b : Fin 8) (n : Fin 1024) (c : Fin 768) : EReal :=
  headOut x wq b (headOf c) n (laneOf c)

variable (wp : WpArr) (bias : BArr)

/-- The block's result at (b, n, o). -/
def outAt (b : Fin 8) (n : Fin 1024) (o : Fin 768) : EReal :=
  (∑ c : Fin 768, att x wq b n c * wp (ix2 o c)) + bias (ix1 o)

/-- The block's result as an array [8, 1024, 768]. -/
def out : (⟨3, ![8, 1024, 768]⟩ : Shape).Idx → EReal :=
  fun i => outAt x wq wp bias (i 0) (i 1) (i 2)

end Cert.Att

end
-- ==== Proof.MatHost.lean ====
/-
  The operands the host prepares for the two projections, read at an index.

  Both weights arrive with the output feature first ([2304, 768] and [768, 768]); the host transposes each and
  narrows it to bf16, which at the ideal values changes nothing: the prepared weight at (c, f) is the given one at
  (f, c). The bias [768] is re-laid as one row [1, 768]: the row's entry o is the bias's entry o.
-/
import proofs.«113627_j3161095930032_2_alg».proof.Proof.Gen.KernelIdeal
import Idealize.ShloMosaic.Lib.ValueLayout

noncomputable section

namespace Cert.Att.Mat

open Idealize.ShloMosaic Idealize.ShloMosaic.ValueIdx
open Cert.KernelIdeal Cert.KernelIdeal.Gen

/-- The prepared query/key/value weight at (c, f) is the given weight at (f, c). -/
theorem wqT_apply (wq : FVec Ideal S2304x768 .f32) (c : Fin 768) (f : Fin 2304) :
    (truncf .bf16 (transpose S768x2304 [1, 0] wq transposes_S2304x768_S768x2304_1_0) bitsLt_bf16_f32
      : FVec Ideal S768x2304 .bf16) (ix2 c f) = wq (ix2 f c) :=
  (truncf_apply (φ := .f32) (ψ := .bf16) _ bitsLt_bf16_f32 (ix2 c f)).trans (transpose_ix2_apply wq _ c f)

/-- The prepared output-projection weight at (c, o) is the given weight at (o, c). -/
theorem wpT_apply (wp : FVec Ideal S768x768 .f32) (c o : Fin 768) :
    (truncf .bf16 (transpose S768x768 [1, 0] wp transposes_S768x768_S768x768_1_0) bitsLt_bf16_f32
      : FVec Ideal S768x768 .bf16) (ix2 c o) = wp (ix2 o c) :=
  (truncf_apply (φ := .f32) (ψ := .bf16) _ bitsLt_bf16_f32 (ix2 c o)).trans (transpose_ix2_apply wp _ c o)

/-- The bias re-laid as one row: the row's entry o is the bias's entry o. -/
theorem bias_row_apply (b : FVec Ideal S768 .f32) (o : Fin 768) :
    (shapeCast S1x768 b shapeCasts_S768_S1x768 : FVec Ideal S1x768 .f32) (ix2 (0 : Fin 1) o) = b (ix1 o) :=
  shapeCast_a_1a_apply b _ (0 : Fin 1) o

end Cert.Att.Mat

end
-- ==== Proof.LibRowCols.lean ====
/-
  A product of two rank-2 arrays with the left operand's SECOND axis against the right operand's FIRST axis,
  `[A, K] × [K, B] → [A, B]` — every row of the left operand against every column of the right one, as a plain
  `tpu.matmul` into the zero accumulator computes it —, read at `(i, c)` at the ideal values (floats are extended
  reals): the sum over `k` of `l (i, k) * r (k, c)`. Stated for any extents, with every index written by coordinates.
-/
import Idealize.ShloMosaic.PureOps.Ideal
import Idealize.ShloMosaic.PureOps.Ideal.Laws
import Idealize.ShloMosaic.Lib.ValueIdx

noncomputable section

open scoped BigOperators

namespace Idealize.ShloMosaic.RowCols

open Idealize.ShloMosaic Idealize.ShloMosaic.ValueIdx

/-- A rank-2 index whose coordinates have the values of `a` and `b` is `ix2 a b`. -/
theorem idx2_of_vals {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- The dimension numbers of `[A, K] × [K, B] → [A, B]`: the left operand's axis 1 contracted with the right
    operand's axis 0, no batch axis. -/
abbrev colsDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row. -/
theorem cols_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem cols_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a rows-against-columns product, re-indexed by the contracted coordinate: at `j = (i, c)`
    the left operand is read along its row `i`, the right one along its column `c`. -/
theorem colsDot_sum {A K B : Nat} (d : DotDims (⟨2, ![A, K]⟩ : Shape) ⟨2, ![K, B]⟩ ⟨2, ![A, B]⟩)
    (hd : ∃ wf, d = colsDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (colsDims wf) K rfl rfl).symm]
  refine Finset.sum_congr rfl fun k _ => ?_
  have hk := contrEquiv1_symm_val (colsDims wf) K rfl rfl k
  have el : (colsDims wf).lhsIdx j ((contrEquiv1 (colsDims wf) K rfl rfl).symm k) = ix2 (j 0) k :=
    idx2_of_vals _ _ _ (cols_lhs0 wf j _) (((colsDims wf).lhsIdx_val_of_single (cl := 1) rfl j _).trans hk)
  have er : (colsDims wf).rhsIdx j ((contrEquiv1 (colsDims wf) K rfl rfl).symm k) = ix2 k (j 1) :=
    idx2_of_vals _ _ _ (((colsDims wf).rhsIdx_val_of_single (cr := 0) rfl j _).trans hk) (cols_rhs1 wf j _)
  rw [el, er]
  rfl

/-- A `tpu.matmul` of rows against columns into the zero accumulator, read at `(i, c)`: the sum over `k` of
    `l (i, k) * r (k, c)`. -/
theorem matmul_zero_cols_apply {A K B : Nat} {φ₁ φ₂ : FTy} (d : DotDims (⟨2, ![A, K]⟩ : Shape) ⟨2, ![K, B]⟩ ⟨2, ![A, B]⟩)
    (hd : ∃ wf, d = colsDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact colsDot_sum d hd l r (ix2 i c)

end Idealize.ShloMosaic.RowCols

end
-- ==== Proof.MatQkv.lean ====
/-
  The joint query/key/value projection's stored block, read at an index.

  One block of the projection takes 256 rows of activations x : [1, 256, 768] and the whole transposed weight
  w : [768, 2304] and stores x · w : [1, 256, 2304]. At the ideal values a change of float format is the identity and
  the product accumulates from zero, so the entry at row r and feature f is the sum over the 768 input features c of
  x[0, r, c] * w[c, f]. The leading unit axis is dropped before the product and put back after it.
-/
import proofs.«113627_j3161095930032_2_alg».proof.Proof.Gen.KernelIdeal.Skeleton
import proofs.«113627_j3161095930032_2_alg».proof.Proof.LibRowCols
import Idealize.ShloMosaic.Lib.ValueLayout

noncomputable section

open scoped BigOperators

namespace Cert.Att.Mat

open Idealize.ShloMosaic Idealize.ShloMosaic.ValueIdx
open Cert.KernelIdeal Cert.KernelIdeal.Gen

/-- The projection's stored block at (0, r, f): ∑ c, x[0, r, c] · w[c, f]. -/
theorem qkv_payload (x0 : Vec Ideal S1x256x768 .f32) (w : Vec Ideal S768x2304 .bf16) (r : Fin 256) (f : Fin 2304) :
    k0_pay1 x0 w (ix3 (0 : Fin 1) r f) = ∑ c : Fin 768, x0 (ix3 (0 : Fin 1) r c) * w (ix2 c f) := by
  unfold k0_pay1
  -- the leading unit axis put back, and the narrowing of the product: both read through
  refine (shapeCast_ab_1ab_apply _ _ (0 : Fin 1) r f).trans ?_
  refine (truncf_apply (φ := .f32) (ψ := .bf16) _ bitsLt_bf16_f32 (ix2 r f)).trans ?_
  -- the product into the zero accumulator: rows against columns
  refine (RowCols.matmul_zero_cols_apply _ ⟨_, rfl⟩ none _ _ r f).trans ?_
  refine Finset.sum_congr rfl fun c _ => ?_
  -- the left operand: narrowed, the unit axis dropped; the right operand: cast to its own shape
  rw [shapeCast_self]
  refine congrArg (· * w (ix2 c f)) ?_
  refine (truncf_apply (φ := .f32) (ψ := .bf16) _ bitsLt_bf16_f32 (ix2 r c)).trans ?_
  exact shapeCast_1ab_ab_apply _ _ r c

end Cert.Att.Mat

end
-- ==== Proof.MatOff.lean ====
/-
  The zero offsets of a rank-2 and of a rank-3 rectangle, as constant functions: a block that a kernel body
  loads or stores whole starts at offset 0 on every axis.
-/
import Mathlib.Data.Fin.VecNotation

namespace Cert.Att.Mat

/-- The offsets [0, 0] are zero on both axes. -/
theorem hz2 : (![0, 0] : Fin 2 → Nat) = fun _ => 0 :=
  funext fun a => match a with | ⟨0, _⟩ => rfl | ⟨1, _⟩ => rfl
/-- The offsets [0, 0, 0] are zero on the three axes. -/
theorem hz3 : (![0, 0, 0] : Fin 3 → Nat) = fun _ => 0 :=
  funext fun a => match a with | ⟨0, _⟩ => rfl | ⟨1, _⟩ => rfl | ⟨2, _⟩ => rfl

end Cert.Att.Mat
-- ==== Proof.MatFinal0.lean ====
/-
  The query/key/value projection over the whole grid: the array it leaves.

  The grid has 8 × 4 points; point t = 4·b + i is handed rows 256·i … 256·i + 255 of batch entry b of the
  activations x : [8, 1024, 768] and the whole prepared weight w : [768, 2304], and writes the product into the same
  rows of batch entry b of the result [8, 1024, 2304]. Every point writes back, the 32 row blocks tile the result, and
  each written block is its block of ONE function of the two arrays,
      qkv[b, n, f] = ∑ k, x[b, n, k] * w[k, f].
  Steps: where each window's block sits at a point (decided once over the 32 points); each input block read as rows
  of its array; the stored block at (0, r, f) as the sum above at row 256·i + r; membership in a block by coordinate
  ranges; row n of batch entry b is covered by point 4·b + n / 256; hence the whole array.
-/
import proofs.«113627_j3161095930032_2_alg».proof.Proof.KIReg0
import proofs.«113627_j3161095930032_2_alg».proof.Proof.MatQkv
import proofs.«113627_j3161095930032_2_alg».proof.Proof.MatOff
import Idealize.ShloMosaic.Lib.Pipeline.Value

noncomputable section

open scoped BigOperators

namespace Cert.Att.Mat

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The projected entry: qkv[b, n, f] = ∑ k, X[b, n, k] · W[k, f]. -/
def qkvAt (X : S8x1024x768.Idx → EReal) (W : S768x2304.Idx → EReal) (b : Fin 8) (n : Fin 1024) (f : Fin 2304) : EReal :=
  ∑ k : Fin 768, X (ix3 b n k) * W (ix2 k f)

/-- The projected rows as an array [8, 1024, 2304]. -/
def qkvArr (X : S8x1024x768.Idx → EReal) (W : S768x2304.Idx → EReal) : S8x1024x2304.Idx → EReal :=
  fun i => qkvAt X W (i 0) (i 1) (i 2)

/-- The projected entry depends on its coordinates' values only. -/
theorem qkvAt_congr (X : S8x1024x768.Idx → EReal) (W : S768x2304.Idx → EReal) {b b' : Fin 8} {n n' : Fin 1024} {f f' : Fin 2304}
    (hb : b.val = b'.val) (hn : n.val = n'.val) (hf : f.val = f'.val) : qkvAt X W b n f = qkvAt X W b' n' f' := by
  obtain rfl := Fin.ext hb; obtain rfl := Fin.ext hn; obtain rfl := Fin.ext hf; rfl

/-- Where the three windows' blocks sit at point t: the activations' and the result's at batch entry t / 4 and row
    block t % 4, the weight's always at the origin. Decided over the 32 points. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0 :=
  (by decide +kernel : ∀ t : Fin grid0.N, _)

/-- The activations' block at point t is rows 256·(t % 4) … of batch entry t / 4 of the array. -/
theorem iblk0_0_apply (c : Dev nD) (t : Fin cfg0.N) (j : S1x256x768.Idx) (k : S8x1024x768.Idx)
    (h0 : (k 0).val = t.val / 4) (h1 : (k 1).val = 256 * (t.val % 4) + (j 1).val) (h2 : (k 2).val = (j 2).val) :
    (iblk0 V c 0 t : Vec Ideal S1x256x768 .f32) j = (V c main_arg0 : S8x1024x768.Idx → EReal) k := by
  obtain ⟨e0, e1, e2, -⟩ := idx_facts0 t
  unfold iblk0
  rw [View.read_apply]
  show V c main_arg0 _ = V c main_arg0 _
  congr 1
  funext a; apply Fin.ext
  match a with
  | ⟨0, _⟩ => show win0_0.index t 0 * 1 + 1 * (j 0).val = (k 0).val; have : (j 0).val < 1 := (j 0).isLt; omega
  | ⟨1, _⟩ => show win0_0.index t 1 * 256 + 1 * (j 1).val = (k 1).val; omega
  | ⟨2, _⟩ => show win0_0.index t 2 * 768 + 1 * (j 2).val = (k 2).val; omega

/-- The weight's block at every point is the whole prepared weight. -/
theorem iblk0_1_apply (c : Dev nD) (t : Fin cfg0.N) (j : S768x2304.Idx) :
    (iblk0 V c 1 t : Vec Ideal S768x2304 .bf16) j = (V c main_v1 : S768x2304.Idx → EReal) j := by
  obtain ⟨-, -, -, e0, e1, -⟩ := idx_facts0 t
  unfold iblk0
  rw [View.read_apply]
  show V c main_v1 _ = V c main_v1 _
  congr 1
  funext a; apply Fin.ext
  match a with
  | ⟨0, _⟩ => show win0_1.index t 0 * 768 + 1 * (j 0).val = (j 0).val; omega
  | ⟨1, _⟩ => show win0_1.index t 1 * 2304 + 1 * (j 1).val = (j 1).val; omega

/-- The stored block of a point whose activations are rows n0 … n0 + 255 of batch entry b: at (0, r, f) the
    projected entry of row n0 + r. -/
theorem qkv_block (X : S8x1024x768.Idx → EReal) (W : S768x2304.Idx → EReal)
    (x0 : Vec Ideal S1x256x768 .f32) (w : Vec Ideal S768x2304 .bf16) (b : Fin 8) (n0 : Nat) (hn0 : n0 + 256 ≤ 1024)
    (hx : ∀ (r : Fin 256) (k : Fin 768), x0 (ix3 (0 : Fin 1) r k) = X (ix3 b ⟨n0 + r.val, by omega⟩ k))
    (hw : ∀ (k : Fin 768) (f : Fin 2304), w (ix2 k f) = W (ix2 k f))
    (r : Fin 256) (f : Fin 2304) :
    k0_pay1 x0 w (ix3 (0 : Fin 1) r f) = qkvAt X W b ⟨n0 + r.val, by omega⟩ f := by
  rw [qkv_payload]
  unfold qkvAt
  exact Finset.sum_congr rfl fun k _ => by rw [hx, hw]

/-- What point t writes back is block t of the projected rows. -/
theorem flushed0_eq (c : Dev nD) (t : Fin cfg0.N) :
    (dat0 V c).flushed 2 t = ((cfg0.win 2).blk t).view.read (Elt Ideal)
      (qkvArr (V c main_arg0 : S8x1024x768.Idx → EReal) (V c main_v1 : S768x2304.Idx → EReal)) := by
  have hN : cfg0.N = 32 := N_0
  have ht : t.val < 32 := hN ▸ t.isLt
  obtain ⟨-, -, -, -, -, e0, e1, e2⟩ := idx_facts0 t
  show (cfg0.win 2).cut (grid0.coords t) ((dat0 V c).after 2 t) = _
  rw [after0_2]
  unfold out0_2
  rw [View.canon_unit_zero hz3]
  simp only [View.ld_unit_zero (S := S1x256x768) hz3, View.ld_unit_zero (S := S768x2304) hz2]
  funext y
  have h0 : (y 0).val < 1 := (y 0).isLt
  have hr : (y 1).val < 256 := (y 1).isLt
  have hf : (y 2).val < 2304 := (y 2).isLt
  -- the block's index by coordinates
  have hy : (win0 2).xinj (grid0.coords t) y = ix3 (0 : Fin 1) (⟨(y 1).val, hr⟩ : Fin 256) (⟨(y 2).val, hf⟩ : Fin 2304) := by
    funext a; apply Fin.ext
    match a with
    | ⟨0, _⟩ => show (y 0).val = 0; omega
    | ⟨1, _⟩ => rfl
    | ⟨2, _⟩ => rfl
  show k0_pay1 (iblk0 V c 0 t) (iblk0 V c 1 t) ((win0 2).xinj (grid0.coords t) y)
    = qkvAt (V c main_arg0) (V c main_v1) ((((cfg0.win 2).blk t).view.emb y) 0) ((((cfg0.win 2).blk t).view.emb y) 1)
        ((((cfg0.win 2).blk t).view.emb y) 2)
  refine (congrArg (k0_pay1 (iblk0 V c 0 t) (iblk0 V c 1 t)) hy).trans ?_
  refine (qkv_block (V c main_arg0) (V c main_v1) _ _ (⟨t.val / 4, by omega⟩ : Fin 8) (256 * (t.val % 4)) (by omega)
    (fun r k => iblk0_0_apply V c t _ _ rfl rfl rfl) (fun k f => iblk0_1_apply V c t _) _ _).trans ?_
  -- the element's place in the array: block index × block size + the coordinate inside the block
  refine qkvAt_congr _ _ ?_ ?_ ?_
  · show t.val / 4 = win0_2.index t (0 : Fin 3) * 1 + 1 * (y 0).val; omega
  · show 256 * (t.val % 4) + (y 1).val = win0_2.index t (1 : Fin 3) * 256 + 1 * (y 1).val; omega
  · show (y 2).val = win0_2.index t (2 : Fin 3) * 2304 + 1 * (y 2).val; omega

/-- An index of the result is in point t's block iff each coordinate is in the block's range on its axis. -/
theorem mem_blk0 (t : Fin cfg0.N) (i : S8x1024x2304.Idx) :
    i ∈ ((cfg0.win 2).blk t).view.set ↔ ∀ a : Fin 3, win0_2.index t a * S1x256x2304.size a ≤ (i a).val
      ∧ (i a).val < win0_2.index t a * S1x256x2304.size a + S1x256x2304.size a := by
  show i ∈ ((View.whole main_v2).slice (win0_2.rect t)).set ↔ _
  rw [View.set_slice_whole, Rect.mem_set_unit]
  exact Iff.rfl

/-- Row n of batch entry b is in the block of point 4·b + n / 256, which writes back: the blocks cover the result. -/
theorem cover0 (i : S8x1024x2304.Idx) :
    ∃ t : Fin cfg0.N, (cfg0.win 2).flush t = true ∧ i ∈ ((cfg0.win 2).blk t).view.set := by
  have hN : cfg0.N = 32 := N_0
  have hi0 : (i 0).val < 8 := (i 0).isLt
  have hi1 : (i 1).val < 1024 := (i 1).isLt
  have hi2 : (i 2).val < 2304 := (i 2).isLt
  let t : Fin cfg0.N := ⟨4 * (i 0).val + (i 1).val / 256, by rw [hN]; omega⟩
  obtain ⟨-, -, -, -, -, e0, e1, e2⟩ := idx_facts0 t
  have tv : t.val = 4 * (i 0).val + (i 1).val / 256 := rfl
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2304 ≤ (i 2).val ∧ (i 2).val < win0_2.index t (2 : Fin 3) * 2304 + 2304; omega

/-- The array the projection leaves: the projected rows of the activations and the prepared weight as the region
    finds them. -/
theorem final0_arr (c : Dev nD) :
    (dat0 V c).arrAt 2 cfg0.N = qkvArr (V c main_arg0 : S8x1024x768.Idx → EReal) (V c main_v1 : S768x2304.Idx → EReal) :=
  (dat0 V c).arrAt_eq_of_cover 2 (qkvArr (V c main_arg0) (V c main_v1)) (fun t _ => flushed0_eq V c t) cover0

/-- The same, entry by entry: at (b, n, f) the sum over k of x[b, n, k] · w[k, f]. -/
theorem final0 (c : Dev nD) (b : Fin 8) (n : Fin 1024) (f : Fin 2304) :
    (dat0 V c).arrAt 2 cfg0.N (ix3 b n f) = qkvAt (V c main_arg0) (V c main_v1) b n f := by
  rw [final0_arr]
  rfl

/-- The projected entry written out. -/
theorem qkvAt_eq_sum (X : S8x1024x768.Idx → EReal) (W : S768x2304.Idx → EReal) (b : Fin 8) (n : Fin 1024) (f : Fin 2304) :
    qkvAt X W b n f = ∑ k : Fin 768, X (ix3 b n k) * W (ix2 k f) := rfl

end Cert.Att.Mat

end
-- ==== Proof.MatProj.lean ====
/-
  The output projection's stored block, read at an index.

  One block takes 256 attended rows a : [1, 256, 768], the whole transposed weight w : [768, 768] and the bias as one
  row bb : [1, 768], and stores a · w + bb : [1, 256, 768], the bias row repeated over the 256 rows. The product
  accumulates from zero, so the entry at row r and output feature o is (∑ c, a[0, r, c] * w[c, o]) + bb[0, o].
  The leading unit axis is dropped before the product and put back after the sum.
-/
import proofs.«113627_j3161095930032_2_alg».proof.Proof.Gen.KernelIdeal.Skeleton
import proofs.«113627_j3161095930032_2_alg».proof.Proof.LibRowCols
import Idealize.ShloMosaic.Lib.ValueLayout

noncomputable section

open scoped BigOperators

namespace Cert.Att.Mat

open Idealize.ShloMosaic Idealize.ShloMosaic.ValueIdx
open Cert.KernelIdeal Cert.KernelIdeal.Gen

/-- The output projection's stored block at (0, r, o): (∑ c, a[0, r, c] · w[c, o]) + bb[0, o]. -/
theorem proj_payload (a : Vec Ideal S1x256x768 .bf16) (w : Vec Ideal S768x768 .bf16) (bb : Vec Ideal S1x768 .f32)
    (r : Fin 256) (o : Fin 768) :
    k2_pay1 a w bb (ix3 (0 : Fin 1) r o)
      = (∑ c : Fin 768, a (ix3 (0 : Fin 1) r c) * w (ix2 c o)) + bb (ix2 (0 : Fin 1) o) := by
  unfold k2_pay1
  -- the leading unit axis put back, then the sum of the product and the repeated bias row, entry by entry
  refine (shapeCast_ab_1ab_apply _ _ (0 : Fin 1) r o).trans ?_
  refine (addf_apply (φ := .f32) _ _ (ix2 r o)).trans ?_
  refine congrArg₂ (· + ·) ?_ ?_
  · -- the product into the zero accumulator: rows against columns
    refine (RowCols.matmul_zero_cols_apply _ ⟨_, rfl⟩ none _ _ r o).trans ?_
    refine Finset.sum_congr rfl fun c _ => ?_
    rw [shapeCast_self]
    exact congrArg (· * w (ix2 c o)) (shapeCast_1ab_ab_apply _ _ r c)
  · -- the bias row repeated over the rows; the cast of the row to its own shape is the identity
    refine (broadcastTo_1b_ab_apply _ _ r o).trans ?_
    rw [shapeCast_self]

end Cert.Att.Mat

end
-- ==== Proof.MatFinal2.lean ====
/-
  The output projection over the whole grid: the array it leaves.

  The grid has 8 × 4 points; point t = 4·b + i is handed rows 256·i … 256·i + 255 of batch entry b of the attended
  rows a : [8, 1024, 768], the whole prepared weight w : [768, 768] and the bias as one row bb : [1, 768], and writes
  the product plus the bias row into the same rows of batch entry b of the result [8, 1024, 768]. Every point writes
  back, the 32 row blocks tile the result, and each written block is its block of ONE function of the three arrays,
      out[b, n, o] = (∑ k, a[b, n, k] * w[k, o]) + bb[0, o].
  Steps: where each window's block sits at a point (decided once over the 32 points); each input block read as rows
  of its array; the stored block at (0, r, o) as the entry above at row 256·i + r; membership in a block by
  coordinate ranges; row n of batch entry b is covered by point 4·b + n / 256; hence the whole array.
-/
import proofs.«113627_j3161095930032_2_alg».proof.Proof.KIReg2
import proofs.«113627_j3161095930032_2_alg».proof.Proof.MatProj
import proofs.«113627_j3161095930032_2_alg».proof.Proof.MatOff
import Idealize.ShloMosaic.Lib.Pipeline.Value

noncomputable section

open scoped BigOperators

namespace Cert.Att.Mat

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

variable (V : (c : Dev nD) → (b : Ref sig .tc) → Buf (Elt Ideal) ((c : Thread nD τ).loc b))

/-- The projected entry: out[b, n, o] = (∑ k, A[b, n, k] · W[k, o]) + B[0, o]. -/
def projAt (A : S8x1024x768.Idx → EReal) (W : S768x768.Idx → EReal) (B : S1x768.Idx → EReal)
    (b : Fin 8) (n : Fin 1024) (o : Fin 768) : EReal :=
  (∑ k : Fin 768, A (ix3 b n k) * W (ix2 k o)) + B (ix2 (0 : Fin 1) o)

/-- The output projection's result as an array [8, 1024, 768]. -/
def projArr (A : S8x1024x768.Idx → EReal) (W : S768x768.Idx → EReal) (B : S1x768.Idx → EReal) : S8x1024x768.Idx → EReal :=
  fun i => projAt A W B (i 0) (i 1) (i 2)

/-- The projected entry depends on its coordinates' values only. -/
theorem projAt_congr (A : S8x1024x768.Idx → EReal) (W : S768x768.Idx → EReal) (B : S1x768.Idx → EReal)
    {b b' : Fin 8} {n n' : Fin 1024} {o o' : Fin 768}
    (hb : b.val = b'.val) (hn : n.val = n'.val) (ho : o.val = o'.val) : projAt A W B b n o = projAt A W B b' n' o' := by
  obtain rfl := Fin.ext hb; obtain rfl := Fin.ext hn; obtain rfl := Fin.ext ho; rfl

/-- Where the four windows' blocks sit at point t: the attended rows' and the result's at batch entry t / 4 and row
    block t % 4, the weight's and the bias row's always at the origin. Decided over the 32 points. -/
theorem idx_facts2 : ∀ t : Fin cfg2.N,
    win2_0.index t (0 : Fin 3) = t.val / 4 ∧ win2_0.index t (1 : Fin 3) = t.val % 4 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val / 4 ∧ win2_3.index t (1 : Fin 3) = t.val % 4 ∧ win2_3.index t (2 : Fin 3) = 0 :=
  (by decide +kernel : ∀ t : Fin grid2.N, _)

/-- The attended rows' block at point t is rows 256·(t % 4) … of batch entry t / 4 of the array. -/
theorem iblk2_0_apply (c : Dev nD) (t : Fin cfg2.N) (j : S1x256x768.Idx) (k : S8x1024x768.Idx)
    (h0 : (k 0).val = t.val / 4) (h1 : (k 1).val = 256 * (t.val % 4) + (j 1).val) (h2 : (k 2).val = (j 2).val) :
    (iblk2 V c 0 t : Vec Ideal S1x256x768 .bf16) j = (V c main_v3 : S8x1024x768.Idx → EReal) k := by
  obtain ⟨e0, e1, e2, -⟩ := idx_facts2 t
  unfold iblk2
  rw [View.read_apply]
  show V c main_v3 _ = V c main_v3 _
  congr 1
  funext a; apply Fin.ext
  match a with
  | ⟨0, _⟩ => show win2_0.index t 0 * 1 + 1 * (j 0).val = (k 0).val; have : (j 0).val < 1 := (j 0).isLt; omega
  | ⟨1, _⟩ => show win2_0.index t 1 * 256 + 1 * (j 1).val = (k 1).val; omega
  | ⟨2, _⟩ => show win2_0.index t 2 * 768 + 1 * (j 2).val = (k 2).val; omega

/-- The weight's block at every point is the whole prepared weight. -/
theorem iblk2_1_apply (c : Dev nD) (t : Fin cfg2.N) (j : S768x768.Idx) :
    (iblk2 V c 1 t : Vec Ideal S768x768 .bf16) j = (V c main_v5 : S768x768.Idx → EReal) j := by
  obtain ⟨-, -, -, e0, e1, -⟩ := idx_facts2 t
  unfold iblk2
  rw [View.read_apply]
  show V c main_v5 _ = V c main_v5 _
  congr 1
  funext a; apply Fin.ext
  match a with
  | ⟨0, _⟩ => show win2_1.index t 0 * 768 + 1 * (j 0).val = (j 0).val; omega
  | ⟨1, _⟩ => show win2_1.index t 1 * 768 + 1 * (j 1).val = (j 1).val; omega

/-- The bias row's block at every point is the whole row. -/
theorem iblk2_2_apply (c : Dev nD) (t : Fin cfg2.N) (j : S1x768.Idx) :
    (iblk2 V c 2 t : Vec Ideal S1x768 .f32) j = (V c main_v6 : S1x768.Idx → EReal) j := by
  obtain ⟨-, -, -, -, -, e0, e1, -⟩ := idx_facts2 t
  unfold iblk2
  rw [View.read_apply]
  show V c main_v6 _ = V c main_v6 _
  congr 1
  funext a; apply Fin.ext
  match a with
  | ⟨0, _⟩ => show win2_2.index t 0 * 1 + 1 * (j 0).val = (j 0).val; omega
  | ⟨1, _⟩ => show win2_2.index t 1 * 768 + 1 * (j 1).val = (j 1).val; omega

/-- The stored block of a point whose attended rows are rows n0 … n0 + 255 of batch entry b: at (0, r, o) the
    projected entry of row n0 + r. -/
theorem proj_block (A : S8x1024x768.Idx → EReal) (W : S768x768.Idx → EReal) (B : S1x768.Idx → EReal)
    (a0 : Vec Ideal S1x256x768 .bf16) (w : Vec Ideal S768x768 .bf16) (bb : Vec Ideal S1x768 .f32)
    (b : Fin 8) (n0 : Nat) (hn0 : n0 + 256 ≤ 1024)
    (ha : ∀ (r : Fin 256) (k : Fin 768), a0 (ix3 (0 : Fin 1) r k) = A (ix3 b ⟨n0 + r.val, by omega⟩ k))
    (hw : ∀ (k o : Fin 768), w (ix2 k o) = W (ix2 k o))
    (hb : ∀ (o : Fin 768), bb (ix2 (0 : Fin 1) o) = B (ix2 (0 : Fin 1) o))
    (r : Fin 256) (o : Fin 768) :
    k2_pay1 a0 w bb (ix3 (0 : Fin 1) r o) = projAt A W B b ⟨n0 + r.val, by omega⟩ o := by
  rw [proj_payload]
  unfold projAt
  rw [hb]
  exact congrArg (· + B (ix2 (0 : Fin 1) o)) (Finset.sum_congr rfl fun k _ => by rw [ha, hw])

/-- What point t writes back is block t of the projection's result. -/
theorem flushed2_eq (c : Dev nD) (t : Fin cfg2.N) :
    (dat2 V c).flushed 3 t = ((cfg2.win 3).blk t).view.read (Elt Ideal)
      (projArr (V c main_v3 : S8x1024x768.Idx → EReal) (V c main_v5 : S768x768.Idx → EReal) (V c main_v6 : S1x768.Idx → EReal)) := by
  have hN : cfg2.N = 32 := N_2
  have ht : t.val < 32 := hN ▸ t.isLt
  obtain ⟨-, -, -, -, -, -, -, e0, e1, e2⟩ := idx_facts2 t
  show (cfg2.win 3).cut (grid2.coords t) ((dat2 V c).after 3 t) = _
  rw [after2_3]
  unfold out2_3
  rw [View.canon_unit_zero hz3]
  simp only [View.ld_unit_zero (S := S1x256x768) hz3, View.ld_unit_zero (S := S768x768) hz2, View.ld_unit_zero (S := S1x768) hz2]
  funext y
  have h0 : (y 0).val < 1 := (y 0).isLt
  have hr : (y 1).val < 256 := (y 1).isLt
  have ho : (y 2).val < 768 := (y 2).isLt
  -- the block's index by coordinates
  have hy : (win2 3).xinj (grid2.coords t) y = ix3 (0 : Fin 1) (⟨(y 1).val, hr⟩ : Fin 256) (⟨(y 2).val, ho⟩ : Fin 768) := by
    funext a; apply Fin.ext
    match a with
    | ⟨0, _⟩ => show (y 0).val = 0; omega
    | ⟨1, _⟩ => rfl
    | ⟨2, _⟩ => rfl
  show k2_pay1 (iblk2 V c 0 t) (iblk2 V c 1 t) (iblk2 V c 2 t) ((win2 3).xinj (grid2.coords t) y)
    = projAt (V c main_v3) (V c main_v5) (V c main_v6) ((((cfg2.win 3).blk t).view.emb y) 0)
        ((((cfg2.win 3).blk t).view.emb y) 1) ((((cfg2.win 3).blk t).view.emb y) 2)
  refine (congrArg (k2_pay1 (iblk2 V c 0 t) (iblk2 V c 1 t) (iblk2 V c 2 t)) hy).trans ?_
  refine (proj_block (V c main_v3) (V c main_v5) (V c main_v6) _ _ _ (⟨t.val / 4, by omega⟩ : Fin 8) (256 * (t.val % 4)) (by omega)
    (fun r k => iblk2_0_apply V c t _ _ rfl rfl rfl) (fun k o => iblk2_1_apply V c t _) (fun o => iblk2_2_apply V c t _) _ _).trans ?_
  -- the element's place in the array: block index × block size + the coordinate inside the block
  refine projAt_congr _ _ _ ?_ ?_ ?_
  · show t.val / 4 = win2_3.index t (0 : Fin 3) * 1 + 1 * (y 0).val; omega
  · show 256 * (t.val % 4) + (y 1).val = win2_3.index t (1 : Fin 3) * 256 + 1 * (y 1).val; omega
  · show (y 2).val = win2_3.index t (2 : Fin 3) * 768 + 1 * (y 2).val; omega

/-- An index of the result is in point t's block iff each coordinate is in the block's range on its axis. -/
theorem mem_blk2 (t : Fin cfg2.N) (i : S8x1024x768.Idx) :
    i ∈ ((cfg2.win 3).blk t).view.set ↔ ∀ a : Fin 3, win2_3.index t a * S1x256x768.size a ≤ (i a).val
      ∧ (i a).val < win2_3.index t a * S1x256x768.size a + S1x256x768.size a := by
  show i ∈ ((View.whole main_v7).slice (win2_3.rect t)).set ↔ _
  rw [View.set_slice_whole, Rect.mem_set_unit]
  exact Iff.rfl

/-- Row n of batch entry b is in the block of point 4·b + n / 256, which writes back: the blocks cover the result. -/
theorem cover2 (i : S8x1024x768.Idx) :
    ∃ t : Fin cfg2.N, (cfg2.win 3).flush t = true ∧ i ∈ ((cfg2.win 3).blk t).view.set := by
  have hN : cfg2.N = 32 := N_2
  have hi0 : (i 0).val < 8 := (i 0).isLt
  have hi1 : (i 1).val < 1024 := (i 1).isLt
  have hi2 : (i 2).val < 768 := (i 2).isLt
  let t : Fin cfg2.N := ⟨4 * (i 0).val + (i 1).val / 256, by rw [hN]; omega⟩
  obtain ⟨-, -, -, -, -, -, -, e0, e1, e2⟩ := idx_facts2 t
  have tv : t.val = 4 * (i 0).val + (i 1).val / 256 := rfl
  refine ⟨t, flush2_3 t, ?_⟩
  rw [mem_blk2]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 256 ≤ (i 1).val ∧ (i 1).val < win2_3.index t (1 : Fin 3) * 256 + 256; omega
  | ⟨2, _⟩ => show win2_3.index t (2 : Fin 3) * 768 ≤ (i 2).val ∧ (i 2).val < win2_3.index t (2 : Fin 3) * 768 + 768; omega

/-- The array the output projection leaves: the projection of the attended rows, the prepared weight and the bias
    row as the region finds them. -/
theorem final2_arr (c : Dev nD) :
    (dat2 V c).arrAt 3 cfg2.N = projArr (V c main_v3 : S8x1024x768.Idx → EReal) (V c main_v5 : S768x768.Idx → EReal)
      (V c main_v6 : S1x768.Idx → EReal) :=
  (dat2 V c).arrAt_eq_of_cover 3 (projArr (V c main_v3) (V c main_v5) (V c main_v6)) (fun t _ => flushed2_eq V c t) cover2

/-- The same, entry by entry: at (b, n, o) the sum over k of a[b, n, k] · w[k, o], plus bb[0, o]. -/
theorem final2 (c : Dev nD) (b : Fin 8) (n : Fin 1024) (o : Fin 768) :
    (dat2 V c).arrAt 3 cfg2.N (ix3 b n o) = projAt (V c main_v3) (V c main_v5) (V c main_v6) b n o := by
  rw [final2_arr]
  rfl

/-- The projected entry written out. -/
theorem projAt_eq_sum (A : S8x1024x768.Idx → EReal) (W : S768x768.Idx → EReal) (B : S1x768.Idx → EReal)
    (b : Fin 8) (n : Fin 1024) (o : Fin 768) :
    projAt A W B b n o = (∑ k : Fin 768, A (ix3 b n k) * W (ix2 k o)) + B (ix2 (0 : Fin 1) o) := rfl

end Cert.Att.Mat

end
-- ==== Proof.AttnGrid.lean ====
/-
  The attention region's grid, read against the whole arrays.

  The grid has 8 × 6 points; point `t` is batch entry `t / 6` and head pair `t % 6`. The three input windows look into
  the projected rows `[8, 1024, 2304]` at block column `t % 6`, `6 + t % 6` and `12 + t % 6` of batch entry `t / 6` — the
  pair's query, key and value columns —, the output window into the attended array `[8, 1024, 768]` at block column
  `t % 6`; a block is `[1, 1024, 128]`, so a block's entry `(u, n, l)` is the array's entry at batch `index 0`, row `n`
  and column `128 · index 2 + l`.
-/
import proofs.«113627_j3161095930032_2_alg».proof.Proof.KIReg1
import Idealize.ShloMosaic.Lib.Pipeline.Value
import Idealize.ShloMosaic.Lib.ValueIdx

noncomputable section

namespace Cert.Att.Attn

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole block. -/
theorem hz : (![0, 0, 0] : Fin 3 → Nat) = fun _ => 0 := funext fun a => by fin_cases a <;> rfl

/-- The four windows' block indices at every grid point, decided over the 48 points. -/
theorem idx_facts : ∀ t : Fin cfg1.N,
    win1_0.index t (0 : Fin 3) = t.val / 6 ∧ win1_0.index t (1 : Fin 3) = 0 ∧ win1_0.index t (2 : Fin 3) = t.val % 6
    ∧ win1_1.index t (0 : Fin 3) = t.val / 6 ∧ win1_1.index t (1 : Fin 3) = 0 ∧ win1_1.index t (2 : Fin 3) = 6 + t.val % 6
    ∧ win1_2.index t (0 : Fin 3) = t.val / 6 ∧ win1_2.index t (1 : Fin 3) = 0 ∧ win1_2.index t (2 : Fin 3) = 12 + t.val % 6
    ∧ win1_3.index t (0 : Fin 3) = t.val / 6 ∧ win1_3.index t (1 : Fin 3) = 0 ∧ win1_3.index t (2 : Fin 3) = t.val % 6 :=
  (by decide +kernel : ∀ t : Fin grid1.N, _)

/-- The query window's block at point `t`, at `(u, n, l)`: the projected rows at the block's batch entry, row `n` and
    column `128 · index + l`. -/
theorem iblk0_apply (c : Dev nD) (t : Fin cfg1.N) (u : Fin 1) (n : Fin 1024) (l : Fin 128) (b : Fin 8) (col : Fin 2304)
    (hb : win1_0.index t (0 : Fin 3) = b.val) (h1 : win1_0.index t (1 : Fin 3) = 0)
    (hcol : win1_0.index t (2 : Fin 3) * 128 + l.val = col.val) :
    (iblk1 V c 0 t : Vec Ideal S1x1024x128 .bf16) (ix3 u n l) = (V c main_v2 : S8x1024x2304.Idx → EReal) (ix3 b n col) := by
  unfold iblk1
  rw [View.read_apply]
  show (V c main_v2 : S8x1024x2304.Idx → EReal) _ = _
  congr 1
  funext a
  apply Fin.ext
  match a with
  | ⟨0, _⟩ => show win1_0.index t (0 : Fin 3) * 1 + 1 * u.val = b.val; omega
  | ⟨1, _⟩ => show win1_0.index t (1 : Fin 3) * 1024 + 1 * n.val = n.val; omega
  | ⟨2, _⟩ => show win1_0.index t (2 : Fin 3) * 128 + 1 * l.val = col.val; omega

/-- The key window's block at point `t`, at `(u, n, l)`: the projected rows at the block's batch entry, row `n` and
    column `128 · index + l`. -/
theorem iblk1_apply (c : Dev nD) (t : Fin cfg1.N) (u : Fin 1) (n : Fin 1024) (l : Fin 128) (b : Fin 8) (col : Fin 2304)
    (hb : win1_1.index t (0 : Fin 3) = b.val) (h1 : win1_1.index t (1 : Fin 3) = 0)
    (hcol : win1_1.index t (2 : Fin 3) * 128 + l.val = col.val) :
    (iblk1 V c 1 t : Vec Ideal S1x1024x128 .bf16) (ix3 u n l) = (V c main_v2 : S8x1024x2304.Idx → EReal) (ix3 b n col) := by
  unfold iblk1
  rw [View.read_apply]
  show (V c main_v2 : S8x1024x2304.Idx → EReal) _ = _
  congr 1
  funext a
  apply Fin.ext
  match a with
  | ⟨0, _⟩ => show win1_1.index t (0 : Fin 3) * 1 + 1 * u.val = b.val; omega
  | ⟨1, _⟩ => show win1_1.index t (1 : Fin 3) * 1024 + 1 * n.val = n.val; omega
  | ⟨2, _⟩ => show win1_1.index t (2 : Fin 3) * 128 + 1 * l.val = col.val; omega

/-- The value window's block at point `t`, at `(u, n, l)`: the projected rows at the block's batch entry, row `n` and
    column `128 · index + l`. -/
theorem iblk2_apply (c : Dev nD) (t : Fin cfg1.N) (u : Fin 1) (n : Fin 1024) (l : Fin 128) (b : Fin 8) (col : Fin 2304)
    (hb : win1_2.index t (0 : Fin 3) = b.val) (h1 : win1_2.index t (1 : Fin 3) = 0)
    (hcol : win1_2.index t (2 : Fin 3) * 128 + l.val = col.val) :
    (iblk1 V c 2 t : Vec Ideal S1x1024x128 .bf16) (ix3 u n l) = (V c main_v2 : S8x1024x2304.Idx → EReal) (ix3 b n col) := by
  unfold iblk1
  rw [View.read_apply]
  show (V c main_v2 : S8x1024x2304.Idx → EReal) _ = _
  congr 1
  funext a
  apply Fin.ext
  match a with
  | ⟨0, _⟩ => show win1_2.index t (0 : Fin 3) * 1 + 1 * u.val = b.val; omega
  | ⟨1, _⟩ => show win1_2.index t (1 : Fin 3) * 1024 + 1 * n.val = n.val; omega
  | ⟨2, _⟩ => show win1_2.index t (2 : Fin 3) * 128 + 1 * l.val = col.val; omega

end Cert.Att.Attn

end
-- ==== Proof.AttnLayout.lean ====
/-
  Layout operations of the attention block read at an index written by coordinates, for any extents:

  * a vector `[a]` cast to a column `[a, 1]` reads, at `(i, u)`, the vector at `i` (a row reduction kept as a column);
  * a column `[a, 1]` broadcast to `[a, b]` reads, at `(p, c)`, the column's entry of row `p`;
  * two arrays `[a, b₁]` and `[a, b₂]` put side by side along axis 1 read, at `(i, c)`, the first one at `(i, c)` when
    `c < b₁` and the second one at `(i, c - b₁)` otherwise.
-/
import Idealize.ShloMosaic.Lib.ValueLayout
import Idealize.ShloMosaic.Lib.ValueIdx

namespace Cert.Att.Attn

open Idealize.ShloMosaic Idealize.ShloMosaic.ValueIdx

variable {α : Type}

/-- An `[a]` array cast to the column `[a, 1]` reads, at `(i, u)`, the operand at `i`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays side by side along axis 1, read at a column `c` of the first one. -/
theorem concat_cols_left {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1)
    (i : Fin a) (c : Fin b) (c₁ : Fin b₁) (hc : c₁.val = c.val) :
    concatenate ⟨2, ![a, b]⟩ 1 [⟨⟨2, ![a, b₁]⟩, x₁⟩, ⟨⟨2, ![a, b₂]⟩, x₂⟩] h (ix2 i c) = x₁ (ix2 i c₁) :=
  concatenate_pair_apply_left 1 x₁ x₂ h (ix2 i c) rfl (ix2 i c₁) (fun ax => by
    match ax with
    | ⟨0, _⟩ => rfl
    | ⟨1, _⟩ => exact hc)

/-- Two arrays side by side along axis 1, read at a column `c` past the first one: the second one at `c - b₁`. -/
theorem concat_cols_right {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1)
    (i : Fin a) (c : Fin b) (c₂ : Fin b₂) (hc : c₂.val + b₁ = c.val) :
    concatenate ⟨2, ![a, b]⟩ 1 [⟨⟨2, ![a, b₁]⟩, x₁⟩, ⟨⟨2, ![a, b₂]⟩, x₂⟩] h (ix2 i c) = x₂ (ix2 i c₂) :=
  concatenate_pair_apply_right 1 x₁ x₂ h (ix2 i c) rfl rfl (ix2 i c₂) (fun ax hax => by
    match ax, hax with
    | ⟨0, _⟩, _ => rfl
    | ⟨1, _⟩, hax => exact absurd rfl hax) hc

end Cert.Att.Attn
-- ==== Proof.LibRowDots.lean ====
/-
  Reads at an index, at the ideal values (floats are extended reals), of what an attention block adds to the plain
  row-wise operations, stated for any extents with every index written by coordinates:

  * a product of two rank-2 arrays along their SECOND axes, `[A, K] × [B, K] → [A, B]` — every row of the left operand
    against every row of the right one, as a `tpu.matmul` into the zero accumulator computes it —, read at `(i, c)`, is
    the sum over `k` of `l (i, k) * r (c, k)`;
  * a reduction of a rank-2 array along its rows, `[A, B] → [A]`, read at `p`: by sum, the sum over `k` of the entry
    at `(p, k)`; by maximum, the fold of `max` over them from the accumulator's value;
  * the host's reduction of a rank-3 array along its last axis with a maximum body, `[N, A, B] → [N, A]`, read at
    `(n, p)`: the fold of `max` over `k` of the entry at `(n, p, k)`, from the initial value;
  * an index of rank one, two or three is determined by the values of its coordinates.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Idealize.ShloMosaic.RowDots

open Idealize.ShloMosaic Idealize.ShloMosaic.ValueIdx

/-! ## An index from the values of its coordinates -/

/-- A rank-1 index whose coordinate has the value of `a` is `ix1 a`. -/
theorem idx1_ext {n0 : Nat} (j : (⟨1, ![n0]⟩ : Shape).Idx) (a : Fin n0) (h0 : (j 0).val = a.val) : j = ix1 a :=
  funext fun c => Fin.ext (by match c with | ⟨0, _⟩ => exact h0)

/-- A rank-2 index whose coordinates have the values of `a` and `b` is `ix2 a b`. -/
theorem idx2_ext {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- A rank-3 index whose coordinates have the values of `a`, `b` and `c` is `ix3 a b c`. -/
theorem idx3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun e => Fin.ext (by match e with | ⟨0, _⟩ => exact h0 | ⟨1, _⟩ => exact h1 | ⟨2, _⟩ => exact h2)

/-! ## Rows against rows -/

/-- The dimension numbers of `[A, K] × [B, K] → [A, B]`: both operands' axis 1 contracted, no batch axis. -/
abbrev rowsDims {A K B : Nat}
    (wf : DotDims.WF (⟨2, ![A, K]⟩ : Shape) ⟨2, ![B, K]⟩ ⟨2, ![A, B]⟩ [1] [1] [0] [0] [] []) :
    DotDims (⟨2, ![A, K]⟩ : Shape) ⟨2, ![B, K]⟩ ⟨2, ![A, B]⟩ :=
  ⟨[1], [1], [0], [0], [], [], wf⟩

/-- Off the contracted axis the left operand's index is the result's row. -/
theorem rows_lhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem rows_rhs0 {A K B : Nat} (wf : DotDims.WF (⟨2, ![A, K]⟩ : Shape) ⟨2, ![B, K]⟩ ⟨2, ![A, B]⟩ [1] [1] [0] [0] [] [])
    (j : (⟨2, ![A, B]⟩ : Shape).Idx) (q : (rowsDims wf).contr.Idx) :
    ((rowsDims wf).rhsIdx j q 0).val = (j 1).val := by
  unfold DotDims.rhsIdx
  rw [dif_neg (show ¬(0 : Fin 2) ∈ ([] : List (Fin 2)) from List.not_mem_nil),
    dif_pos (show (0 : Fin 2) ∈ ([0] : List (Fin 2)) from List.mem_singleton.mpr rfl)]
  rfl

/-- The contraction sum of a rows-against-rows product, re-indexed by the contracted coordinate: at `j = (i, c)` the
    left operand is read along its row `i`, the right one along its row `c`. -/
theorem rowsDot_sum {A K B : Nat} (d : DotDims (⟨2, ![A, K]⟩ : Shape) ⟨2, ![B, K]⟩ ⟨2, ![A, B]⟩)
    (hd : ∃ wf, d = rowsDims wf)
    (l : (⟨2, ![A, K]⟩ : Shape).Idx → EReal) (r : (⟨2, ![B, K]⟩ : Shape).Idx → EReal) (j : (⟨2, ![A, B]⟩ : Shape).Idx) :
    ∑ k : d.contr.Idx, l (d.lhsIdx j k) * r (d.rhsIdx j k) = ∑ k : Fin K, l (ix2 (j 0) k) * r (ix2 (j 1) k) := by
  obtain ⟨wf, rfl⟩ := hd
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx j ((contrEquiv1 (rowsDims wf) K rfl rfl).symm k) = ix2 (j 0) k :=
    idx2_ext _ _ _ (rows_lhs0 wf j _) (((rowsDims wf).lhsIdx_val_of_single (cl := 1) rfl j _).trans hk)
  have er : (rowsDims wf).rhsIdx j ((contrEquiv1 (rowsDims wf) K rfl rfl).symm k) = ix2 (j 1) k :=
    idx2_ext _ _ _ (rows_rhs0 wf j _) (((rowsDims wf).rhsIdx_val_of_single (cr := 1) rfl j _).trans hk)
  rw [el, er]
  rfl

/-- A `tpu.matmul` of rows against rows into the zero accumulator, read at `(i, c)`: the sum over `k` of
    `l (i, k) * r (c, k)`. -/
theorem matmul_zero_rows_apply {A K B : Nat} {φ₁ φ₂ : FTy} (d : DotDims (⟨2, ![A, K]⟩ : Shape) ⟨2, ![B, K]⟩ ⟨2, ![A, B]⟩)
    (hd : ∃ wf, d = rowsDims wf) (prec : Option ContractPrecision)
    (l : FVec Ideal (⟨2, ![A, K]⟩ : Shape) φ₁) (r : FVec Ideal (⟨2, ![B, K]⟩ : Shape) φ₂) (i : Fin A) (c : Fin B) :
    FloatOps.matmul d prec l r (constant (⟨2, ![A, B]⟩ : Shape) .f32 0x00000000#32) (ix2 i c)
      = ∑ k : Fin K, l (ix2 i k) * r (ix2 c k) := by
  rw [Ideal.matmul_constant_zero_apply]
  exact rowsDot_sum d hd l r (ix2 i c)

/-! ## Reductions along the rows -/

/-- The reduced index `p` of `[A, B] → [A]` with the column `k` put back is `(p, k)`. -/
theorem lift_row {A B : Nat} (h : (⟨2, ![A, B]⟩ : Shape).Reduces [1] (⟨1, ![A]⟩ : Shape)) (p : Fin A)
    (k : Fin ((⟨2, ![A, B]⟩ : Shape).size 1)) : h.lift (ix1 p) k = ix2 p (⟨k.val, k.isLt⟩ : Fin B) :=
  idx2_ext _ _ _ rfl rfl

/-- A float `vector.multi_reduction <add>` along the rows, read at `p`: the sum of row `p`. -/
theorem rowSum_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ) (hacc : acc = FKind.add.neutral φ hφ)
    (p : Fin A) :
    multiReduction .add [1] (⟨1, ![A]⟩ : Shape) src acc h hφ hacc (ix1 p) = ∑ k : Fin B, src (ix2 p k) := by
  rw [Ideal.multiReduction_add_single]
  exact Finset.sum_congr rfl fun k _ => congrArg src (lift_row h p k)

/-- A float `vector.multi_reduction <maximumf>` along the rows, read at `p`: the fold of `max` over row `p`, from the
    accumulator's value. -/
theorem rowMax_apply {A B : Nat} {φ : FTy} (src : FVec Ideal (⟨2, ![A, B]⟩ : Shape) φ) (acc : BitVec φ.bits)
    (h : (⟨2, ![A, B]⟩ : Shape).Reduces [1] (⟨1, ![A]⟩ : Shape)) (hφ : FKind.Formats φ)
    (hacc : acc = FKind.maximumf.neutral φ hφ) (p : Fin A) :
    multiReduction .maximumf [1] (⟨1, ![A]⟩ : Shape) src acc h hφ hacc (ix1 p)
      = (Finset.univ : Finset (Fin B)).fold max (Ideal.ofBits φ acc) (fun k => src (ix2 p k)) := by
  rw [Ideal.multiReduction_maximumf_single]
  exact congrArg (fun f => Finset.fold max (Ideal.ofBits φ acc) f (Finset.univ : Finset (Fin B)))
    (funext fun k => congrArg src (lift_row h p k))

/-- The reduced index `(n, p)` of `[N, A, B] → [N, A]` with the last coordinate `k` put back is `(n, p, k)`. -/
theorem lift_last3 {N A B : Nat} (h : (⟨3, ![N, A, B]⟩ : Shape).Reduces [2] (⟨2, ![N, A]⟩ : Shape)) (n : Fin N) (p : Fin A)
    (k : Fin ((⟨3, ![N, A, B]⟩ : Shape).size 2)) : h.lift (ix2 n p) k = ix3 n p (⟨k.val, k.isLt⟩ : Fin B) :=
  idx3_ext _ _ _ _ rfl rfl rfl

/-- The host's one-operand `stablehlo.reduce` with a maximum body along the last axis of a rank-3 array, read at
    `(n, p)`: the fold of `max` over `k` of the entry at `(n, p, k)`, from the initial value. -/
theorem hostReduceMax_last3_apply {N A B : Nat} {φ : FTy} {u : Shape} (x : FVec Ideal (⟨3, ![N, A, B]⟩ : Shape) φ)
    (init : u.Idx → Ideal φ) (h' : (⟨3, ![N, A, B]⟩ : Shape).ReducesTo [2] (⟨2, ![N, A]⟩ : Shape))
    (h : (⟨3, ![N, A, B]⟩ : Shape).Reduces [2] (⟨2, ![N, A]⟩ : Shape)) (hu : 0 < u.numel) (n : Fin N) (p : Fin A) :
    Host.reduce FloatOps.maximumf x init h' hu (ix2 n p)
      = (Finset.univ : Finset (Fin B)).fold max (init (Shape.Idx.first hu)) (fun k => x (ix3 n p k)) := by
  rw [Host.reduce_eq_fold_single FloatOps.maximumf x init h' h hu]
  exact congrArg (fun f => Finset.fold max (init (Shape.Idx.first hu)) f (Finset.univ : Finset (Fin B)))
    (funext fun k => congrArg x (lift_last3 h n p k))

end Idealize.ShloMosaic.RowDots

end
-- ==== Proof.AttnScores.lean ====
/-
  The contractions and row reductions of the attention block read at an index, at the ideal values (floats are
  extended reals), for any extents:

  * a product `[A, K] × [K, B] → [A, B]` into the zero accumulator — rows of the left operand against columns of the
    right one — read at `(i, c)` is the sum over `k` of `l (i, k) * r (k, c)`;
  * the maximum along the rows `[A, B] → [A]` from the f32 word of -∞, and the sum along the rows from the zero word,
    read at `p`, with the accumulator's side condition stated as an equation between the two literal words.
-/
import Idealize.ShloMosaic.PureOps.Ideal
import Idealize.ShloMosaic.PureOps.Ideal.Laws
import Idealize.ShloMosaic.Lib.ValueIdx
import proofs.«113627_j3161095930032_2_alg».proof.Proof.LibRowDots

noncomputable section

open scoped BigOperators

namespace Cert.Att.Attn

open Idealize.ShloMosaic Idealize.ShloMosaic.ValueIdx Idealize.ShloMosaic.RowDots

/-! ## Rows against columns -/

/-- The dimension numbers of `[A, K] × [K, B] → [A, B]`: the left operand's axis 1 against the right one's axis 0. -/
abbrev colsDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row. -/
theorem cols_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem cols_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a rows-against-columns product, re-indexed by the contracted coordinate. -/
theorem colsDot_sum {A K B : Nat} (d : DotDims (⟨2, ![A, K]⟩ : Shape) ⟨2, ![K, B]⟩ ⟨2, ![A, B]⟩)
    (hd : ∃ wf, d = colsDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (colsDims wf) K rfl rfl).symm]
  refine Finset.sum_congr rfl fun k _ => ?_
  have hk := contrEquiv1_symm_val (colsDims wf) K rfl rfl k
  have el : (colsDims wf).lhsIdx j ((contrEquiv1 (colsDims wf) K rfl rfl).symm k) = ix2 (j 0) k :=
    idx2_ext _ _ _ (cols_lhs0 wf j _) (((colsDims wf).lhsIdx_val_of_single (cl := 1) rfl j _).trans hk)
  have er : (colsDims wf).rhsIdx j ((contrEquiv1 (colsDims wf) K rfl rfl).symm k) = ix2 k (j 1) :=
    idx2_ext _ _ _ (((colsDims wf).rhsIdx_val_of_single (cr := 0) rfl j _).trans hk) (cols_rhs1 wf j _)
  rw [el, er]
  rfl

/-- A `tpu.matmul` of rows against columns into the zero accumulator, read at `(i, c)`: the sum over `k` of
    `l (i, k) * r (k, c)`. -/
theorem matmul_zero_cols_apply {A K B : Nat} {φ₁ φ₂ : FTy} (d : DotDims (⟨2, ![A, K]⟩ : Shape) ⟨2, ![K, B]⟩ ⟨2, ![A, B]⟩)
    (hd : ∃ wf, d = colsDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact colsDot_sum d hd l r (ix2 i c)

/-! ## The row reductions from their literal accumulators -/

/-- The maximum along the rows from the f32 word of -∞, read at `p`: the fold of `max` over row `p` from that word's
    value. The side condition is the equation between the two literal words, as a program spells it. -/
theorem rowMax_negInf_apply {A B : Nat} (src : FVec Ideal (⟨2, ![A, B]⟩ : Shape) .f32)
    (h : (⟨2, ![A, B]⟩ : Shape).Reduces [1] (⟨1, ![A]⟩ : Shape)) (hφ : FKind.Formats .f32)
    (hacc : (0xFF800000#32 : BitVec 32) = 0xFF800000#32) (p : Fin A) :
    multiReduction .maximumf [1] (⟨1, ![A]⟩ : Shape) src 0xFF800000#32 h hφ hacc (ix1 p)
      = (Finset.univ : Finset (Fin B)).fold max (Ideal.ofBits .f32 0xFF800000#32) (fun k => src (ix2 p k)) :=
  rowMax_apply src 0xFF800000#32 h hφ hacc p

/-- The sum along the rows from the zero word, read at `p`: the sum of row `p`. -/
theorem rowSum_zero_apply {A B : Nat} (src : FVec Ideal (⟨2, ![A, B]⟩ : Shape) .f32)
    (h : (⟨2, ![A, B]⟩ : Shape).Reduces [1] (⟨1, ![A]⟩ : Shape)) (hφ : FKind.Formats .f32)
    (hacc : (0x00000000#32 : BitVec 32) = 0x00000000#32) (p : Fin A) :
    multiReduction .add [1] (⟨1, ![A]⟩ : Shape) src 0x00000000#32 h hφ hacc (ix1 p) = ∑ k : Fin B, src (ix2 p k) :=
  rowSum_apply src 0x00000000#32 h hφ hacc p

end Cert.Att.Attn

end
-- ==== Proof.AttnHead.lean ====
/-
  One head of the attention kernel, over abstract query, key and value blocks `[1024, 64]`, at the ideal values.

  The kernel's chain for a head is cut into four stages, each read at an index:
  * `scores Q K`  : the product of the query rows against the key rows, times 1/8 — `score` of the specification;
  * `expos s`     : `exp (s - rowmax s)`, the row maximum kept as a column and broadcast back;
  * `normed e`    : `e / rowsum e`, the row sum kept as a column and broadcast back, then narrowed;
  * `mixed W V`   : the product of the weights' rows against the value block's columns, narrowed.
  Composed, `mixed (normed (expos (scores Q K))) V` at `(n, d)` is the specification's `attnRow` of the three blocks'
  entries. A change of float format is the identity on extended reals, so the two narrowings read through.
-/
import proofs.«113627_j3161095930032_2_alg».proof.Proof.Gen.KernelIdeal.Skeleton
import proofs.«113627_j3161095930032_2_alg».proof.Proof.Spec
import proofs.«113627_j3161095930032_2_alg».proof.Proof.AttnLayout
import proofs.«113627_j3161095930032_2_alg».proof.Proof.AttnScores

noncomputable section

open scoped BigOperators

namespace Cert.Att.Attn

open Cert.KernelIdeal Cert.KernelIdeal.Gen Idealize.ShloMosaic Idealize.SL.Sem Idealize.ShloMosaic.ValueIdx
open Idealize.ShloMosaic.RowDots

/-! ## The four stages, as the kernel spells them -/

/-- The scaled scores: query rows against key rows into zero, times the f32 word of 1/8. -/
def scores (Qb Kb : FVec Ideal S1024x64 .bf16) : FVec Ideal S1024x1024 .f32 :=
  mulf (matmul dot_S1024x64_S1024x64_S1024x1024_1_1_0_0_n_n none Qb Kb (constant S1024x1024 .f32 0x00000000#32))
    (broadcast S1024x1024 (Scalar.ofBits .f32 0x3E000000#32))

/-- The shifted exponentials: `exp (s - rowmax s)`. -/
def expos (s : FVec Ideal S1024x1024 .f32) : FVec Ideal S1024x1024 .f32 :=
  exp (subf s (broadcastTo S1024x1024 (shapeCast S1024x1
    (multiReduction .maximumf [1] S1024 s 0xFF800000#32 reduces_S1024x1024_S1024 (.inl rfl) rfl)
    shapeCasts_S1024_S1024x1) broadcasts_S1024x1_S1024x1024))

/-- The normalised weights: `e / rowsum e`, narrowed to bf16. -/
def normed (e : FVec Ideal S1024x1024 .f32) : FVec Ideal S1024x1024 .bf16 :=
  truncf .bf16 (divf e (broadcastTo S1024x1024 (shapeCast S1024x1
    (multiReduction .add [1] S1024 e 0x00000000#32 reduces_S1024x1024_S1024 (.inl rfl) rfl)
    shapeCasts_S1024_S1024x1) broadcasts_S1024x1_S1024x1024)) bitsLt_bf16_f32

/-- The weights' rows against the value block's columns into zero, narrowed to bf16. -/
def mixed (W : FVec Ideal S1024x1024 .bf16) (Vb : FVec Ideal S1024x64 .bf16) : FVec Ideal S1024x64 .bf16 :=
  truncf .bf16 (matmul dot_S1024x1024_S1024x64_S1024x64_1_0_0_1_n_n none W Vb (constant S1024x64 .f32 0x00000000#32))
    bitsLt_bf16_f32

/-! ## Each stage read at an index -/

/-- The scores at `(n, m)`: `(∑ d, Q[n,d] * K[m,d]) * (1/8)`. -/
theorem scores_apply (Qb Kb : FVec Ideal S1024x64 .bf16) (n m : Fin 1024) :
    scores Qb Kb (ix2 n m) = score (fun n d => Qb (ix2 n d)) (fun m d => Kb (ix2 m d)) n m := by
  unfold scores score
  rw [mulf_apply, broadcast_apply]
  exact congrArg (· * scale)
    (matmul_zero_rows_apply dot_S1024x64_S1024x64_S1024x1024_1_1_0_0_n_n ⟨_, rfl⟩ none Qb Kb n m)

/-- The row maximum kept as a column and broadcast back, at `(n, m)`: the fold of `max` over row `n` from -∞. -/
theorem rowMaxCol_apply (s : FVec Ideal S1024x1024 .f32) (n m : Fin 1024) :
    broadcastTo S1024x1024 (shapeCast S1024x1
      (multiReduction .maximumf [1] S1024 s 0xFF800000#32 reduces_S1024x1024_S1024 (.inl rfl) rfl)
      shapeCasts_S1024_S1024x1) broadcasts_S1024x1_S1024x1024 (ix2 n m)
      = (Finset.univ : Finset (Fin 1024)).fold max negInf (fun k => s (ix2 n k)) := by
  refine (broadcastTo_a1_ab_apply _ broadcasts_S1024x1_S1024x1024 n m).trans ?_
  refine (shapeCast_a_a1_apply _ shapeCasts_S1024_S1024x1 n (0 : Fin 1)).trans ?_
  exact rowMax_negInf_apply s reduces_S1024x1024_S1024 (.inl rfl) rfl n

/-- The row sum kept as a column and broadcast back, at `(n, m)`: the sum of row `n`. -/
theorem rowSumCol_apply (e : FVec Ideal S1024x1024 .f32) (n m : Fin 1024) :
    broadcastTo S1024x1024 (shapeCast S1024x1
      (multiReduction .add [1] S1024 e 0x00000000#32 reduces_S1024x1024_S1024 (.inl rfl) rfl)
      shapeCasts_S1024_S1024x1) broadcasts_S1024x1_S1024x1024 (ix2 n m)
      = ∑ k : Fin 1024, e (ix2 n k) := by
  refine (broadcastTo_a1_ab_apply _ broadcasts_S1024x1_S1024x1024 n m).trans ?_
  refine (shapeCast_a_a1_apply _ shapeCasts_S1024_S1024x1 n (0 : Fin 1)).trans ?_
  exact rowSum_zero_apply e reduces_S1024x1024_S1024 (.inl rfl) rfl n

/-- The shifted exponentials at `(n, m)`. -/
theorem expos_apply (s : FVec Ideal S1024x1024 .f32) (n m : Fin 1024) :
    expos s (ix2 n m)
      = Ideal.exp (s (ix2 n m) - (Finset.univ : Finset (Fin 1024)).fold max negInf (fun k => s (ix2 n k))) := by
  unfold expos
  show Ideal.exp (subf s _ (ix2 n m)) = _
  rw [subf_apply, rowMaxCol_apply]

/-- The normalised weights at `(n, m)`. -/
theorem normed_apply (e : FVec Ideal S1024x1024 .f32) (n m : Fin 1024) :
    normed e (ix2 n m) = Ideal.div (e (ix2 n m)) (∑ k : Fin 1024, e (ix2 n k)) := by
  unfold normed
  rw [truncf_apply, divf_apply, rowSumCol_apply]

/-- The mixed values at `(n, d)`: `∑ m, W[n,m] * V[m,d]`. -/
theorem mixed_apply (W : FVec Ideal S1024x1024 .bf16) (Vb : FVec Ideal S1024x64 .bf16) (n : Fin 1024) (d : Fin 64) :
    mixed W Vb (ix2 n d) = ∑ m : Fin 1024, W (ix2 n m) * Vb (ix2 m d) := by
  unfold mixed
  rw [truncf_apply]
  exact matmul_zero_cols_apply dot_S1024x1024_S1024x64_S1024x64_1_0_0_1_n_n ⟨_, rfl⟩ none W Vb n d

/-! ## One head -/

/-- The weights of one head at `(n, m)` are the specification's `prob` of the blocks' entries. -/
theorem weights_apply (Qb Kb : FVec Ideal S1024x64 .bf16) (n m : Fin 1024) :
    normed (expos (scores Qb Kb)) (ix2 n m) = prob (fun n d => Qb (ix2 n d)) (fun m d => Kb (ix2 m d)) n m := by
  rw [normed_apply]
  simp only [expos_apply, scores_apply]
  rfl

/-- One head at `(n, d)` is the specification's `attnRow` of the blocks' entries. -/
theorem head_apply (Qb Kb Vb : FVec Ideal S1024x64 .bf16) (n : Fin 1024) (d : Fin 64) :
    mixed (normed (expos (scores Qb Kb))) Vb (ix2 n d)
      = attnRow (fun n d => Qb (ix2 n d)) (fun m d => Kb (ix2 m d)) (fun m d => Vb (ix2 m d)) n d := by
  rw [mixed_apply]
  unfold attnRow
  exact Finset.sum_congr rfl fun m _ => congrArg (· * Vb (ix2 m d)) (weights_apply Qb Kb n m)

end Cert.Att.Attn

end
-- ==== Proof.AttnPayload.lean ====
/-
  The attention kernel's stored block read at an index.

  A grid point loads three blocks `[1, 1024, 128]` — the query, key and value columns of a pair of heads — and stores a
  block of the same shape. Lane `64·h + d` of a block belongs to head `h` of the pair (`h < 2`, `d < 64`). The body drops
  the unit axis, cuts each block into its two column ranges `[0, 64)` and `[64, 128)`, runs one head on each range,
  puts the two results side by side along the lanes and adds the unit axis back. So the stored block at
  `(0, n, 64·h + d)` is the specification's `attnRow` of head `h`'s columns of the three loaded blocks, at `(n, d)`.
-/
import proofs.«113627_j3161095930032_2_alg».proof.Proof.AttnHead

noncomputable section

open scoped BigOperators

namespace Cert.Att.Attn

open Cert.KernelIdeal Cert.KernelIdeal.Gen Idealize.ShloMosaic Idealize.SL.Sem Idealize.ShloMosaic.ValueIdx

/-- Lane `d` of head `hh` of a pair, among the 128 lanes of a block. -/
def lane (hh : Fin 2) (d : Fin 64) : Fin 128 := ⟨64 * hh.val + d.val, by omega⟩

/-! ## The column ranges of a loaded block -/

/-- The first column range of a loaded block, unit axis dropped. -/
def blk0 (x : Vec Ideal S1x1024x128 .bf16) : FVec Ideal S1024x64 .bf16 :=
  extractStridedSlice S1024x64 ![0, 0] (shapeCast S1024x128 x shapeCasts_S1x1024x128_S1024x128) slices_S1024x128_o0_0_S1024x64

/-- The second column range of a loaded block, unit axis dropped. -/
def blk1 (x : Vec Ideal S1x1024x128 .bf16) : FVec Ideal S1024x64 .bf16 :=
  extractStridedSlice S1024x64 ![0, 64] (shapeCast S1024x128 x shapeCasts_S1x1024x128_S1024x128) slices_S1024x128_o0_64_S1024x64

/-- The first column range at `(n, d)` is the block at head 0's lane `d`. -/
theorem blk0_apply (x : Vec Ideal S1x1024x128 .bf16) (n : Fin 1024) (d : Fin 64) (hh : Fin 2) (h0 : hh.val = 0) :
    blk0 x (ix2 n d) = x (ix3 (0 : Fin 1) n (lane hh d)) :=
  (slice2_axis1_apply 0 _ slices_S1024x128_o0_0_S1024x64 n d (lane hh d)
    (by show 64 * hh.val + d.val = 0 + d.val; omega)).trans
    (shapeCast_1ab_ab_apply x shapeCasts_S1x1024x128_S1024x128 n (lane hh d))

/-- The second column range at `(n, d)` is the block at head 1's lane `d`. -/
theorem blk1_apply (x : Vec Ideal S1x1024x128 .bf16) (n : Fin 1024) (d : Fin 64) (hh : Fin 2) (h1 : hh.val = 1) :
    blk1 x (ix2 n d) = x (ix3 (0 : Fin 1) n (lane hh d)) :=
  (slice2_axis1_apply 64 _ slices_S1024x128_o0_64_S1024x64 n d (lane hh d)
    (by show 64 * hh.val + d.val = 64 + d.val; omega)).trans
    (shapeCast_1ab_ab_apply x shapeCasts_S1x1024x128_S1024x128 n (lane hh d))

/-! ## The stored block: two heads side by side -/

/-- The stored block at a lane of head 0 is the first piece. -/
theorem pay1_left (v23 v26 : FVec Ideal S1024x64 .bf16) (v39 : FVec Ideal S1024x1024 .bf16) (n : Fin 1024) (d : Fin 64)
    (hh : Fin 2) (h0 : hh.val = 0) :
    k1_pay1 v23 v26 v39 (ix3 (0 : Fin 1) n (lane hh d)) = v23 (ix2 n d) := by
  unfold k1_pay1
  refine (shapeCast_ab_1ab_apply _ shapeCasts_S1024x128_S1x1024x128 (0 : Fin 1) n (lane hh d)).trans ?_
  exact concat_cols_left v23 _ concatenates_S1024x64_S1024x64_S1024x128_d1 n (lane hh d) d
    (by show d.val = 64 * hh.val + d.val; omega)

/-- The stored block at a lane of head 1 is the second piece: the weights mixed with the value columns. -/
theorem pay1_right (v23 v26 : FVec Ideal S1024x64 .bf16) (v39 : FVec Ideal S1024x1024 .bf16) (n : Fin 1024) (d : Fin 64)
    (hh : Fin 2) (h1 : hh.val = 1) :
    k1_pay1 v23 v26 v39 (ix3 (0 : Fin 1) n (lane hh d)) = mixed v39 v26 (ix2 n d) := by
  unfold k1_pay1
  refine (shapeCast_ab_1ab_apply _ shapeCasts_S1024x128_S1x1024x128 (0 : Fin 1) n (lane hh d)).trans ?_
  exact concat_cols_right v23 _ concatenates_S1024x64_S1024x64_S1024x128_d1 n (lane hh d) d
    (by show d.val + 64 = 64 * hh.val + d.val; omega)

/-- Head 0's result is one head run on the first column ranges. -/
theorem pay5_eq (q k v : Vec Ideal S1x1024x128 .bf16) :
    k1_pay5 q k v = mixed (normed (expos (scores (blk0 q) (blk0 k)))) (blk0 v) := rfl

/-- Head 1's weights are the first three stages run on the second column ranges. -/
theorem pay7_eq (q k : Vec Ideal S1x1024x128 .bf16) :
    k1_pay7 q k = normed (expos (scores (blk1 q) (blk1 k))) := rfl

/-- Head 1's values are the second column range of the value block. -/
theorem pay6_eq (v : Vec Ideal S1x1024x128 .bf16) : k1_pay6 v = blk1 v := rfl

/-- THE STORED BLOCK AT `(0, n, 64·hh + d)`: the specification's attended row of head `hh`'s columns. -/
theorem attn_payload (q k v : Vec Ideal S1x1024x128 .bf16) (n : Fin 1024) (hh : Fin 2) (d : Fin 64) :
    k1_pay1 (k1_pay5 q k v) (k1_pay6 v) (k1_pay7 q k) (ix3 (0 : Fin 1) n (lane hh d))
      = Cert.Att.attnRow (fun n d => q (ix3 (0 : Fin 1) n (lane hh d))) (fun m d => k (ix3 (0 : Fin 1) m (lane hh d)))
          (fun m d => v (ix3 (0 : Fin 1) m (lane hh d))) n d := by
  have hcase : hh.val = 0 ∨ hh.val = 1 := by omega
  rcases hcase with h0 | h1
  · rw [pay1_left _ _ _ n d hh h0, pay5_eq, head_apply]
    simp only [blk0_apply _ _ _ hh h0]
  · rw [pay1_right _ _ _ n d hh h1, pay7_eq, pay6_eq, head_apply]
    simp only [blk1_apply _ _ _ hh h1]

end Cert.Att.Attn

end
-- ==== Proof.AttnPoint.lean ====
/-
  One grid point of the attention kernel against the whole arrays.

  The projected rows `A : [8, 1024, 2304]` hold, for batch entry `b`, the queries in columns `[0, 768)`, the keys in
  `[768, 1536)` and the values in `[1536, 2304)`, head `h` in the 64 columns from `64·h` of each range. The attended
  array `[8, 1024, 768]` at `(b, n, c)` is the specification's `attnRow` of head `c / 64`'s three column ranges of batch
  entry `b`, at row `n` and lane `c % 64` (`attAt`).

  Grid point `(b, p)` is handed columns `[128·p, 128·p + 128)` of each of the three ranges of batch entry `b` — the two
  heads `2p` and `2p + 1` — and what it stores at `(0, n, l)` is `attAt` at `(b, n, 128·p + l)`: lane `l = 64·hh + d` of the
  block is lane `d` of head `2p + hh`, and `128·p + 64·hh + d = 64·(2p + hh) + d`.
-/
import proofs.«113627_j3161095930032_2_alg».proof.Proof.AttnPayload

noncomputable section

open scoped BigOperators

namespace Cert.Att.Attn

open Cert.KernelIdeal Cert.KernelIdeal.Gen Idealize.ShloMosaic Idealize.SL.Sem Idealize.ShloMosaic.ValueIdx

/-- The attended array at `(b, n, c)`, from the projected rows: head `c / 64`, lane `c % 64`. -/
def attAt (A : S8x1024x2304.Idx → EReal) (b : Fin 8) (n : Fin 1024) (c : Fin 768) : EReal :=
  attnRow (fun n d => A (ix3 b n (colQ (headOf c) d))) (fun m d => A (ix3 b m (colK (headOf c) d)))
    (fun m d => A (ix3 b m (colV (headOf c) d))) n (laneOf c)

/-- The attended array as a function of the projected rows. -/
def attArr (A : S8x1024x2304.Idx → EReal) : S8x1024x768.Idx → EReal := fun i => attAt A (i 0) (i 1) (i 2)

/-- At column `64·h + d` the attended array is head `h` at lane `d`. -/
theorem attAt_head (A : S8x1024x2304.Idx → EReal) (b : Fin 8) (n : Fin 1024) (h : Fin 12) (d : Fin 64) :
    attAt A b n (⟨64 * h.val + d.val, by omega⟩ : Fin 768)
      = attnRow (fun n d => A (ix3 b n (colQ h d))) (fun m d => A (ix3 b m (colK h d)))
          (fun m d => A (ix3 b m (colV h d))) n d := by
  unfold attAt
  have hh : headOf (⟨64 * h.val + d.val, by omega⟩ : Fin 768) = h :=
    Fin.ext (by show (64 * h.val + d.val) / 64 = h.val; omega)
  have hd : laneOf (⟨64 * h.val + d.val, by omega⟩ : Fin 768) = d :=
    Fin.ext (by show (64 * h.val + d.val) % 64 = d.val; omega)
  rw [hh, hd]

/-- WHAT GRID POINT `(b, p)` STORES at `(0, n, l)`, its three loaded blocks being columns `128·p + ·` of the three ranges
    of batch entry `b`: the attended array at `(b, n, 128·p + l)`. -/
theorem point_eq (A : S8x1024x2304.Idx → EReal) (x0 x1 x2 : Vec Ideal S1x1024x128 .bf16) (b : Fin 8) (p : Fin 6)
    (h0 : ∀ (n : Fin 1024) (l : Fin 128),
      x0 (ix3 (0 : Fin 1) n l) = A (ix3 b n (⟨128 * p.val + l.val, by omega⟩ : Fin 2304)))
    (h1 : ∀ (n : Fin 1024) (l : Fin 128),
      x1 (ix3 (0 : Fin 1) n l) = A (ix3 b n (⟨768 + (128 * p.val + l.val), by omega⟩ : Fin 2304)))
    (h2 : ∀ (n : Fin 1024) (l : Fin 128),
      x2 (ix3 (0 : Fin 1) n l) = A (ix3 b n (⟨1536 + (128 * p.val + l.val), by omega⟩ : Fin 2304)))
    (n : Fin 1024) (l : Fin 128) :
    k1_pay1 (k1_pay5 x0 x1 x2) (k1_pay6 x2) (k1_pay7 x0 x1) (ix3 (0 : Fin 1) n l)
      = attAt A b n (⟨128 * p.val + l.val, by omega⟩ : Fin 768) := by
  obtain ⟨hh, d, rfl⟩ : ∃ (hh : Fin 2) (d : Fin 64), l = lane hh d :=
    ⟨⟨l.val / 64, by omega⟩, ⟨l.val % 64, by omega⟩, Fin.ext (by show l.val = 64 * (l.val / 64) + l.val % 64; omega)⟩
  rw [attn_payload]
  unfold attAt
  have hd : laneOf (⟨128 * p.val + (lane hh d).val, by omega⟩ : Fin 768) = d :=
    Fin.ext (by show (128 * p.val + (64 * hh.val + d.val)) % 64 = d.val; omega)
  have eQ : (fun (n : Fin 1024) (d' : Fin 64) => x0 (ix3 (0 : Fin 1) n (lane hh d')))
      = fun n d' => A (ix3 b n (colQ (headOf (⟨128 * p.val + (lane hh d).val, by omega⟩ : Fin 768)) d')) :=
    funext fun n' => funext fun d' => (h0 n' (lane hh d')).trans (congrArg (fun k => A (ix3 b n' k)) (Fin.ext (by
      show 128 * p.val + (64 * hh.val + d'.val) = 64 * ((128 * p.val + (64 * hh.val + d.val)) / 64) + d'.val; omega)))
  have eK : (fun (m : Fin 1024) (d' : Fin 64) => x1 (ix3 (0 : Fin 1) m (lane hh d')))
      = fun m d' => A (ix3 b m (colK (headOf (⟨128 * p.val + (lane hh d).val, by omega⟩ : Fin 768)) d')) :=
    funext fun m' => funext fun d' => (h1 m' (lane hh d')).trans (congrArg (fun k => A (ix3 b m' k)) (Fin.ext (by
      show 768 + (128 * p.val + (64 * hh.val + d'.val))
        = 768 + (64 * ((128 * p.val + (64 * hh.val + d.val)) / 64) + d'.val); omega)))
  have eV : (fun (m : Fin 1024) (d' : Fin 64) => x2 (ix3 (0 : Fin 1) m (lane hh d')))
      = fun m d' => A (ix3 b m (colV (headOf (⟨128 * p.val + (lane hh d).val, by omega⟩ : Fin 768)) d')) :=
    funext fun m' => funext fun d' => (h2 m' (lane hh d')).trans (congrArg (fun k => A (ix3 b m' k)) (Fin.ext (by
      show 1536 + (128 * p.val + (64 * hh.val + d'.val))
        = 1536 + (64 * ((128 * p.val + (64 * hh.val + d.val)) / 64) + d'.val); omega)))
  rw [eQ, eK, eV, hd]

end Cert.Att.Attn

end
-- ==== Proof.AttnFinal.lean ====
/-
  The attended array after the attention region.

  What a grid point writes back is its block of ONE whole-array function of the projected rows, the specification's
  attended rows; the 48 blocks `[1, 1024, 128]` tile the array `[8, 1024, 768]`, entry `(b, n, c)` lying in the block of
  point `6·b + c / 128`; so the array ends holding that function, whatever the order of the write-backs.
-/
import proofs.«113627_j3161095930032_2_alg».proof.Proof.AttnGrid
import proofs.«113627_j3161095930032_2_alg».proof.Proof.AttnPoint

noncomputable section

namespace Cert.Att.Attn

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- WHAT POINT `t` WRITES BACK is its block of the attended array of the projected rows as the region finds them. -/
theorem flushed_eq (c : Dev nD) (t : Fin cfg1.N) :
    (dat1 V c).flushed 3 t
      = ((cfg1.win 3).blk t).view.read (Elt Ideal) (attArr (V c main_v2 : S8x1024x2304.Idx → EReal)) := by
  show (cfg1.win 3).cut (grid1.coords t) ((dat1 V c).after 3 t) = _
  rw [after1_3]
  unfold out1_3
  rw [View.canon_unit_zero hz]
  simp only [View.ld_unit_zero (S := S1x1024x128) hz]
  funext y
  obtain ⟨e00, e01, e02, e10, e11, e12, e20, e21, e22, e30, e31, e32⟩ := idx_facts t
  have ht : t.val < 48 := lt_of_lt_of_eq t.isLt N_1
  have hy0 : (y 0).val < 1 := (y 0).isLt
  have hy1 : (y 1).val < 1024 := (y 1).isLt
  have hy2 : (y 2).val < 128 := (y 2).isLt
  -- the block index `y`, and the array index under it, by coordinates
  have hx : (cfg1.win 3).xinj (grid1.coords t) y
      = (ix3 (0 : Fin 1) (⟨(y 1).val, hy1⟩ : Fin 1024) (⟨(y 2).val, hy2⟩ : Fin 128) : S1x1024x128.Idx) :=
    funext fun a => Fin.ext (by
      match a with
      | ⟨0, _⟩ => show (y 0).val = 0; omega
      | ⟨1, _⟩ => rfl
      | ⟨2, _⟩ => rfl)
  have hemb : (((cfg1.win 3).blk t).view.emb y : S8x1024x768.Idx)
      = ix3 (⟨t.val / 6, by omega⟩ : Fin 8) (⟨(y 1).val, hy1⟩ : Fin 1024)
          (⟨128 * (t.val % 6) + (y 2).val, by omega⟩ : Fin 768) :=
    funext fun a => Fin.ext (by
      match a with
      | ⟨0, _⟩ => show win1_3.index t (0 : Fin 3) * 1 + 1 * (y 0).val = t.val / 6; omega
      | ⟨1, _⟩ => show win1_3.index t (1 : Fin 3) * 1024 + 1 * (y 1).val = (y 1).val; omega
      | ⟨2, _⟩ => show win1_3.index t (2 : Fin 3) * 128 + 1 * (y 2).val = 128 * (t.val % 6) + (y 2).val; omega)
  rw [View.read_apply]
  show k1_pay1 (F := Ideal) _ _ _ ((cfg1.win 3).xinj (grid1.coords t) y)
    = attArr (V c main_v2 : S8x1024x2304.Idx → EReal) (((cfg1.win 3).blk t).view.emb y)
  rw [hx, hemb]
  exact point_eq (V c main_v2 : S8x1024x2304.Idx → EReal) _ _ _ (⟨t.val / 6, by omega⟩ : Fin 8) (⟨t.val % 6, by omega⟩ : Fin 6)
    (fun n l => iblk0_apply V c t 0 n l _ _ e00 e01
      (by show win1_0.index t (2 : Fin 3) * 128 + l.val = 128 * (t.val % 6) + l.val; omega))
    (fun n l => iblk1_apply V c t 0 n l _ _ e10 e11
      (by show win1_1.index t (2 : Fin 3) * 128 + l.val = 768 + (128 * (t.val % 6) + l.val); omega))
    (fun n l => iblk2_apply V c t 0 n l _ _ e20 e21
      (by show win1_2.index t (2 : Fin 3) * 128 + l.val = 1536 + (128 * (t.val % 6) + l.val); omega))
    ⟨(y 1).val, hy1⟩ ⟨(y 2).val, hy2⟩

/-- An index of the attended array is in point `t`'s block iff each coordinate is in the block's range on its axis. -/
theorem mem_blk3 (t : Fin cfg1.N) (i : S8x1024x768.Idx) :
    i ∈ ((cfg1.win 3).blk t).view.set ↔ ∀ a : Fin 3, win1_3.index t a * S1x1024x128.size a ≤ (i a).val
      ∧ (i a).val < win1_3.index t a * S1x1024x128.size a + S1x1024x128.size a := by
  show i ∈ ((View.whole main_v3).slice (win1_3.rect t)).set ↔ _
  rw [View.set_slice_whole, Rect.mem_set_unit]
  exact Iff.rfl

/-- Every index of the attended array is in some point's block: `(b, n, c)` in that of point `6·b + c / 128`. -/
theorem cover3 (i : S8x1024x768.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 768 := (i 2).isLt
  have hlt : 6 * (i 0).val + (i 2).val / 128 < cfg1.N := lt_of_lt_of_eq (by omega) N_1.symm
  refine ⟨⟨6 * (i 0).val + (i 2).val / 128, hlt⟩, flush1_3 _, ?_⟩
  obtain ⟨-, -, -, -, -, -, -, -, -, e30, e31, e32⟩ := idx_facts ⟨6 * (i 0).val + (i 2).val / 128, hlt⟩
  have q0 : win1_3.index ⟨6 * (i 0).val + (i 2).val / 128, hlt⟩ (0 : Fin 3) = (6 * (i 0).val + (i 2).val / 128) / 6 := e30
  have q2 : win1_3.index ⟨6 * (i 0).val + (i 2).val / 128, hlt⟩ (2 : Fin 3) = (6 * (i 0).val + (i 2).val / 128) % 6 := e32
  rw [mem_blk3]
  intro a
  match a with
  | ⟨0, _⟩ =>
    show win1_3.index ⟨6 * (i 0).val + (i 2).val / 128, hlt⟩ (0 : Fin 3) * 1 ≤ (i 0).val
      ∧ (i 0).val < win1_3.index ⟨6 * (i 0).val + (i 2).val / 128, hlt⟩ (0 : Fin 3) * 1 + 1
    omega
  | ⟨1, _⟩ =>
    show win1_3.index ⟨6 * (i 0).val + (i 2).val / 128, hlt⟩ (1 : Fin 3) * 1024 ≤ (i 1).val
      ∧ (i 1).val < win1_3.index ⟨6 * (i 0).val + (i 2).val / 128, hlt⟩ (1 : Fin 3) * 1024 + 1024
    omega
  | ⟨2, _⟩ =>
    show win1_3.index ⟨6 * (i 0).val + (i 2).val / 128, hlt⟩ (2 : Fin 3) * 128 ≤ (i 2).val
      ∧ (i 2).val < win1_3.index ⟨6 * (i 0).val + (i 2).val / 128, hlt⟩ (2 : Fin 3) * 128 + 128
    omega

/-- THE ATTENDED ARRAY AFTER THE REGION: the specification's attended rows of the projected rows as the region finds
    them, at every index. -/
theorem final_arr (c : Dev nD) :
    (dat1 V c).arrAt 3 cfg1.N = attArr (V c main_v2 : S8x1024x2304.Idx → EReal) :=
  (dat1 V c).arrAt_eq_of_cover 3 (attArr (V c main_v2 : S8x1024x2304.Idx → EReal)) (fun t _ => flushed_eq V c t) cover3

/-- Read at batch entry `b`, row `n`, head `h` and lane `d`. -/
theorem final1 (c : Dev nD) (b : Fin 8) (n : Fin 1024) (h : Fin 12) (d : Fin 64) :
    (Cert.KernelIdeal.Fr.dat1 V c).arrAt 3 cfg1.N (ix3 b n (⟨64 * h.val + d.val, by omega⟩ : Fin 768))
      = Cert.Att.attnRow (fun n d => (V c main_v2 : S8x1024x2304.Idx → EReal) (ix3 b n (Cert.Att.colQ h d)))
          (fun m d => (V c main_v2 : S8x1024x2304.Idx → EReal) (ix3 b m (Cert.Att.colK h d)))
          (fun m d => (V c main_v2 : S8x1024x2304.Idx → EReal) (ix3 b m (Cert.Att.colV h d))) n d :=
  (congrFun (final_arr V c) _).trans (attAt_head _ b n h d)

end Cert.Att.Attn

end
-- ==== Proof.KIValue.lean ====
/-
  What the kernel program's result buffer holds, at the exact extended reals, as a function of the four argument
  arrays: the attention block of the specification.

  The last region's write-backs leave, at (b, n, o), the attended row of (b, n) contracted with the transposed
  output weight plus the bias row; the attended rows are what the attention region's write-backs left, head by head
  the softmax attention of the head's query, key and value columns of the projected rows; and the projected rows are
  what the first region's write-backs left, the activations' rows contracted with the transposed joint weight. Reading
  each operand back to the launch memory gives the specification's formula term by term: the same sums over the same
  index ranges, so no fact about finiteness is used.
-/
import proofs.«113627_j3161095930032_2_alg».proof.Proof.KIHost
import proofs.«113627_j3161095930032_2_alg».proof.Proof.Spec
import proofs.«113627_j3161095930032_2_alg».proof.Proof.MatHost
import proofs.«113627_j3161095930032_2_alg».proof.Proof.MatFinal0
import proofs.«113627_j3161095930032_2_alg».proof.Proof.MatFinal2
import proofs.«113627_j3161095930032_2_alg».proof.Proof.AttnFinal

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The four argument arrays at launch, as arrays of extended reals. -/
abbrev ax (c : Dev nD) : Cert.Att.XArr := m ((c : Thread nD τ).loc main_arg0)
abbrev awq (c : Dev nD) : Cert.Att.WqArr := m ((c : Thread nD τ).loc main_arg1)
abbrev awp (c : Dev nD) : Cert.Att.WpArr := m ((c : Thread nD τ).loc main_arg2)
abbrev ab (c : Dev nD) : Cert.Att.BArr := m ((c : Thread nD τ).loc main_arg3)

/-- Two projected-row formulas agree when their activations agree along the row and their weights agree up to the
    transposition. -/
theorem qkvAt_eq (X : S8x1024x768.Idx → EReal) (W : S768x2304.Idx → EReal) (X' : Cert.Att.XArr) (W' : Cert.Att.WqArr)
    (b : Fin 8) (n : Fin 1024) (f : Fin 2304)
    (hX : ∀ k : Fin 768, X (ix3 b n k) = X' (ix3 b n k)) (hW : ∀ k : Fin 768, W (ix2 k f) = W' (ix2 f k)) :
    Cert.Att.Mat.qkvAt X W b n f = Cert.Att.qkv X' W' b n f := by
  unfold Cert.Att.Mat.qkvAt Cert.Att.qkv
  exact Finset.sum_congr rfl fun k _ => by rw [hX k, hW k]

/-- Two output-projection formulas agree when their attended rows agree along the row, their weights agree up to the
    transposition, and the bias row is the bias. -/
theorem projAt_eq (A : S8x1024x768.Idx → EReal) (W : S768x768.Idx → EReal) (B : S1x768.Idx → EReal)
    (A' : Fin 768 → EReal) (W' : Cert.Att.WpArr) (B' : Cert.Att.BArr) (b : Fin 8) (n : Fin 1024) (o : Fin 768)
    (hA : ∀ k : Fin 768, A (ix3 b n k) = A' k) (hW : ∀ k : Fin 768, W (ix2 k o) = W' (ix2 o k))
    (hB : B (ix2 (0 : Fin 1) o) = B' (ix1 o)) :
    Cert.Att.Mat.projAt A W B b n o = (∑ k : Fin 768, A' k * W' (ix2 o k)) + B' (ix1 o) := by
  unfold Cert.Att.Mat.projAt
  rw [hB]
  exact congrArg (· + B' (ix1 o)) (Finset.sum_congr rfl fun k _ => by rw [hA k, hW k])

/-- The projected rows, as the attention region finds them. -/
theorem qkv_apply (c : Dev nD) (b : Fin 8) (n : Fin 1024) (f : Fin 2304) :
    (B2 m ρ c main_v2) (ix3 b n f) = Cert.Att.qkv (ax m c) (awq m c) b n f :=
  (congrFun (B2_v2 m ρ c) _).trans <| (Cert.Att.Mat.final0 (B1 m ρ) c b n f).trans <|
    qkvAt_eq _ _ (ax m c) (awq m c) b n f (fun k => congrFun (B1_arg0 m ρ c) _)
      (fun k => (congrFun (B1_v1 m ρ c) _).trans (Cert.Att.Mat.wqT_apply _ k f))

/-- The attended rows, as the last region finds them. -/
theorem att_apply (c : Dev nD) (b : Fin 8) (n : Fin 1024) (k : Fin 768) :
    (B4 m ρ c main_v3 : S8x1024x768.Idx → EReal) (ix3 b n k) = Cert.Att.att (ax m c) (awq m c) b n k := by
  rw [B4_v3 m ρ c]
  have hk : (⟨64 * (Cert.Att.headOf k).val + (Cert.Att.laneOf k).val, by
      have := (Cert.Att.headOf k).isLt; have := (Cert.Att.laneOf k).isLt; omega⟩ : Fin 768) = k :=
    Fin.ext (by show 64 * (k.val / 64) + k.val % 64 = k.val; omega)
  have h1 := Cert.Att.Attn.final1 (B2 m ρ) c b n (Cert.Att.headOf k) (Cert.Att.laneOf k)
  rw [hk] at h1
  refine h1.trans ?_
  unfold Cert.Att.att Cert.Att.headOut
  have eQ : (fun (n : Fin 1024) (d : Fin 64) => (B2 m ρ c main_v2 : S8x1024x2304.Idx → EReal) (ix3 b n (Cert.Att.colQ (Cert.Att.headOf k) d)))
      = fun n d => Cert.Att.qkv (ax m c) (awq m c) b n (Cert.Att.colQ (Cert.Att.headOf k) d) :=
    funext fun n => funext fun d => qkv_apply m ρ c b n _
  have eK : (fun (n : Fin 1024) (d : Fin 64) => (B2 m ρ c main_v2 : S8x1024x2304.Idx → EReal) (ix3 b n (Cert.Att.colK (Cert.Att.headOf k) d)))
      = fun n d => Cert.Att.qkv (ax m c) (awq m c) b n (Cert.Att.colK (Cert.Att.headOf k) d) :=
    funext fun n => funext fun d => qkv_apply m ρ c b n _
  have eV : (fun (n : Fin 1024) (d : Fin 64) => (B2 m ρ c main_v2 : S8x1024x2304.Idx → EReal) (ix3 b n (Cert.Att.colV (Cert.Att.headOf k) d)))
      = fun n d => Cert.Att.qkv (ax m c) (awq m c) b n (Cert.Att.colV (Cert.Att.headOf k) d) :=
    funext fun n => funext fun d => qkv_apply m ρ c b n _
  rw [eQ, eK, eV]

/-- The result at (b, n, o). -/
theorem out_apply (c : Dev nD) (b : Fin 8) (n : Fin 1024) (o : Fin 768) :
    ((dat2 (B4 m ρ) c).arrAt 3 cfg2.N) (ix3 b n o)
      = Cert.Att.outAt (ax m c) (awq m c) (awp m c) (ab m c) b n o :=
  (Cert.Att.Mat.final2 (B4 m ρ) c b n o).trans <|
    projAt_eq _ _ _ (fun k => Cert.Att.att (ax m c) (awq m c) b n k) (awp m c) (ab m c) b n o
      (fun k => att_apply m ρ c b n k)
      (fun k => (congrFun (B4_v5 m ρ c) _).trans (Cert.Att.Mat.wpT_apply _ k o))
      ((congrFun (B4_v6 m ρ c) _).trans (Cert.Att.Mat.bias_row_apply _ o))

/-- The result buffer after the run is the specification's array of the four argument arrays. -/
theorem result (c : Dev nD) :
    (dat2 (B4 m ρ) c).arrAt 3 cfg2.N = Cert.Att.out (ax m c) (awq m c) (awp m c) (ab m c) := by
  funext i
  obtain ⟨b, n, o, rfl⟩ : ∃ (b : Fin 8) (n : Fin 1024) (o : Fin 768), i = ix3 b n o := ⟨i 0, i 1, i 2, eq_ix3 i⟩
  exact out_apply m ρ c b n o

end Cert.KernelIdeal.Fr

end
-- ==== Proof.RefProj.lean ====
/-
  The projected rows of the reference: its first contraction, read at (b, n, f), is the sum over the 768 input
  features c of x[b,n,c] · wq[f,c] — the specification's qkv[b,n,f].
-/
import proofs.«113627_j3161095930032_2_alg».proof.Proof.Spec
import proofs.«113627_j3161095930032_2_alg».proof.Proof.Gen.ReferenceIdeal.Read

noncomputable section

open scoped BigOperators

namespace Cert.Att.Ref

open Idealize.ShloMosaic Idealize.ShloMosaic.ValueIdx
open Cert.ReferenceIdeal Cert.ReferenceIdeal.Gen Cert.ReferenceIdeal.Read

/-- The first contraction at (b, n, f) is the projected row entry qkv[b,n,f]. -/
theorem proj_at (x : FVec Ideal S8x1024x768 .f32) (wq : FVec Ideal S2304x768 .f32)
    (b : Fin 8) (n : Fin 1024) (f : Fin 2304) :
    val_main_v0 (F := Ideal) x wq (ix3 b n f) = Cert.Att.qkv x wq b n f := by
  refine (val_main_v0_apply x wq (ix3 b n f)).trans ?_
  unfold Cert.Att.qkv
  refine Finset.sum_congr rfl fun k _ => ?_
  have el : lidx_main_v0 (ix3 b n f) k = ix3 b n k :=
    funext fun a => by match a with | ⟨0, _⟩ => rfl | ⟨1, _⟩ => rfl | ⟨2, _⟩ => rfl
  have er : ridx_main_v0 (ix3 b n f) k = ix2 f k :=
    funext fun a => by match a with | ⟨0, _⟩ => rfl | ⟨1, _⟩ => rfl
  rw [el, er]

end Cert.Att.Ref

end
-- ==== Proof.RefLayout.lean ====
/-
  The re-layout of the projected rows into per-head queries, keys and values. The reference views a projected row
  of 2304 features as 3 × 12 × 64 (part, head, lane), moves the part and the head in front of the row, and cuts out
  the three parts. So entry (b, h, n, d) of part s is the projected row (b, n) at feature (12·s + h)·64 + d:
  64h + d for the queries, 768 + 64h + d for the keys, 1536 + 64h + d for the values.
-/
import proofs.«113627_j3161095930032_2_alg».proof.Proof.Spec
import proofs.«113627_j3161095930032_2_alg».proof.Proof.Gen.ReferenceIdeal.Read

noncomputable section

open scoped BigOperators

namespace Cert.Att.Ref

open Idealize.ShloMosaic Idealize.ShloMosaic.ValueIdx
open Cert.ReferenceIdeal Cert.ReferenceIdeal.Gen Cert.ReferenceIdeal.Read

/-- Dropping the leading unit axis: the row-major position of (b, h, n, d) is that of (0, b, h, n, d). -/
theorem idx_unit (b : Fin 8) (h : Fin 12) (n : Fin 1024) (d : Fin 64) :
    idx_main_v4 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

/-- The feature of a projected row that holds part `s`, head `h`, lane `d`. -/
def colOf (s : Fin 3) (h : Fin 12) (d : Fin 64) : Fin 2304 :=
  ⟨(s.val * 12 + h.val) * 64 + d.val, by have := s.isLt; have := h.isLt; have := d.isLt; omega⟩

/-- Splitting the feature axis: (b, n, s, h, d) of the five-axis view is (b, n, (12s + h)·64 + d) of the rows. -/
theorem idx_split (b : Fin 8) (n : Fin 1024) (s : Fin 3) (h : Fin 12) (d : Fin 64) :
    idx_main_v1 (ix5 b n s h d) = ix3 b n (colOf s h d) :=
  funext fun a => Fin.ext (by
    have hb := b.isLt; have hh := h.isLt; have hn := n.isLt; have hd := d.isLt; have hs := s.isLt
    match a with
    | ⟨0, _⟩ => show ((((b.val * 1024 + n.val) * 3 + s.val) * 12 + h.val) * 64 + d.val) / 2359296 = b.val; omega
    | ⟨1, _⟩ => show ((((b.val * 1024 + n.val) * 3 + s.val) * 12 + h.val) * 64 + d.val) / 2304 % 1024 = n.val; omega
    | ⟨2, _⟩ => show ((((b.val * 1024 + n.val) * 3 + s.val) * 12 + h.val) * 64 + d.val) % 2304 = (s.val * 12 + h.val) * 64 + d.val; omega)

theorem colOf_zero (h : Fin 12) (d : Fin 64) : colOf 0 h d = Cert.Att.colQ h d :=
  Fin.ext (by show (0 * 12 + h.val) * 64 + d.val = 64 * h.val + d.val; omega)
theorem colOf_one (h : Fin 12) (d : Fin 64) : colOf 1 h d = Cert.Att.colK h d :=
  Fin.ext (by show (1 * 12 + h.val) * 64 + d.val = 768 + (64 * h.val + d.val); omega)
theorem colOf_two (h : Fin 12) (d : Fin 64) : colOf 2 h d = Cert.Att.colV h d :=
  Fin.ext (by show (2 * 12 + h.val) * 64 + d.val = 1536 + (64 * h.val + d.val); omega)

variable (x : FVec Ideal S8x1024x768 .f32) (wq : FVec Ideal S2304x768 .f32)

/-- The transposed five-axis view at (s, b, h, n, d) is the projected row (b, n) at the feature of (s, h, d). -/
theorem parts_at (s : Fin 3) (b : Fin 8) (h : Fin 12) (n : Fin 1024) (d : Fin 64) :
    val_main_v2 (F := Ideal) x wq (ix5 s b h n d) = val_main_v0 (F := Ideal) x wq (ix3 b n (colOf s h d)) := by
  refine (val_main_v2_apply (F := Ideal) x wq _).trans ?_
  have e : idx_main_v2 (ix5 s b h n d) = ix5 b n s h d :=
    funext fun a => by match a with | ⟨0, _⟩ => rfl | ⟨1, _⟩ => rfl | ⟨2, _⟩ => rfl | ⟨3, _⟩ => rfl | ⟨4, _⟩ => rfl
  rw [e]
  refine (val_main_v1_apply (F := Ideal) x wq _).trans ?_
  rw [idx_split]

/-- The queries: (b, h, n, d) is the projected row (b, n) at column 64h + d. -/
theorem q_at (b : Fin 8) (h : Fin 12) (n : Fin 1024) (d : Fin 64) :
    val_main_v4 (F := Ideal) x wq (ix4 b h n d) = val_main_v0 (F := Ideal) x wq (ix3 b n (Cert.Att.colQ h d)) := by
  refine (val_main_v4_apply (F := Ideal) x wq _).trans ?_
  rw [idx_unit]
  refine (val_main_v3_apply (F := Ideal) x wq _).trans ?_
  have e : idx_main_v3 (ix5 (0 : Fin 1) b h n d) = ix5 (0 : Fin 3) b h n d :=
    funext fun a => by match a with | ⟨0, _⟩ => rfl | ⟨1, _⟩ => rfl | ⟨2, _⟩ => rfl | ⟨3, _⟩ => rfl | ⟨4, _⟩ => rfl
  rw [e, parts_at, colOf_zero]

/-- The keys: (b, h, n, d) is the projected row (b, n) at column 768 + 64h + d. -/
theorem k_at (b : Fin 8) (h : Fin 12) (n : Fin 1024) (d : Fin 64) :
    val_main_v6 (F := Ideal) x wq (ix4 b h n d) = val_main_v0 (F := Ideal) x wq (ix3 b n (Cert.Att.colK h d)) := by
  refine (val_main_v6_apply (F := Ideal) x wq _).trans ?_
  have e0 : idx_main_v6 (ix4 b h n d) = ix5 (0 : Fin 1) b h n d := idx_unit b h n d
  rw [e0]
  refine (val_main_v5_apply (F := Ideal) x wq _).trans ?_
  have e : idx_main_v5 (ix5 (0 : Fin 1) b h n d) = ix5 (1 : Fin 3) b h n d :=
    funext fun a => by match a with | ⟨0, _⟩ => rfl | ⟨1, _⟩ => rfl | ⟨2, _⟩ => rfl | ⟨3, _⟩ => rfl | ⟨4, _⟩ => rfl
  rw [e, parts_at, colOf_one]

/-- The values: (b, h, n, d) is the projected row (b, n) at column 1536 + 64h + d. -/
theorem v_at (b : Fin 8) (h : Fin 12) (n : Fin 1024) (d : Fin 64) :
    val_main_v8 (F := Ideal) x wq (ix4 b h n d) = val_main_v0 (F := Ideal) x wq (ix3 b n (Cert.Att.colV h d)) := by
  refine (val_main_v8_apply (F := Ideal) x wq _).trans ?_
  have e0 : idx_main_v8 (ix4 b h n d) = ix5 (0 : Fin 1) b h n d := idx_unit b h n d
  rw [e0]
  refine (val_main_v7_apply (F := Ideal) x wq _).trans ?_
  have e : idx_main_v7 (ix5 (0 : Fin 1) b h n d) = ix5 (2 : Fin 3) b h n d :=
    funext fun a => by match a with | ⟨0, _⟩ => rfl | ⟨1, _⟩ => rfl | ⟨2, _⟩ => rfl | ⟨3, _⟩ => rfl | ⟨4, _⟩ => rfl
  rw [e, parts_at, colOf_two]

end Cert.Att.Ref

end
-- ==== Proof.RefScore.lean ====
/-
  Scores and their row maxima. For a batch entry b and a head h, the reference's scaled product of queries and
  keys at (b, h, n, m) is the specification's score of query row n against key row m, for the head's query and key
  columns of the projected rows; its maximum over the keys, taken as a fold of max from -∞ and then once more
  against -∞, is the specification's row maximum (the second maximum changes nothing: -∞ is already below the fold
  that starts from it).
-/
import proofs.«113627_j3161095930032_2_alg».proof.Proof.RefProj
import proofs.«113627_j3161095930032_2_alg».proof.Proof.RefLayout

noncomputable section

open scoped BigOperators

namespace Cert.Att.Ref

open Idealize.ShloMosaic Idealize.ShloMosaic.ValueIdx
open Cert.ReferenceIdeal Cert.ReferenceIdeal.Gen Cert.ReferenceIdeal.Read

variable (x : FVec Ideal S8x1024x768 .f32) (wq : FVec Ideal S2304x768 .f32)

/-- Head `h`'s query rows of batch entry `b`: columns 64h + d of the projected rows. -/
abbrev Qr (b : Fin 8) (h : Fin 12) : Fin 1024 → Fin 64 → EReal := fun n d => Cert.Att.qkv x wq b n (Cert.Att.colQ h d)
/-- Head `h`'s key rows: columns 768 + 64h + d. -/
abbrev Kr (b : Fin 8) (h : Fin 12) : Fin 1024 → Fin 64 → EReal := fun m d => Cert.Att.qkv x wq b m (Cert.Att.colK h d)
/-- Head `h`'s value rows: columns 1536 + 64h + d. -/
abbrev Vr (b : Fin 8) (h : Fin 12) : Fin 1024 → Fin 64 → EReal := fun m d => Cert.Att.qkv x wq b m (Cert.Att.colV h d)

/-- The scaled product of queries and keys at (b, h, n, m) is the score of row n against row m. -/
theorem score_at (b : Fin 8) (h : Fin 12) (n m : Fin 1024) :
    val_main_v11 (F := Ideal) x wq (ix4 b h n m) = Cert.Att.score (Qr x wq b h) (Kr x wq b h) n m := by
  refine (val_main_v11_apply (F := Ideal) x wq _).trans ?_
  rw [val_main_v9_apply, val_main_v10_apply (F := Ideal), val_main_cst_apply (F := Ideal), Ideal.mulf_def, Ideal.ofBits_def]
  unfold Cert.Att.score
  refine congrArg (· * Cert.Att.scale) (Finset.sum_congr rfl fun k _ => ?_)
  have el : lidx_main_v9 (ix4 b h n m) k = ix4 b h n k :=
    funext fun a => by match a with | ⟨0, _⟩ => rfl | ⟨1, _⟩ => rfl | ⟨2, _⟩ => rfl | ⟨3, _⟩ => rfl
  have er : ridx_main_v9 (ix4 b h n m) k = ix4 b h m k :=
    funext fun a => by match a with | ⟨0, _⟩ => rfl | ⟨1, _⟩ => rfl | ⟨2, _⟩ => rfl | ⟨3, _⟩ => rfl
  rw [el, er, q_at, k_at, proj_at, proj_at]

/-- -∞ is below every row maximum: the fold starts from it. -/
theorem negInf_le_rowMax (Q K : Fin 1024 → Fin 64 → EReal) (n : Fin 1024) :
    Cert.Att.negInf ≤ Cert.Att.rowMax Q K n :=
  (Finset.le_fold_max _).2 (Or.inl le_rfl)

/-- The maximum over the keys at (b, h, n) is the row maximum of the scores. -/
theorem fold_at (b : Fin 8) (h : Fin 12) (n : Fin 1024) :
    val_main_v12 (F := Ideal) x wq (ix3 b h n) = Cert.Att.rowMax (Qr x wq b h) (Kr x wq b h) n := by
  have hr : S8x12x1024x1024.Reduces [3] S8x12x1024 := by decide
  unfold val_main_v12
  refine (Host.reduce_eq_fold_single (FloatOps.maximumf (F := Ideal) (φ := .f32)) (val_main_v11 (F := Ideal) x wq)
    (val_main_cst_0 (F := Ideal)) reducesTo_S8x12x1024x1024_S8x12x1024_d3 hr h_S_ (ix3 b h n)).trans ?_
  unfold Cert.Att.rowMax
  show Finset.fold max Cert.Att.negInf (fun m : Fin 1024 => val_main_v11 (F := Ideal) x wq (hr.lift (ix3 b h n) m)) Finset.univ = _
  refine Finset.fold_congr fun m _ => ?_
  have e : hr.lift (ix3 b h n) m = ix4 b h n m :=
    funext fun a => Fin.ext (by match a with | ⟨0, _⟩ => rfl | ⟨1, _⟩ => rfl | ⟨2, _⟩ => rfl | ⟨3, _⟩ => rfl)
  rw [e]
  exact score_at x wq b h n m

/-- The maximum against the -∞ splat leaves the row maximum. -/
theorem rowmax_at (b : Fin 8) (h : Fin 12) (n : Fin 1024) :
    val_main_v14 (F := Ideal) x wq (ix3 b h n) = Cert.Att.rowMax (Qr x wq b h) (Kr x wq b h) n := by
  refine (val_main_v14_apply (F := Ideal) x wq _).trans ?_
  rw [val_main_v13_apply (F := Ideal), val_main_cst_1_apply (F := Ideal), Ideal.maximumf_def, Ideal.ofBits_def, fold_at]
  exact max_eq_right (negInf_le_rowMax _ _ n)

end Cert.Att.Ref

end
-- ==== Proof.RefSoftmax.lean ====
/-
  The attention weights. At (b, h, n, m) the reference subtracts the row maximum from the score, exponentiates,
  sums the exponentials over the keys m (from the zero word, which adds nothing) and divides each exponential by
  that sum: the specification's shifted exponential, normaliser and weight for head h of batch entry b.
-/
import proofs.«113627_j3161095930032_2_alg».proof.Proof.RefScore

noncomputable section

open scoped BigOperators

namespace Cert.Att.Ref

open Idealize.ShloMosaic Idealize.ShloMosaic.ValueIdx
open Cert.ReferenceIdeal Cert.ReferenceIdeal.Gen Cert.ReferenceIdeal.Read

variable (x : FVec Ideal S8x1024x768 .f32) (wq : FVec Ideal S2304x768 .f32)

/-- The exponential of the shifted score. -/
theorem expo_at (b : Fin 8) (h : Fin 12) (n m : Fin 1024) :
    val_main_v18 (F := Ideal) x wq (ix4 b h n m) = Cert.Att.expo (Qr x wq b h) (Kr x wq b h) n m := by
  refine (val_main_v18_apply (F := Ideal) x wq _).trans ?_
  rw [Ideal.hostUnary_exp_def, val_main_v17_apply (F := Ideal), Ideal.subf_def, val_main_v16_apply (F := Ideal),
    val_main_v15_apply (F := Ideal)]
  have e : idx_main_v15 (idx_main_v16 (ix4 b h n m)) = ix3 b h n :=
    funext fun a => by match a with | ⟨0, _⟩ => rfl | ⟨1, _⟩ => rfl | ⟨2, _⟩ => rfl
  rw [e, rowmax_at, score_at]
  rfl

/-- The sum of the exponentials over the keys. -/
theorem denom_at (b : Fin 8) (h : Fin 12) (n : Fin 1024) :
    val_main_v19 (F := Ideal) x wq (ix3 b h n) = Cert.Att.denom (Qr x wq b h) (Kr x wq b h) n := by
  refine (val_main_v19_apply x wq _).trans ?_
  rw [val_main_cst_2_apply (F := Ideal), Ideal.ofBits_def, Ideal.ofBits_zero_f32, zero_add]
  unfold Cert.Att.denom
  refine Finset.sum_congr rfl fun k _ => ?_
  have e : idx_main_v19 (ix3 b h n) k = ix4 b h n k :=
    funext fun a => by match a with | ⟨0, _⟩ => rfl | ⟨1, _⟩ => rfl | ⟨2, _⟩ => rfl | ⟨3, _⟩ => rfl
  rw [e]
  exact expo_at x wq b h n k

/-- The attention weight of key m for query n. -/
theorem prob_at (b : Fin 8) (h : Fin 12) (n m : Fin 1024) :
    val_main_v22 (F := Ideal) x wq (ix4 b h n m) = Cert.Att.prob (Qr x wq b h) (Kr x wq b h) n m := by
  refine (val_main_v22_apply (F := Ideal) x wq _).trans ?_
  rw [Ideal.hostDivf_def, val_main_v21_apply (F := Ideal), val_main_v20_apply (F := Ideal)]
  have e : idx_main_v20 (idx_main_v21 (ix4 b h n m)) = ix3 b h n :=
    funext fun a => by match a with | ⟨0, _⟩ => rfl | ⟨1, _⟩ => rfl | ⟨2, _⟩ => rfl
  rw [e, denom_at, expo_at]
  rfl

end Cert.Att.Ref

end
-- ==== Proof.RefHead.lean ====
/-
  Head outputs and their merge. At (b, h, n, d) the reference contracts the attention weights of query n with the
  head's value rows over the keys: the specification's attended row of head h. It then puts the row index before
  the head and flattens (head, lane) into one feature axis of 768 = 12 · 64, so feature c of row (b, n) is head
  c / 64, lane c % 64.
-/
import proofs.«113627_j3161095930032_2_alg».proof.Proof.RefSoftmax

noncomputable section

open scoped BigOperators

namespace Cert.Att.Ref

open Idealize.ShloMosaic Idealize.ShloMosaic.ValueIdx
open Cert.ReferenceIdeal Cert.ReferenceIdeal.Gen Cert.ReferenceIdeal.Read

variable (x : FVec Ideal S8x1024x768 .f32) (wq : FVec Ideal S2304x768 .f32)

/-- The weighted sum of the value rows at (b, h, n, d) is head h's output. -/
theorem head_at (b : Fin 8) (h : Fin 12) (n : Fin 1024) (d : Fin 64) :
    val_main_v23 (F := Ideal) x wq (ix4 b h n d) = Cert.Att.headOut x wq b h n d := by
  refine (val_main_v23_apply x wq _).trans ?_
  unfold Cert.Att.headOut Cert.Att.attnRow
  refine Finset.sum_congr rfl fun k _ => ?_
  have el : lidx_main_v23 (ix4 b h n d) k = ix4 b h n k :=
    funext fun a => by match a with | ⟨0, _⟩ => rfl | ⟨1, _⟩ => rfl | ⟨2, _⟩ => rfl | ⟨3, _⟩ => rfl
  have er : ridx_main_v23 (ix4 b h n d) k = ix4 b h k d :=
    funext fun a => by match a with | ⟨0, _⟩ => rfl | ⟨1, _⟩ => rfl | ⟨2, _⟩ => rfl | ⟨3, _⟩ => rfl
  rw [el, er, prob_at, v_at, proj_at]

/-- Feature c of the merged row (b, n) is lane c % 64 of head c / 64. -/
theorem idx_merge (b : Fin 8) (n : Fin 1024) (c : Fin 768) :
    idx_main_v25 (ix3 b n c) = ix4 b n (Cert.Att.headOf c) (Cert.Att.laneOf c) :=
  funext fun a => Fin.ext (by
    have hb := b.isLt; have hn := n.isLt; have hc := c.isLt
    match a with
    | ⟨0, _⟩ => show ((b.val * 1024 + n.val) * 768 + c.val) / 786432 = b.val; omega
    | ⟨1, _⟩ => show ((b.val * 1024 + n.val) * 768 + c.val) / 768 % 1024 = n.val; omega
    | ⟨2, _⟩ => show ((b.val * 1024 + n.val) * 768 + c.val) / 64 % 12 = c.val / 64; omega
    | ⟨3, _⟩ => show ((b.val * 1024 + n.val) * 768 + c.val) % 64 = c.val % 64; omega)

/-- The merged row at (b, n, c) is the specification's attended row. -/
theorem att_at (b : Fin 8) (n : Fin 1024) (c : Fin 768) :
    val_main_v25 (F := Ideal) x wq (ix3 b n c) = Cert.Att.att x wq b n c := by
  refine (val_main_v25_apply (F := Ideal) x wq _).trans ?_
  rw [idx_merge]
  refine (val_main_v24_apply (F := Ideal) x wq _).trans ?_
  have e : idx_main_v24 (ix4 b n (Cert.Att.headOf c) (Cert.Att.laneOf c)) = ix4 b (Cert.Att.headOf c) n (Cert.Att.laneOf c) :=
    funext fun a => by match a with | ⟨0, _⟩ => rfl | ⟨1, _⟩ => rfl | ⟨2, _⟩ => rfl | ⟨3, _⟩ => rfl
  rw [e, head_at]
  rfl

end Cert.Att.Ref

end
-- ==== Proof.RefOut.lean ====
/-
  The output projection and the whole reference. At (b, n, o) the reference contracts the merged row with the
  projection's weight over the 768 features and adds the bias, broadcast over rows and batch entries: the
  specification's result. So the reference's result array is the specification's, index by index.
-/
import proofs.«113627_j3161095930032_2_alg».proof.Proof.RefHead

noncomputable section

open scoped BigOperators

namespace Cert.Att.Ref

open Idealize.ShloMosaic Idealize.ShloMosaic.ValueIdx
open Cert.ReferenceIdeal Cert.ReferenceIdeal.Gen Cert.ReferenceIdeal.Read

/-- The last stage at (b, n, o): the projected attended row plus the bias. -/
theorem out_at (x : FVec Ideal S8x1024x768 .f32) (wq : FVec Ideal S2304x768 .f32) (wp : FVec Ideal S768x768 .f32)
    (bias : FVec Ideal S768 .f32) (b : Fin 8) (n : Fin 1024) (o : Fin 768) :
    val_main_v29 (F := Ideal) x wq wp bias (ix3 b n o) = Cert.Att.outAt x wq wp bias b n o := by
  refine (val_main_v29_apply (F := Ideal) x wq wp bias _).trans ?_
  rw [Ideal.addf_def, val_main_v26_apply, val_main_v28_apply (F := Ideal), val_main_v27_apply (F := Ideal)]
  unfold Cert.Att.outAt
  have eb : idx_main_v27 (idx_main_v28 (ix3 b n o)) = ix1 o :=
    funext fun a => by match a with | ⟨0, _⟩ => rfl
  rw [eb]
  refine congrArg (· + bias (ix1 o)) (Finset.sum_congr rfl fun k _ => ?_)
  have el : lidx_main_v26 (ix3 b n o) k = ix3 b n k :=
    funext fun a => by match a with | ⟨0, _⟩ => rfl | ⟨1, _⟩ => rfl | ⟨2, _⟩ => rfl
  have er : ridx_main_v26 (ix3 b n o) k = ix2 o k :=
    funext fun a => by match a with | ⟨0, _⟩ => rfl | ⟨1, _⟩ => rfl
  rw [el, er, att_at]

/-- The reference's last stage is the specification's result array. -/
theorem result_eq (x : FVec Ideal S8x1024x768 .f32) (wq : FVec Ideal S2304x768 .f32) (wp : FVec Ideal S768x768 .f32)
    (b : FVec Ideal S768 .f32) :
    val_main_v29 (F := Ideal) x wq wp b = Cert.Att.out x wq wp b := by
  funext i
  obtain ⟨p, q, r, rfl⟩ : ∃ (p : Fin 8) (q : Fin 1024) (r : Fin 768), i = ix3 p q r := ⟨i 0, i 1, i 2, eq_ix3 i⟩
  exact out_at x wq wp b p q r

open Idealize.ShloMosaic.TcCoe Idealize.SL.Sem in
/-- The result the reference's run names is the specification's array of the four argument arrays. -/
theorem res_eq (m : (ℓ : Loc nD τ sig) → Buf (Elt Ideal) ℓ) (c : Dev nD) :
    Cert.ReferenceIdeal.Value.res_main_v29 (F := Ideal) m c
      = Cert.Att.out (m ((c.tc : Thread nD τ).loc main_arg0)) (m ((c.tc : Thread nD τ).loc main_arg1))
          (m ((c.tc : Thread nD τ).loc main_arg2)) (m ((c.tc : Thread nD τ).loc main_arg3)) :=
  (val_main_v29_eq (F := Ideal) m c).trans (result_eq _ _ _ _)

end Cert.Att.Ref

end
-- ==== Proof.lean ====
/-
  The attention block: a fused kernel program against its plain reference, equal at the exact extended reals.

  The kernel program makes the query/key/value rows by one projection kernel (rows of the activations against the
  transposed joint weight), runs softmax attention for two heads at a time in a second kernel that reads its three
  operands out of that one array of projected rows, and applies the output projection with its bias in a third. The
  reference computes the same block with whole-array operations: one contraction, a re-layout into heads, batched
  scores scaled by 1/8, a softmax over the keys, the batched weighted sum of the values, the merge of the heads and
  the output projection. Both are shown to compute ONE function of the four argument arrays (the specification
  `Cert.Att.out`): every entry of the result is the same sums over the same index ranges on both sides, with the
  same row maximum (a fold of max from -∞) and the same exponential and quotient, so nothing about the inputs'
  finiteness is used.

  The three frames: each kernel program runs as five segments of its main function (host operations, three kernel
  regions, host operations), each region's grid points running the kernel body on staged blocks; the attention
  region's three input windows hold separate shares of the one array they read. The reference's frame is its run
  with the result dropped. The idealized kernel is the printed kernel read at the exact instance with no rewrite, so
  that conjunct is trivial.
-/
import proofs.«113627_j3161095930032_2_alg».proof.Defs
import proofs.«113627_j3161095930032_2_alg».proof.Proof.Gen.Kernel
import proofs.«113627_j3161095930032_2_alg».proof.Proof.Gen.KernelIdeal
import proofs.«113627_j3161095930032_2_alg».proof.Proof.Gen.ReferenceIdeal
import proofs.«113627_j3161095930032_2_alg».proof.Proof.Gen.ReferenceIdeal.Run
import proofs.«113627_j3161095930032_2_alg».proof.Proof.Gen.Pre_finite_inputs
import proofs.«113627_j3161095930032_2_alg».proof.Proof.KRun
import proofs.«113627_j3161095930032_2_alg».proof.Proof.KIRun
import proofs.«113627_j3161095930032_2_alg».proof.Proof.KIValue
import proofs.«113627_j3161095930032_2_alg».proof.Proof.RefOut
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_k : Cert.frame_Kernel := fun m ρ _ => Cert.Kernel.Fr.frame m ρ

/-- The same of the kernel program read at the exact extended reals. -/
theorem frame_ki : Cert.frame_KernelIdeal := fun m ρ _ => Cert.KernelIdeal.Fr.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the exact instance. -/
theorem preserves : Cert.preserves_Kernel_KernelIdeal := trivial

/-- From memories that agree on the four arguments, both programs end with the result buffer at the specification's
    array of those arguments. -/
theorem algebraic : Cert.algebraic_KernelIdeal_ReferenceIdeal := by
  intro m ρ m' ρ' _ hagree
  refine ⟨fun c => Cert.Att.out (Cert.KernelIdeal.Fr.ax m c) (Cert.KernelIdeal.Fr.awq m c) (Cert.KernelIdeal.Fr.awp m c)
      (Cert.KernelIdeal.Fr.ab m c), ?_, ?_⟩
  · exact (θ_run Cert.KernelIdeal.defs _ _).mono
      (fun _ h c => ⟨(h c).1.trans (Cert.KernelIdeal.Fr.result m ρ c), (h c).2⟩) (Cert.KernelIdeal.Fr.run (F := Ideal) m ρ)
  · refine (θ_run Cert.ReferenceIdeal.defs _ _).mono (fun _ h c => ⟨(h c).1.trans ?_, (h c).2⟩)
      (Cert.ReferenceIdeal.Value.run (F := Ideal) m' ρ')
    rw [Cert.Att.Ref.res_eq m' c, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
